-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v157)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v157) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v295) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S2x800000 32) (main_arg2 : FVec F S50000x128 .f32) (main_arg3 : IVec S2x800000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S800000x128 : Shape := ⟨2, ![800000, 128]⟩
abbrev S1x128 : Shape := ⟨2, ![1, 128]⟩
abbrev S5000x1 : Shape := ⟨2, ![5000, 1]⟩

abbrev nBuf : Space → Nat
  | .hbm => 204
  | .vmem => 100
  | .smem => 0
  | _ => 0

abbrev hbmTy0_0 (i : Nat) : BufTy := match i % 128 with
  | 0 => ⟨S50000x128, .f32⟩
  | 1 => ⟨S2x800000, .i32⟩
  | 2 => ⟨S50000x128, .f32⟩
  | 3 => ⟨S2x800000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S1x800000, .i32⟩
  | 15 => ⟨S800000, .i32⟩
  | 16 => ⟨S1x800000, .i32⟩
  | 17 => ⟨S800000, .i32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S50000, .f32⟩
  | 48 => ⟨S50000x1, .f32⟩
  | 49 => ⟨S50000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x1, .f32⟩
  | 60 => ⟨S800000x128, .f32⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S1x128, .f32⟩
  | 67 => ⟨S50000x128, .f32⟩
  | 68 => ⟨S50000x128, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x128, .f32⟩
  | 78 => ⟨S800000x1, .f32⟩
  | 79 => ⟨S800000x128, .f32⟩
  | 80 => ⟨S800000x128, .f32⟩
  | 81 => ⟨S_, .f32⟩
  | 82 => ⟨S50000x128, .f32⟩
  | 83 => ⟨S800000x1, .i32⟩
  | 84 => ⟨S50000x128, .f32⟩
  | 85 => ⟨S1x128, .f32⟩
  | 86 => ⟨S50000x128, .f32⟩
  | 87 => ⟨S50000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S800000x1, .f32⟩
  | 98 => ⟨S800000x128, .f32⟩
  | 99 => ⟨S800000x128, .f32⟩
  | 100 => ⟨S_, .f32⟩
  | 101 => ⟨S50000x128, .f32⟩
  | 102 => ⟨S800000x1, .i32⟩
  | 103 => ⟨S50000x128, .f32⟩
  | 104 => ⟨S1x128, .f32⟩
  | 105 => ⟨S50000x128, .f32⟩
  | 106 => ⟨S1x128, .f32⟩
  | 107 => ⟨S1x128, .f32⟩
  | 108 => ⟨S50000x128, .f32⟩
  | 109 => ⟨S1x800000, .i32⟩
  | 110 => ⟨S800000, .i32⟩
  | 111 => ⟨S1x800000, .i32⟩
  | 112 => ⟨S800000, .i32⟩
  | 113 => ⟨S_, .f32⟩
  | 114 => ⟨S800000, .f32⟩
  | 115 => ⟨S_, .f32⟩
  | 116 => ⟨S50000, .f32⟩
  | 117 => ⟨S800000x1, .i32⟩
  | 118 => ⟨S50000, .f32⟩
  | 119 => ⟨S_, .f32⟩
  | 120 => ⟨S50000, .f32⟩
  | 121 => ⟨S50000, .f32⟩
  | 122 => ⟨S50000, .f32⟩
  | 123 => ⟨S_, .i32⟩
  | 124 => ⟨S800000, .i32⟩
  | 125 => ⟨S800000, .i1⟩
  | 126 => ⟨S_, .i32⟩
  | 127 => ⟨S800000, .i32⟩
  | _ => ⟨S50000x128, .f32⟩

abbrev hbmTy0_1 (i : Nat) : BufTy := match i % 128 with
  | 0 => ⟨S800000, .i32⟩
  | 1 => ⟨S800000, .i32⟩
  | 2 => ⟨S800000x1, .i32⟩
  | 3 => ⟨S800000, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000, .f32⟩
  | 13 => ⟨S800000, .f32⟩
  | 14 => ⟨S50000, .f32⟩
  | 15 => ⟨S50000x1, .f32⟩
  | 16 => ⟨S50000x128, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S800000x1, .f32⟩
  | 27 => ⟨S800000x128, .f32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S1x128, .f32⟩
  | 34 => ⟨S50000x128, .f32⟩
  | 35 => ⟨S50000x128, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S800000x1, .f32⟩
  | 46 => ⟨S800000x128, .f32⟩
  | 47 => ⟨S800000x128, .f32⟩
  | 48 => ⟨S_, .f32⟩
  | 49 => ⟨S50000x128, .f32⟩
  | 50 => ⟨S800000x1, .i32⟩
  | 51 => ⟨S50000x128, .f32⟩
  | 52 => ⟨S1x128, .f32⟩
  | 53 => ⟨S50000x128, .f32⟩
  | 54 => ⟨S50000x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S800000x1, .f32⟩
  | 65 => ⟨S800000x128, .f32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S1x128, .f32⟩
  | 72 => ⟨S50000x128, .f32⟩
  | 73 => ⟨S1x128, .f32⟩
  | 74 => ⟨S1x128, .f32⟩
  | 75 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S128x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x1, .f32⟩
  | .local _ .vmem, ⟨60, _⟩ => ⟨S5000x1, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S128x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x1, .f32⟩
  | .local _ .vmem, ⟨74, _⟩ => ⟨S5000x1, .f32⟩
  | .local _ .vmem, ⟨75, _⟩ => ⟨S1x128, .f32⟩
  | .local _ .vmem, ⟨76, _⟩ => ⟨S5000x128, .f32⟩
  | .local _ .vmem, ⟨77, _⟩ => ⟨S5000x128, .f32⟩
  | .local _ .vmem, ⟨78, _⟩ => ⟨S5000x128, .f32⟩
  | .local _ .vmem, ⟨79, _⟩ => ⟨S5000x128, .f32⟩
  | .local _ .vmem, ⟨80, _⟩ => ⟨S128x128, .f32⟩
  | .local _ .vmem, ⟨81, _⟩ => ⟨S5000x128, .f32⟩
  | .local _ .vmem, ⟨82, _⟩ => ⟨S5000x128, .f32⟩
  | .local _ .vmem, ⟨83, _⟩ => ⟨S5000x128, .f32⟩
  | .local _ .vmem, ⟨84, _⟩ => ⟨S5000x128, .f32⟩
  | .local _ .vmem, ⟨85, _⟩ => ⟨S5000x128, .f32⟩
  | .local _ .vmem, ⟨86, _⟩ => ⟨S5000x128, .f32⟩
  | .local _ .vmem, ⟨87, _⟩ => ⟨S5000x1, .f32⟩
  | .local _ .vmem, ⟨88, _⟩ => ⟨S5000x1, .f32⟩
  | .local _ .vmem, ⟨89, _⟩ => ⟨S1x128, .f32⟩
  | .local _ .vmem, ⟨90, _⟩ => ⟨S5000x128, .f32⟩
  | .local _ .vmem, ⟨91, _⟩ => ⟨S5000x128, .f32⟩
  | .local _ .vmem, ⟨92, _⟩ => ⟨S5000x128, .f32⟩
  | .local _ .vmem, ⟨93, _⟩ => ⟨S5000x128, .f32⟩
  | .local _ .vmem, ⟨94, _⟩ => ⟨S128x128, .f32⟩
  | .local _ .vmem, ⟨95, _⟩ => ⟨S1x128, .f32⟩
  | .local _ .vmem, ⟨96, _⟩ => ⟨S128x128, .f32⟩
  | .local _ .vmem, ⟨97, _⟩ => ⟨S1x128, .f32⟩
  | .local _ .vmem, ⟨98, _⟩ => ⟨S5000x128, .f32⟩
  | .local _ .vmem, ⟨99, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | _, _ => false

abbrev semScoped : Fin 0 → Bool
  | ⟨_, h⟩ => absurd h (Nat.not_lt_zero _)

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  ofTc nBuf bufTy 0 100 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_8 : Ref sig .tc := ⟨.hbm, 69, rfl⟩
abbrev main_v45 : Ref sig .tc := ⟨.hbm, 70, rfl⟩
abbrev main_v46 : Ref sig .tc := ⟨.hbm, 71, rfl⟩
abbrev main_c_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_11 : Ref sig .tc := ⟨.hbm, 88, rfl⟩
abbrev main_v61 : Ref sig .tc := ⟨.hbm, 89, rfl⟩
abbrev main_v62 : Ref sig .tc := ⟨.hbm, 90, rfl⟩
abbrev main_c_12 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_13 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_14 : Ref sig .tc := ⟨.hbm, 113, rfl⟩
abbrev main_v83 : Ref sig .tc := ⟨.hbm, 114, rfl⟩
abbrev main_cst_15 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_16 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_c_17 : Ref sig .tc := ⟨.hbm, 123, rfl⟩
abbrev main_v90 : Ref sig .tc := ⟨.hbm, 124, rfl⟩
abbrev main_v91 : Ref sig .tc := ⟨.hbm, 125, rfl⟩
abbrev main_c_18 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_c_19 : Ref sig .tc := ⟨.hbm, 132, rfl⟩
abbrev main_v97 : Ref sig .tc := ⟨.hbm, 133, rfl⟩
abbrev main_v98 : Ref sig .tc := ⟨.hbm, 134, rfl⟩
abbrev main_c_20 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_c_21 : Ref sig .tc := ⟨.hbm, 145, rfl⟩
abbrev main_v108 : Ref sig .tc := ⟨.hbm, 146, rfl⟩
abbrev main_v109 : Ref sig .tc := ⟨.hbm, 147, rfl⟩
abbrev main_c_22 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_23 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_c_24 : Ref sig .tc := ⟨.hbm, 164, rfl⟩
abbrev main_v124 : Ref sig .tc := ⟨.hbm, 165, rfl⟩
abbrev main_v125 : Ref sig .tc := ⟨.hbm, 166, rfl⟩
abbrev main_c_25 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_cst_26 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_c_27 : Ref sig .tc := ⟨.hbm, 183, rfl⟩
abbrev main_v140 : Ref sig .tc := ⟨.hbm, 184, rfl⟩
abbrev main_v141 : Ref sig .tc := ⟨.hbm, 185, rfl⟩
abbrev main_c_28 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_cst_29 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg5_0 : Ref sig .tc := ⟨.vmem, 48, rfl⟩
abbrev cc6_stg5_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg2_0 : Ref sig .tc := ⟨.vmem, 53, rfl⟩
abbrev cc7_stg2_1 : Ref sig .tc := ⟨.vmem, 54, rfl⟩
abbrev cc8_stg0_0 : Ref sig .tc := ⟨.vmem, 55, rfl⟩
abbrev cc8_stg0_1 : Ref sig .tc := ⟨.vmem, 56, rfl⟩
abbrev cc8_stg1_0 : Ref sig .tc := ⟨.vmem, 57, rfl⟩
abbrev cc8_stg1_1 : Ref sig .tc := ⟨.vmem, 58, rfl⟩
abbrev cc8_stg2_0 : Ref sig .tc := ⟨.vmem, 59, rfl⟩
abbrev cc8_stg2_1 : Ref sig .tc := ⟨.vmem, 60, rfl⟩
abbrev cc8_stg3_0 : Ref sig .tc := ⟨.vmem, 61, rfl⟩
abbrev cc8_stg4_0 : Ref sig .tc := ⟨.vmem, 62, rfl⟩
abbrev cc8_stg4_1 : Ref sig .tc := ⟨.vmem, 63, rfl⟩
abbrev cc9_stg0_0 : Ref sig .tc := ⟨.vmem, 64, rfl⟩
abbrev cc9_stg0_1 : Ref sig .tc := ⟨.vmem, 65, rfl⟩
abbrev cc9_stg1_0 : Ref sig .tc := ⟨.vmem, 66, rfl⟩
abbrev cc9_stg2_0 : Ref sig .tc := ⟨.vmem, 67, rfl⟩
abbrev cc9_stg2_1 : Ref sig .tc := ⟨.vmem, 68, rfl⟩
abbrev cc10_stg0_0 : Ref sig .tc := ⟨.vmem, 69, rfl⟩
abbrev cc10_stg0_1 : Ref sig .tc := ⟨.vmem, 70, rfl⟩
abbrev cc10_stg1_0 : Ref sig .tc := ⟨.vmem, 71, rfl⟩
abbrev cc10_stg1_1 : Ref sig .tc := ⟨.vmem, 72, rfl⟩
abbrev cc10_stg2_0 : Ref sig .tc := ⟨.vmem, 73, rfl⟩
abbrev cc10_stg2_1 : Ref sig .tc := ⟨.vmem, 74, rfl⟩
abbrev cc10_stg3_0 : Ref sig .tc := ⟨.vmem, 75, rfl⟩
abbrev cc10_stg4_0 : Ref sig .tc := ⟨.vmem, 76, rfl⟩
abbrev cc10_stg4_1 : Ref sig .tc := ⟨.vmem, 77, rfl⟩
abbrev cc11_stg0_0 : Ref sig .tc := ⟨.vmem, 78, rfl⟩
abbrev cc11_stg0_1 : Ref sig .tc := ⟨.vmem, 79, rfl⟩
abbrev cc11_stg1_0 : Ref sig .tc := ⟨.vmem, 80, rfl⟩
abbrev cc11_stg2_0 : Ref sig .tc := ⟨.vmem, 81, rfl⟩
abbrev cc11_stg2_1 : Ref sig .tc := ⟨.vmem, 82, rfl⟩
abbrev cc12_stg0_0 : Ref sig .tc := ⟨.vmem, 83, rfl⟩
abbrev cc12_stg0_1 : Ref sig .tc := ⟨.vmem, 84, rfl⟩
abbrev cc12_stg1_0 : Ref sig .tc := ⟨.vmem, 85, rfl⟩
abbrev cc12_stg1_1 : Ref sig .tc := ⟨.vmem, 86, rfl⟩
abbrev cc12_stg2_0 : Ref sig .tc := ⟨.vmem, 87, rfl⟩
abbrev cc12_stg2_1 : Ref sig .tc := ⟨.vmem, 88, rfl⟩
abbrev cc12_stg3_0 : Ref sig .tc := ⟨.vmem, 89, rfl⟩
abbrev cc12_stg4_0 : Ref sig .tc := ⟨.vmem, 90, rfl⟩
abbrev cc12_stg4_1 : Ref sig .tc := ⟨.vmem, 91, rfl⟩
abbrev cc13_stg0_0 : Ref sig .tc := ⟨.vmem, 92, rfl⟩
abbrev cc13_stg0_1 : Ref sig .tc := ⟨.vmem, 93, rfl⟩
abbrev cc13_stg1_0 : Ref sig .tc := ⟨.vmem, 94, rfl⟩
abbrev cc13_stg2_0 : Ref sig .tc := ⟨.vmem, 95, rfl⟩
abbrev cc13_stg3_0 : Ref sig .tc := ⟨.vmem, 96, rfl⟩
abbrev cc13_stg4_0 : Ref sig .tc := ⟨.vmem, 97, rfl⟩
abbrev cc13_stg5_0 : Ref sig .tc := ⟨.vmem, 98, rfl⟩
abbrev cc13_stg5_1 : Ref sig .tc := ⟨.vmem, 99, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem4_0 : DmaSem sig := 47
abbrev cc6_sem5_0 : DmaSem sig := 48
abbrev cc6_sem5_1 : DmaSem sig := 49
abbrev cc7_sem0_0 : DmaSem sig := 50
abbrev cc7_sem0_1 : DmaSem sig := 51
abbrev cc7_sem1_0 : DmaSem sig := 52
abbrev cc7_sem2_0 : DmaSem sig := 53
abbrev cc7_sem2_1 : DmaSem sig := 54
abbrev cc8_sem0_0 : DmaSem sig := 55
abbrev cc8_sem0_1 : DmaSem sig := 56
abbrev cc8_sem1_0 : DmaSem sig := 57
abbrev cc8_sem1_1 : DmaSem sig := 58
abbrev cc8_sem2_0 : DmaSem sig := 59
abbrev cc8_sem2_1 : DmaSem sig := 60
abbrev cc8_sem3_0 : DmaSem sig := 61
abbrev cc8_sem4_0 : DmaSem sig := 62
abbrev cc8_sem4_1 : DmaSem sig := 63
abbrev cc9_sem0_0 : DmaSem sig := 64
abbrev cc9_sem0_1 : DmaSem sig := 65
abbrev cc9_sem1_0 : DmaSem sig := 66
abbrev cc9_sem2_0 : DmaSem sig := 67
abbrev cc9_sem2_1 : DmaSem sig := 68
abbrev cc10_sem0_0 : DmaSem sig := 69
abbrev cc10_sem0_1 : DmaSem sig := 70
abbrev cc10_sem1_0 : DmaSem sig := 71
abbrev cc10_sem1_1 : DmaSem sig := 72
abbrev cc10_sem2_0 : DmaSem sig := 73
abbrev cc10_sem2_1 : DmaSem sig := 74
abbrev cc10_sem3_0 : DmaSem sig := 75
abbrev cc10_sem4_0 : DmaSem sig := 76
abbrev cc10_sem4_1 : DmaSem sig := 77
abbrev cc11_sem0_0 : DmaSem sig := 78
abbrev cc11_sem0_1 : DmaSem sig := 79
abbrev cc11_sem1_0 : DmaSem sig := 80
abbrev cc11_sem2_0 : DmaSem sig := 81
abbrev cc11_sem2_1 : DmaSem sig := 82
abbrev cc12_sem0_0 : DmaSem sig := 83
abbrev cc12_sem0_1 : DmaSem sig := 84
abbrev cc12_sem1_0 : DmaSem sig := 85
abbrev cc12_sem1_1 : DmaSem sig := 86
abbrev cc12_sem2_0 : DmaSem sig := 87
abbrev cc12_sem2_1 : DmaSem sig := 88
abbrev cc12_sem3_0 : DmaSem sig := 89
abbrev cc12_sem4_0 : DmaSem sig := 90
abbrev cc12_sem4_1 : DmaSem sig := 91
abbrev cc13_sem0_0 : DmaSem sig := 92
abbrev cc13_sem0_1 : DmaSem sig := 93
abbrev cc13_sem1_0 : DmaSem sig := 94
abbrev cc13_sem2_0 : DmaSem sig := 95
abbrev cc13_sem3_0 : DmaSem sig := 96
abbrev cc13_sem4_0 : DmaSem sig := 97
abbrev cc13_sem5_0 : DmaSem sig := 98
abbrev cc13_sem5_1 : DmaSem sig := 99

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S5000x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S5000x128 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S5000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S5000x1 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S5000x128 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S128x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S128x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S5000x128 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S50000x128.size a
  hwx6_5 : ∀ i : grid6.Coords, EltTy.bits .f32 = 32 ∨ (Rect.block (s := S50000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x1.size a ≤ S50000x1.size a
  hwx8_2 : ∀ i : grid8.Coords, EltTy.bits .f32 = 32 ∨ (Rect.block (s := S50000x1) S5000x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x128.size a ≤ S50000x128.size a
  hwx8_4 : ∀ i : grid8.Coords, EltTy.bits .f32 = 32 ∨ (Rect.block (s := S50000x128) S5000x128.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S50000x128.size a
  hwx9_2 : ∀ i : grid9.Coords, EltTy.bits .f32 = 32 ∨ (Rect.block (s := S50000x128) S5000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x128.size a ≤ S50000x128.size a
  hwx10_1 : ∀ i : grid10.Coords, EltTy.bits .f32 = 32 ∨ (Rect.block (s := S50000x128) S5000x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x1.size a ≤ S50000x1.size a
  hwx10_2 : ∀ i : grid10.Coords, EltTy.bits .f32 = 32 ∨ (Rect.block (s := S50000x1) S5000x1.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S5000x128.size a ≤ S50000x128.size a
  hwx10_4 : ∀ i : grid10.Coords, EltTy.bits .f32 = 32 ∨ (Rect.block (s := S50000x128) S5000x128.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x128.size a ≤ S50000x128.size a
  hwx11_2 : ∀ i : grid11.Coords, EltTy.bits .f32 = 32 ∨ (Rect.block (s := S50000x128) S5000x128.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S50000x128.size a
  hwx12_0 : ∀ i : grid12.Coords, EltTy.bits .f32 = 32 ∨ (Rect.block (s := S50000x128) S5000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x128.size a ≤ S50000x128.size a
  hwx12_1 : ∀ i : grid12.Coords, EltTy.bits .f32 = 32 ∨ (Rect.block (s := S50000x128) S5000x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S5000x1.size a ≤ S50000x1.size a
  hwx12_2 : ∀ i : grid12.Coords, EltTy.bits .f32 = 32 ∨ (Rect.block (s := S50000x1) S5000x1.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S5000x128.size a ≤ S50000x128.size a
  hwx12_4 : ∀ i : grid12.Coords, EltTy.bits .f32 = 32 ∨ (Rect.block (s := S50000x128) S5000x128.size (cc12_transform_4 i) (hinb12_4 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S50000x128.size a
  hwx13_0 : ∀ i : grid13.Coords, EltTy.bits .f32 = 32 ∨ (Rect.block (s := S50000x128) S5000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S128x128.size a ≤ S128x128.size a
  hwx13_1 : ∀ i : grid13.Coords, EltTy.bits .f32 = 32 ∨ (Rect.block (s := S128x128) S128x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S128x128.size a ≤ S128x128.size a
  hwx13_3 : ∀ i : grid13.Coords, EltTy.bits .f32 = 32 ∨ (Rect.block (s := S128x128) S128x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S5000x128.size a ≤ S50000x128.size a
  hwx13_5 : ∀ i : grid13.Coords, EltTy.bits .f32 = 32 ∨ (Rect.block (s := S50000x128) S5000x128.size (cc13_transform_5 i) (hinb13_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v74) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v75) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v75) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v76) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg12) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v77) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v78) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_arg2) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg4) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v107) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v120) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v107) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v106) S5000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v121) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v122) S5000x128.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v122) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg6) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v123) S5000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v136) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v123) S5000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v106) S5000x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v137) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v138) S5000x128.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v138) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg8) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v139) S5000x128.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v152) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v139) S5000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v106) S5000x1.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v153) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v154) S5000x128.size cc12_transform_4 reads12_4 true false 2 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

abbrev win13_0 : Pipeline.Window sig grid13 :=
  Pipeline.Window.ofSpec (Memref.whole main_v154) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_arg10) S128x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v155) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_arg12) S128x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v156) S1x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v157) S5000x128.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩

abbrev nBuf : Space → Nat
  | .hbm => 386
  | .vmem => 0
  | .smem => 0
  | _ => 0

abbrev hbmTy0_0 (i : Nat) : BufTy := match i % 128 with
  | 0 => ⟨S50000x128, .f32⟩
  | 1 => ⟨S2x800000, .i32⟩
  | 2 => ⟨S50000x128, .f32⟩
  | 3 => ⟨S2x800000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S1x800000, .i32⟩
  | 15 => ⟨S800000, .i32⟩
  | 16 => ⟨S1x800000, .i32⟩
  | 17 => ⟨S800000, .i32⟩
  | 18 => ⟨S50000x128, .f32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S800000x1, .f32⟩
  | 58 => ⟨S800000x128, .f32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S50000, .f32⟩
  | 65 => ⟨S50000x1, .f32⟩
  | 66 => ⟨S50000x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x128, .f32⟩
  | 76 => ⟨S_, .f32⟩
  | 77 => ⟨S800000, .f32⟩
  | 78 => ⟨S_, .f32⟩
  | 79 => ⟨S50000, .f32⟩
  | 80 => ⟨S800000x1, .i32⟩
  | 81 => ⟨S50000, .f32⟩
  | 82 => ⟨S_, .f32⟩
  | 83 => ⟨S50000, .f32⟩
  | 84 => ⟨S50000, .f32⟩
  | 85 => ⟨S50000, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000, .f32⟩
  | 104 => ⟨S800000, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S800000x1, .f32⟩
  | 115 => ⟨S800000x128, .f32⟩
  | 116 => ⟨S800000x128, .f32⟩
  | 117 => ⟨S_, .f32⟩
  | 118 => ⟨S50000x128, .f32⟩
  | 119 => ⟨S800000x1, .i32⟩
  | 120 => ⟨S50000x128, .f32⟩
  | 121 => ⟨S50000, .f32⟩
  | 122 => ⟨S50000x1, .f32⟩
  | 123 => ⟨S50000x128, .f32⟩
  | 124 => ⟨S50000x128, .f32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | 4 => ⟨S50000x128, .f32⟩
  | 5 => ⟨S_, .f32⟩
  | 6 => ⟨S800000, .f32⟩
  | 7 => ⟨S_, .f32⟩
  | 8 => ⟨S50000, .f32⟩
  | 9 => ⟨S800000x1, .i32⟩
  | 10 => ⟨S50000, .f32⟩
  | 11 => ⟨S_, .f32⟩
  | 12 => ⟨S50000, .f32⟩
  | 13 => ⟨S50000, .f32⟩
  | 14 => ⟨S50000, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S800000x1, .f32⟩
  | 44 => ⟨S800000x128, .f32⟩
  | 45 => ⟨S800000x128, .f32⟩
  | 46 => ⟨S_, .f32⟩
  | 47 => ⟨S50000x128, .f32⟩
  | 48 => ⟨S800000x1, .i32⟩
  | 49 => ⟨S50000x128, .f32⟩
  | 50 => ⟨S50000, .f32⟩
  | 51 => ⟨S50000x1, .f32⟩
  | 52 => ⟨S50000x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S1x800000, .i32⟩
  | 73 => ⟨S800000, .i32⟩
  | 74 => ⟨S1x800000, .i32⟩
  | 75 => ⟨S800000, .i32⟩
  | 76 => ⟨S50000x128, .f32⟩
  | 77 => ⟨S_, .f32⟩
  | 78 => ⟨S800000, .f32⟩
  | 79 => ⟨S_, .f32⟩
  | 80 => ⟨S50000, .f32⟩
  | 81 => ⟨S800000x1, .i32⟩
  | 82 => ⟨S50000, .f32⟩
  | 83 => ⟨S_, .f32⟩
  | 84 => ⟨S50000, .f32⟩
  | 85 => ⟨S50000, .f32⟩
  | 86 => ⟨S50000, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000, .f32⟩
  | 105 => ⟨S800000, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .f32⟩
  | 115 => ⟨S800000x1, .f32⟩
  | 116 => ⟨S800000x128, .f32⟩
  | 117 => ⟨S800000x128, .f32⟩
  | 118 => ⟨S_, .f32⟩
  | 119 => ⟨S50000x128, .f32⟩
  | 120 => ⟨S800000x1, .i32⟩
  | 121 => ⟨S50000x128, .f32⟩
  | 122 => ⟨S50000, .f32⟩
  | 123 => ⟨S50000x1, .f32⟩
  | 124 => ⟨S50000x128, .f32⟩
  | 125 => ⟨S50000x128, .f32⟩
  | 126 => ⟨S50000x128, .f32⟩
  | 127 => ⟨S1x128, .f32⟩
  | _ => ⟨S50000x128, .f32⟩

abbrev hbmTy0_2 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S50000x128, .f32⟩
  | 6 => ⟨S_, .f32⟩
  | 7 => ⟨S800000, .f32⟩
  | 8 => ⟨S_, .f32⟩
  | 9 => ⟨S50000, .f32⟩
  | 10 => ⟨S800000x1, .i32⟩
  | 11 => ⟨S50000, .f32⟩
  | 12 => ⟨S_, .f32⟩
  | 13 => ⟨S50000, .f32⟩
  | 14 => ⟨S50000, .f32⟩
  | 15 => ⟨S50000, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x128, .f32⟩
  | 44 => ⟨S800000x1, .f32⟩
  | 45 => ⟨S800000x128, .f32⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S50000, .f32⟩
  | 52 => ⟨S50000x1, .f32⟩
  | 53 => ⟨S50000x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S50000x128, .f32⟩
  | 63 => ⟨S_, .f32⟩
  | 64 => ⟨S800000, .f32⟩
  | 65 => ⟨S_, .f32⟩
  | 66 => ⟨S50000, .f32⟩
  | 67 => ⟨S800000x1, .i32⟩
  | 68 => ⟨S50000, .f32⟩
  | 69 => ⟨S_, .f32⟩
  | 70 => ⟨S50000, .f32⟩
  | 71 => ⟨S50000, .f32⟩
  | 72 => ⟨S50000, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000, .f32⟩
  | 91 => ⟨S800000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x128, .f32⟩
  | 101 => ⟨S800000x1, .f32⟩
  | 102 => ⟨S800000x128, .f32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S50000, .f32⟩
  | 109 => ⟨S50000x1, .f32⟩
  | 110 => ⟨S50000x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S50000x128, .f32⟩
  | 127 => ⟨S1x128, .f32⟩
  | _ => ⟨S50000x128, .f32⟩

abbrev hbmTy0_3 (i : Nat) : BufTy := match i % 128 with
  | 0 => ⟨S50000x128, .f32⟩
  | 1 => ⟨S50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call0_cst : Ref sig .tc := ⟨.hbm, 72, rfl⟩
abbrev main_call0_v0 : Ref sig .tc := ⟨.hbm, 73, rfl⟩
abbrev main_v48 : Ref sig .tc := ⟨.hbm, 74, rfl⟩
abbrev main_v49 : Ref sig .tc := ⟨.hbm, 75, rfl⟩
abbrev main_cst_8 : Ref sig .tc := ⟨.hbm, 76, rfl⟩
abbrev main_v50 : Ref sig .tc := ⟨.hbm, 77, rfl⟩
abbrev main_cst_9 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_11 : Ref sig .tc := ⟨.hbm, 86, rfl⟩
abbrev main_v57 : Ref sig .tc := ⟨.hbm, 87, rfl⟩
abbrev main_v58 : Ref sig .tc := ⟨.hbm, 88, rfl⟩
abbrev main_c_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_13 : Ref sig .tc := ⟨.hbm, 95, rfl⟩
abbrev main_v64 : Ref sig .tc := ⟨.hbm, 96, rfl⟩
abbrev main_v65 : Ref sig .tc := ⟨.hbm, 97, rfl⟩
abbrev main_c_14 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_15 : Ref sig .tc := ⟨.hbm, 105, rfl⟩
abbrev main_v72 : Ref sig .tc := ⟨.hbm, 106, rfl⟩
abbrev main_v73 : Ref sig .tc := ⟨.hbm, 107, rfl⟩
abbrev main_c_16 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_17 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_call1_cst : Ref sig .tc := ⟨.hbm, 129, rfl⟩
abbrev main_call1_v0 : Ref sig .tc := ⟨.hbm, 130, rfl⟩
abbrev main_v93 : Ref sig .tc := ⟨.hbm, 131, rfl⟩
abbrev main_v94 : Ref sig .tc := ⟨.hbm, 132, rfl⟩
abbrev main_cst_18 : Ref sig .tc := ⟨.hbm, 133, rfl⟩
abbrev main_v95 : Ref sig .tc := ⟨.hbm, 134, rfl⟩
abbrev main_cst_19 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_20 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_c_21 : Ref sig .tc := ⟨.hbm, 143, rfl⟩
abbrev main_v102 : Ref sig .tc := ⟨.hbm, 144, rfl⟩
abbrev main_v103 : Ref sig .tc := ⟨.hbm, 145, rfl⟩
abbrev main_c_22 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_c_23 : Ref sig .tc := ⟨.hbm, 152, rfl⟩
abbrev main_v109 : Ref sig .tc := ⟨.hbm, 153, rfl⟩
abbrev main_v110 : Ref sig .tc := ⟨.hbm, 154, rfl⟩
abbrev main_c_24 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_c_25 : Ref sig .tc := ⟨.hbm, 162, rfl⟩
abbrev main_v117 : Ref sig .tc := ⟨.hbm, 163, rfl⟩
abbrev main_v118 : Ref sig .tc := ⟨.hbm, 164, rfl⟩
abbrev main_c_26 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_27 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_call2_cst : Ref sig .tc := ⟨.hbm, 186, rfl⟩
abbrev main_call2_v0 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_call3_cst : Ref sig .tc := ⟨.hbm, 193, rfl⟩
abbrev main_call3_v0 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_cst_28 : Ref sig .tc := ⟨.hbm, 205, rfl⟩
abbrev main_v153 : Ref sig .tc := ⟨.hbm, 206, rfl⟩
abbrev main_cst_29 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_cst_30 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_c_31 : Ref sig .tc := ⟨.hbm, 215, rfl⟩
abbrev main_v160 : Ref sig .tc := ⟨.hbm, 216, rfl⟩
abbrev main_v161 : Ref sig .tc := ⟨.hbm, 217, rfl⟩
abbrev main_c_32 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_c_33 : Ref sig .tc := ⟨.hbm, 224, rfl⟩
abbrev main_v167 : Ref sig .tc := ⟨.hbm, 225, rfl⟩
abbrev main_v168 : Ref sig .tc := ⟨.hbm, 226, rfl⟩
abbrev main_c_34 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_c_35 : Ref sig .tc := ⟨.hbm, 234, rfl⟩
abbrev main_v175 : Ref sig .tc := ⟨.hbm, 235, rfl⟩
abbrev main_v176 : Ref sig .tc := ⟨.hbm, 236, rfl⟩
abbrev main_c_36 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_cst_37 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_call4_cst : Ref sig .tc := ⟨.hbm, 258, rfl⟩
abbrev main_call4_v0 : Ref sig .tc := ⟨.hbm, 259, rfl⟩
abbrev main_v196 : Ref sig .tc := ⟨.hbm, 260, rfl⟩
abbrev main_v197 : Ref sig .tc := ⟨.hbm, 261, rfl⟩
abbrev main_cst_38 : Ref sig .tc := ⟨.hbm, 262, rfl⟩
abbrev main_v198 : Ref sig .tc := ⟨.hbm, 263, rfl⟩
abbrev main_cst_39 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_cst_40 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_c_41 : Ref sig .tc := ⟨.hbm, 272, rfl⟩
abbrev main_v205 : Ref sig .tc := ⟨.hbm, 273, rfl⟩
abbrev main_v206 : Ref sig .tc := ⟨.hbm, 274, rfl⟩
abbrev main_c_42 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_c_43 : Ref sig .tc := ⟨.hbm, 281, rfl⟩
abbrev main_v212 : Ref sig .tc := ⟨.hbm, 282, rfl⟩
abbrev main_v213 : Ref sig .tc := ⟨.hbm, 283, rfl⟩
abbrev main_c_44 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_c_45 : Ref sig .tc := ⟨.hbm, 291, rfl⟩
abbrev main_v220 : Ref sig .tc := ⟨.hbm, 292, rfl⟩
abbrev main_v221 : Ref sig .tc := ⟨.hbm, 293, rfl⟩
abbrev main_c_46 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_cst_47 : Ref sig .tc := ⟨.hbm, 303, rfl⟩
abbrev main_v230 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_v234 : Ref sig .tc := ⟨.hbm, 308, rfl⟩
abbrev main_v235 : Ref sig .tc := ⟨.hbm, 309, rfl⟩
abbrev main_v236 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_call5_cst : Ref sig .tc := ⟨.hbm, 315, rfl⟩
abbrev main_call5_v0 : Ref sig .tc := ⟨.hbm, 316, rfl⟩
abbrev main_v241 : Ref sig .tc := ⟨.hbm, 317, rfl⟩
abbrev main_v242 : Ref sig .tc := ⟨.hbm, 318, rfl⟩
abbrev main_cst_48 : Ref sig .tc := ⟨.hbm, 319, rfl⟩
abbrev main_v243 : Ref sig .tc := ⟨.hbm, 320, rfl⟩
abbrev main_cst_49 : Ref sig .tc := ⟨.hbm, 321, rfl⟩
abbrev main_v244 : Ref sig .tc := ⟨.hbm, 322, rfl⟩
abbrev main_v245 : Ref sig .tc := ⟨.hbm, 323, rfl⟩
abbrev main_v246 : Ref sig .tc := ⟨.hbm, 324, rfl⟩
abbrev main_cst_50 : Ref sig .tc := ⟨.hbm, 325, rfl⟩
abbrev main_v247 : Ref sig .tc := ⟨.hbm, 326, rfl⟩
abbrev main_v248 : Ref sig .tc := ⟨.hbm, 327, rfl⟩
abbrev main_v249 : Ref sig .tc := ⟨.hbm, 328, rfl⟩
abbrev main_c_51 : Ref sig .tc := ⟨.hbm, 329, rfl⟩
abbrev main_v250 : Ref sig .tc := ⟨.hbm, 330, rfl⟩
abbrev main_v251 : Ref sig .tc := ⟨.hbm, 331, rfl⟩
abbrev main_c_52 : Ref sig .tc := ⟨.hbm, 332, rfl⟩
abbrev main_v252 : Ref sig .tc := ⟨.hbm, 333, rfl⟩
abbrev main_v253 : Ref sig .tc := ⟨.hbm, 334, rfl⟩
abbrev main_v254 : Ref sig .tc := ⟨.hbm, 335, rfl⟩
abbrev main_v255 : Ref sig .tc := ⟨.hbm, 336, rfl⟩
abbrev main_v256 : Ref sig .tc := ⟨.hbm, 337, rfl⟩
abbrev main_c_53 : Ref sig .tc := ⟨.hbm, 338, rfl⟩
abbrev main_v257 : Ref sig .tc := ⟨.hbm, 339, rfl⟩
abbrev main_v258 : Ref sig .tc := ⟨.hbm, 340, rfl⟩
abbrev main_c_54 : Ref sig .tc := ⟨.hbm, 341, rfl⟩
abbrev main_v259 : Ref sig .tc := ⟨.hbm, 342, rfl⟩
abbrev main_v260 : Ref sig .tc := ⟨.hbm, 343, rfl⟩
abbrev main_v261 : Ref sig .tc := ⟨.hbm, 344, rfl⟩
abbrev main_v262 : Ref sig .tc := ⟨.hbm, 345, rfl⟩
abbrev main_v263 : Ref sig .tc := ⟨.hbm, 346, rfl⟩
abbrev main_v264 : Ref sig .tc := ⟨.hbm, 347, rfl⟩
abbrev main_c_55 : Ref sig .tc := ⟨.hbm, 348, rfl⟩
abbrev main_v265 : Ref sig .tc := ⟨.hbm, 349, rfl⟩
abbrev main_v266 : Ref sig .tc := ⟨.hbm, 350, rfl⟩
abbrev main_c_56 : Ref sig .tc := ⟨.hbm, 351, rfl⟩
abbrev main_v267 : Ref sig .tc := ⟨.hbm, 352, rfl⟩
abbrev main_v268 : Ref sig .tc := ⟨.hbm, 353, rfl⟩
abbrev main_v269 : Ref sig .tc := ⟨.hbm, 354, rfl⟩
abbrev main_v270 : Ref sig .tc := ⟨.hbm, 355, rfl⟩
abbrev main_v271 : Ref sig .tc := ⟨.hbm, 356, rfl⟩
abbrev main_v272 : Ref sig .tc := ⟨.hbm, 357, rfl⟩
abbrev main_v273 : Ref sig .tc := ⟨.hbm, 358, rfl⟩
abbrev main_v274 : Ref sig .tc := ⟨.hbm, 359, rfl⟩
abbrev main_cst_57 : Ref sig .tc := ⟨.hbm, 360, rfl⟩
abbrev main_v275 : Ref sig .tc := ⟨.hbm, 361, rfl⟩
abbrev main_v276 : Ref sig .tc := ⟨.hbm, 362, rfl⟩
abbrev main_v277 : Ref sig .tc := ⟨.hbm, 363, rfl⟩
abbrev main_v278 : Ref sig .tc := ⟨.hbm, 364, rfl⟩
abbrev main_v279 : Ref sig .tc := ⟨.hbm, 365, rfl⟩
abbrev main_v280 : Ref sig .tc := ⟨.hbm, 366, rfl⟩
abbrev main_v281 : Ref sig .tc := ⟨.hbm, 367, rfl⟩
abbrev main_v282 : Ref sig .tc := ⟨.hbm, 368, rfl⟩
abbrev main_v283 : Ref sig .tc := ⟨.hbm, 369, rfl⟩
abbrev main_v284 : Ref sig .tc := ⟨.hbm, 370, rfl⟩
abbrev main_v285 : Ref sig .tc := ⟨.hbm, 371, rfl⟩
abbrev main_call6_cst : Ref sig .tc := ⟨.hbm, 372, rfl⟩
abbrev main_call6_v0 : Ref sig .tc := ⟨.hbm, 373, rfl⟩
abbrev main_v286 : Ref sig .tc := ⟨.hbm, 374, rfl⟩
abbrev main_v287 : Ref sig .tc := ⟨.hbm, 375, rfl⟩
abbrev main_v288 : Ref sig .tc := ⟨.hbm, 376, rfl⟩
abbrev main_v289 : Ref sig .tc := ⟨.hbm, 377, rfl⟩
abbrev main_v290 : Ref sig .tc := ⟨.hbm, 378, rfl⟩
abbrev main_call7_cst : Ref sig .tc := ⟨.hbm, 379, rfl⟩
abbrev main_call7_v0 : Ref sig .tc := ⟨.hbm, 380, rfl⟩
abbrev main_v291 : Ref sig .tc := ⟨.hbm, 381, rfl⟩
abbrev main_v292 : Ref sig .tc := ⟨.hbm, 382, rfl⟩
abbrev main_v293 : Ref sig .tc := ⟨.hbm, 383, rfl⟩
abbrev main_v294 : Ref sig .tc := ⟨.hbm, 384, rfl⟩
abbrev main_v295 : Ref sig .tc := ⟨.hbm, 385, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KRun.lean ====
/-
  The idealized kernel's run with its two results named: every weakly fair execution terminates, the two result arrays
  end at the last segment boundary's contents (the fold of the host stretches and the regions' write-backs through the
  program), the arguments as launched.
-/
import proofs.«179127_j38130719654217_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments from the launch memory: the final state holds every unscoped buffer at the last boundary's
    contents; the two results are read there as they stand, each argument walks back to the launch memory. -/
theorem run_values : θ_run defs (onTc (τ := τ) (main (F := F))) ⟨m, fun _ => 0, ρ⟩ (fun r => ∀ c : Dev nD,
      r.2.mem ((c.tc : Thread nD τ).loc main_v78) = W24 m ρ c (Proc.devRef .tc main_v78)
      ∧ r.2.mem ((c.tc : Thread nD τ).loc main_v157) = W24 m ρ c (Proc.devRef .tc main_v157)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v78 (by decide)),
       h c _ (mem_uc main_v157 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c),
       (h c _ (mem_uc main_arg9 (by decide))).trans (W24_main_arg9 m ρ c),
       (h c _ (mem_uc main_arg10 (by decide))).trans (W24_main_arg10 m ρ c),
       (h c _ (mem_uc main_arg11 (by decide))).trans (W24_main_arg11 m ρ c),
       (h c _ (mem_uc main_arg12 (by decide))).trans (W24_main_arg12 m ρ c),
       (h c _ (mem_uc main_arg13 (by decide))).trans (W24_main_arg13 m ρ c)⟩)

end Cert.KernelIdeal.KRun

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.Spec.lean ====
/-
  The layer functions of a graph-convolution network with a two-layer head, as functions of whole arrays, index by index,
  on the extended reals.  The number of rows is a variable: the same definitions describe a block of rows and the whole
  array, and every one of them computes row r of its result from row r of its row-indexed operands only.

    mm x w        : (r, c) ↦ Σ_k x(r, k) · w(k, c)                                  (LibPlainDot)
    convOut a h d b : (r, c) ↦ max (a(r, c) + h(r, c) · d(r, 0) + b(0, c)) 0           (self-loop, bias, ReLU)
    lin x w b     : (r, c) ↦ mm x w (r, c) + b(0, c)
    relu y        : (r, c) ↦ max (y(r, c)) 0
    head          : lin (relu (lin x w₁ b₁)) w₂ b₂
-/
import Idealize.ShloMosaic.PureOps.Ideal.Laws
import Idealize.ShloMosaic.Lib.ValueIdx
import proofs.«179127_j38130719654217_1_alg».proof.Proof.LibPlainDot

noncomputable section

namespace Cert.Gcn

open Idealize.ShloMosaic Idealize.ShloMosaic.ValueIdx Cert.Lib.PlainDot

/-- An `[r, c]` matrix of extended reals. -/
abbrev Mat (r c : Nat) : Type := (⟨2, ![r, c]⟩ : Shape).Idx → EReal

/-- The float zero, as both programs spell it. -/
abbrev z32 : EReal := Ideal.ofBits .f32 0x00000000#32

variable {n : Nat}

/-- Aggregate plus self-loop term plus bias, clamped below at zero. -/
def convOut (a h : Mat n 128) (d : Mat n 1) (b : Mat 1 128) : Mat n 128 :=
  fun i => max (a i + h i * d (ix2 (i 0) (0 : Fin 1)) + b (ix2 (0 : Fin 1) (i 1))) z32

/-- A dense layer: product with the weights plus the bias row. -/
def lin (x : Mat n 128) (w : Mat 128 128) (b : Mat 1 128) : Mat n 128 :=
  fun i => mm x w i + b (ix2 (0 : Fin 1) (i 1))

/-- Clamp below at zero. -/
def relu (y : Mat n 128) : Mat n 128 := fun i => max (y i) z32

/-- The two-layer head. -/
def head (x : Mat n 128) (w1 : Mat 128 128) (b1 : Mat 1 128) (w2 : Mat 128 128) (b2 : Mat 1 128) : Mat n 128 :=
  lin (relu (lin x w1 b1)) w2 b2

/-! ## Each function reads only one row of its row-indexed operands

  Stated for two matrices with possibly different numbers of rows (a block and the whole array) and two indices with the
  same column: if the rows agree entry by entry, the results agree. -/

variable {n' : Nat}

theorem mm_rows (X : Mat n 128) (X' : Mat n' 128) (w : Mat 128 128)
    (j : (⟨2, ![n, 128]⟩ : Shape).Idx) (j' : (⟨2, ![n', 128]⟩ : Shape).Idx) (hc : (j 1).val = (j' 1).val)
    (h : ∀ k : Fin 128, X (rowIdx j k) = X' (rowIdx j' k)) : mm X w j = mm X' w j' := by
  unfold mm
  refine Finset.sum_congr rfl fun k _ => ?_
  rw [h k]
  refine congrArg (fun z => X' (rowIdx j' k) * w z) (funext fun a => ?_)
  match a with
  | ⟨0, _⟩ => rfl
  | ⟨1, _⟩ => exact Fin.ext hc

theorem convOut_rows (a h : Mat n 128) (d : Mat n 1) (a' h' : Mat n' 128) (d' : Mat n' 1) (b : Mat 1 128)
    (j : (⟨2, ![n, 128]⟩ : Shape).Idx) (j' : (⟨2, ![n', 128]⟩ : Shape).Idx) (hc : (j 1).val = (j' 1).val)
    (ha : a j = a' j') (hh : h j = h' j') (hd : d (ix2 (j 0) (0 : Fin 1)) = d' (ix2 (j' 0) (0 : Fin 1))) :
    convOut a h d b j = convOut a' h' d' b j' := by
  unfold convOut
  have hj : j 1 = j' 1 := Fin.ext hc
  rw [ha, hh, hd, hj]

theorem head_rows (X : Mat n 128) (X' : Mat n' 128) (w1 : Mat 128 128) (b1 : Mat 1 128) (w2 : Mat 128 128) (b2 : Mat 1 128)
    (j : (⟨2, ![n, 128]⟩ : Shape).Idx) (j' : (⟨2, ![n', 128]⟩ : Shape).Idx) (hc : (j 1).val = (j' 1).val)
    (h : ∀ k : Fin 128, X (rowIdx j k) = X' (rowIdx j' k)) :
    head X w1 b1 w2 b2 j = head X' w1 b1 w2 b2 j' := by
  have hj : j 1 = j' 1 := Fin.ext hc
  show mm (relu (lin X w1 b1)) w2 j + b2 (ix2 (0 : Fin 1) (j 1)) = mm (relu (lin X' w1 b1)) w2 j' + b2 (ix2 (0 : Fin 1) (j' 1))
  rw [hj]
  refine congrArg (· + b2 (ix2 (0 : Fin 1) (j' 1))) (mm_rows _ _ w2 j j' hc fun k => ?_)
  show max (mm X w1 (rowIdx j k) + b1 (ix2 (0 : Fin 1) ((rowIdx j k) 1))) z32
     = max (mm X' w1 (rowIdx j' k) + b1 (ix2 (0 : Fin 1) ((rowIdx j' k) 1))) z32
  refine congrArg (fun z => max (z + b1 (ix2 (0 : Fin 1) ((rowIdx j' k) 1))) z32) (mm_rows X X' w1 (rowIdx j k) (rowIdx j' k) rfl fun k' => ?_)
  exact h k'

end Cert.Gcn

end
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.LibSpread.lean ====
/-
  A vector spread over a matrix in two steps, read at an index.

  One number per row, made an `[n, 1]` column by a broadcast along a new unit axis and then spread over `c` columns, reads
  at (r, k) the number of row r; one number per column, made a `[1, c]` row and then spread over `n` rows, reads at
  (r, k) the number of column k.  Each is the same as the vector cast (reshaped) to the column, or to the row, and read
  there: this is what joins a program that spreads with `broadcast_in_dim` to one that reshapes.  The extents are
  variables.
-/
import Idealize.ShloMosaic.Lib.Pipeline.Value
import Idealize.ShloMosaic.Lib.ValueLayout
import proofs.«179127_j38130719654217_1_alg».proof.Proof.LibRowLayout

noncomputable section

namespace Cert.Lib.Spread

open Idealize.ShloMosaic Idealize.ShloMosaic.ValueIdx Cert.KernelIdeal.MvnKernel

variable {α : Type} {n c : Nat}

/-- One number per row, made a column and then spread over the columns, reads at (r, k) the number of row r: the
    same as the vector cast to a column, read at (r, 0). -/
theorem spread_col (d : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1])
    (hc : (⟨1, ![n]⟩ : Shape).ShapeCasts ⟨2, ![n, 1]⟩) (i : (⟨2, ![n, c]⟩ : Shape).Idx) :
    broadcastInDim ⟨2, ![n, c]⟩ ![0, 1] h2 (broadcastInDim ⟨2, ![n, 1]⟩ ![0] h1 d) i
      = shapeCast ⟨2, ![n, 1]⟩ d hc (ix2 (i 0) (0 : Fin 1)) := by
  obtain ⟨a, k, rfl⟩ : ∃ (a : Fin n) (k : Fin c), i = ix2 a k := ⟨i 0, i 1, eq_ix2 i⟩
  rw [broadcastInDim_apply _ h2 _ (ix2 a k) (ix2 a (0 : Fin 1)) (fun ax => by
        match ax with
        | ⟨0, _⟩ => show a.val = if n = 1 then 0 else a.val; split; (have := a.isLt; omega); rfl
        | ⟨1, _⟩ => rfl),
      broadcastInDim_apply _ h1 _ (ix2 a (0 : Fin 1)) (ix1 a) (fun ax => by
        match ax with
        | ⟨0, _⟩ => show a.val = if n = 1 then 0 else a.val; split; (have := a.isLt; omega); rfl)]
  exact (shapeCast_a_a1_apply d hc a 0).symm

/-- One number per column, made a row and then spread over the rows, reads at (r, k) the number of column k: the
    same as the vector cast to a row, read at (0, k). -/
theorem spread_row (bv : (⟨1, ![c]⟩ : Shape).Idx → α)
    (h1 : (⟨1, ![c]⟩ : Shape).BroadcastsInDim ⟨2, ![1, c]⟩ ![1])
    (h2 : (⟨2, ![1, c]⟩ : Shape).BroadcastsInDim ⟨2, ![n, c]⟩ ![0, 1])
    (hb : (⟨1, ![c]⟩ : Shape).ShapeCasts ⟨2, ![1, c]⟩) (i : (⟨2, ![n, c]⟩ : Shape).Idx) :
    broadcastInDim ⟨2, ![n, c]⟩ ![0, 1] h2 (broadcastInDim ⟨2, ![1, c]⟩ ![1] h1 bv) i
      = shapeCast ⟨2, ![1, c]⟩ bv hb (ix2 (0 : Fin 1) (i 1)) := by
  obtain ⟨a, k, rfl⟩ : ∃ (a : Fin n) (k : Fin c), i = ix2 a k := ⟨i 0, i 1, eq_ix2 i⟩
  rw [broadcastInDim_apply _ h2 _ (ix2 a k) (ix2 (0 : Fin 1) k) (fun ax => by
        match ax with
        | ⟨0, _⟩ => rfl
        | ⟨1, _⟩ => show k.val = if c = 1 then 0 else k.val; split; (have := k.isLt; omega); rfl),
      broadcastInDim_apply _ h1 _ (ix2 (0 : Fin 1) k) (ix1 k) (fun ax => by
        match ax with
        | ⟨0, _⟩ => show k.val = if c = 1 then 0 else k.val; split; (have := k.isLt; omega); rfl)]
  exact (shapeCast_a_1a_apply bv hb 0 k).symm

end Cert.Lib.Spread

end
-- ==== Proof.Bridge.lean ====
/-
  The reference's operations are the layer functions of Spec.lean.

  The reference multiplies by `dot_general`, spreads the per-node coefficient and the bias over the matrix by two
  `broadcast_in_dim`s each, and clamps with a maximum against a spread zero; the kernel's regions compute `mm`, `convOut` and
  `head` of arrays in which the coefficient is a column and the bias a row obtained by reshaping the vectors.  Index by
  index these are the same numbers: a spread vector read at (r, c) is the reshaped vector read at (r, 0), or at (0, c).
-/
import proofs.«179127_j38130719654217_1_alg».proof.Proof.Gen.ReferenceIdeal
import proofs.«179127_j38130719654217_1_alg».proof.Proof.Spec
import proofs.«179127_j38130719654217_1_alg».proof.Proof.LibSpread
import Idealize.ShloMosaic.Lib.ValueIdx
import Idealize.ShloMosaic.Lib.ValueLayout
import Idealize.ShloMosaic.Lib.Pipeline.Value

noncomputable section

namespace Cert.ReferenceIdeal.Bridge

open Cert.ReferenceIdeal Cert.ReferenceIdeal.Gen
open Idealize.ShloMosaic Idealize.ShloMosaic.TcCoe Idealize.ShloMosaic.ValueIdx Idealize.SL.Sem
open Cert.Lib.PlainDot Cert.Lib.Spread Cert.Gcn

/-- The reference's matrix product is `mm`. -/
theorem dot_eq (x : Mat 50000 128) (w : Mat 128 128) :
    Host.dotGeneral (F := Ideal) (φ₁ := .f32) (φ₂ := .f32) dot_S50000x128_S128x128_S50000x128_1_0_0_1_n_n none x w = mm x w := by
  funext j
  simp only [Host.dotGeneral]
  exact dotGeneral_apply _ rfl none _ x w j

/-- The spread zero the reference clamps against, read at an index. -/
theorem zero_apply (i : S50000x128.Idx) :
    broadcastInDim S50000x128 ![] bcast_S_S50000x128 (constant (F := Ideal) S_ .f32 0x00000000#32) i = z32 :=
  (broadcastInDim_apply _ bcast_S_S50000x128 (constant (F := Ideal) S_ .f32 0x00000000#32) i (fun a => a.elim0) (fun a => a.elim0)).trans rfl

/-- One graph-convolution step after the aggregation, as the reference spells it, is `convOut` of the reshaped coefficient
    column and bias row. -/
theorem post_eq (a h : Mat 50000 128) (d : S50000.Idx → EReal) (b : S128.Idx → EReal)
    (hd : S50000.ShapeCasts S50000x1) (hb : S128.ShapeCasts S1x128) :
    convOut a h (shapeCast S50000x1 d hd) (shapeCast S1x128 b hb)
      = maximumf (F := Ideal) (addf (addf a (mulf h (broadcastInDim S50000x128 ![0, 1] bcast_S50000x1_S50000x128_0_1
            (broadcastInDim S50000x1 ![0] bcast_S50000_S50000x1_0 d))))
          (broadcastInDim S50000x128 ![0, 1] bcast_S1x128_S50000x128_0_1 (broadcastInDim S1x128 ![1] bcast_S128_S1x128_1 b)))
        (broadcastInDim S50000x128 ![] bcast_S_S50000x128 (constant (F := Ideal) S_ .f32 0x00000000#32)) := by
  funext i
  unfold convOut
  simp only [maximumf_apply, addf_apply, mulf_apply]
  rw [spread_col d _ _ hd i, spread_row b _ _ hb i, zero_apply]

/-- The two-layer head as the reference spells it is `head` of the reshaped bias rows. -/
theorem head_eq (x : Mat 50000 128) (w1 w2 : Mat 128 128) (b1 b2 : S128.Idx → EReal) (hb : S128.ShapeCasts S1x128) :
    head x w1 (shapeCast S1x128 b1 hb) w2 (shapeCast S1x128 b2 hb)
      = addf (F := Ideal) (Host.dotGeneral (F := Ideal) (φ₁ := .f32) (φ₂ := .f32) dot_S50000x128_S128x128_S50000x128_1_0_0_1_n_n none
          (maximumf (addf (Host.dotGeneral (F := Ideal) (φ₁ := .f32) (φ₂ := .f32) dot_S50000x128_S128x128_S50000x128_1_0_0_1_n_n none x w1)
              (broadcastInDim S50000x128 ![0, 1] bcast_S1x128_S50000x128_0_1 (broadcastInDim S1x128 ![1] bcast_S128_S1x128_1 b1)))
            (broadcastInDim S50000x128 ![] bcast_S_S50000x128 (constant (F := Ideal) S_ .f32 0x00000000#32))) w2)
        (broadcastInDim S50000x128 ![0, 1] bcast_S1x128_S50000x128_0_1 (broadcastInDim S1x128 ![1] bcast_S128_S1x128_1 b2)) := by
  have hidden : relu (lin x w1 (shapeCast S1x128 b1 hb))
      = maximumf (F := Ideal) (addf (Host.dotGeneral (F := Ideal) (φ₁ := .f32) (φ₂ := .f32) dot_S50000x128_S128x128_S50000x128_1_0_0_1_n_n none x w1)
              (broadcastInDim S50000x128 ![0, 1] bcast_S1x128_S50000x128_0_1 (broadcastInDim S1x128 ![1] bcast_S128_S1x128_1 b1)))
            (broadcastInDim S50000x128 ![] bcast_S_S50000x128 (constant (F := Ideal) S_ .f32 0x00000000#32)) := by
    funext i
    unfold relu lin
    simp only [maximumf_apply, addf_apply]
    rw [spread_row b1 _ _ hb i, zero_apply, dot_eq]
  funext i
  show mm (relu (lin x w1 (shapeCast S1x128 b1 hb))) w2 i + shapeCast S1x128 b2 hb (ix2 (0 : Fin 1) (i 1)) = _
  simp only [addf_apply]
  rw [spread_row b2 _ _ hb i, dot_eq, hidden]

end Cert.ReferenceIdeal.Bridge

end
-- ==== Proof.Walk.lean ====
/-
  Names shared by the modules that follow the kernel's buffers through its program: the arguments' launch contents, and the
  step "a stretch of host operations leaves a buffer none of them writes as it was".
-/
import proofs.«179127_j38130719654217_1_alg».proof.Proof.Gen.KernelIdeal.Frame
import proofs.«179127_j38130719654217_1_alg».proof.Proof.Spec
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo
open Cert.Gcn

variable (m : (ℓ : Loc nD τ sig) → Buf (Elt Ideal) ℓ) (ρ : Dev nD → PrngReg)

/-- Argument k's array at launch, on core c. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)
abbrev a9 (c : Dev nD) := m ((c : Thread nD τ).loc main_arg9)
abbrev a10 (c : Dev nD) := m ((c : Thread nD τ).loc main_arg10)
abbrev a11 (c : Dev nD) := m ((c : Thread nD τ).loc main_arg11)
abbrev a12 (c : Dev nD) := m ((c : Thread nD τ).loc main_arg12)
abbrev a13 (c : Dev nD) := m ((c : Thread nD τ).loc main_arg13)

/-- A stretch of host operations leaves a buffer none of them writes as it was. -/
macro "host_skip" : tactic => `(tactic| exact StableHlo.after_of_forall_not_mem _ _ (List.forall_iff_forall_mem.mp (by
  simp only [hostOps0, hostOps1, hostOps3, hostOps5, hostOps6, hostOps7, hostOps8, hostOps10, hostOps12, hostOps13,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

end Cert.KernelIdeal.Walk

end
-- ==== Proof.ArgsA.lean ====
/-
  The arguments of the program are never written: no host operation writes one, and a region either does not touch it
  or reads it through an input window, which is put back as it was.  So at every segment boundary where an argument is
  read, it holds its launch contents.  Each lemma walks the fold of segments back from that boundary to the launch.
-/
import proofs.«179127_j38130719654217_1_alg».proof.Proof.Gen.KernelIdeal.Frame
import proofs.«179127_j38130719654217_1_alg».proof.Proof.Walk
import Idealize.ShloMosaic.Lib.StableHlo.Run

set_option maxRecDepth 16384

noncomputable section

namespace Cert.KernelIdeal.ArgsA

open Cert.KernelIdeal Cert.KernelIdeal.Gen
open Idealize.ShloMosaic Idealize.ShloMosaic.TcCoe Idealize.SL.Sem Idealize.ShloMosaic.StableHlo
open Cert.Gcn

variable (m : (ℓ : Loc nD τ sig) → Buf (Elt Ideal) ℓ) (ρ : Dev nD → PrngReg)

open Cert.KernelIdeal.Walk

/-- Argument 0 is never written: at boundary 1 it is as launched. -/
theorem at_arg0_1 (c : Dev nD) : W1 m ρ c (Proc.devRef .tc main_arg0) = a0 m c :=
  calc W1 m ρ c (Proc.devRef .tc main_arg0)
    _ = W0 m ρ c (Proc.devRef .tc main_arg0) := by host_skip
    _ = a0 m c := rfl

/-- Argument 4 is never written: at boundary 1 it is as launched. -/
theorem at_arg4_1 (c : Dev nD) : W1 m ρ c (Proc.devRef .tc main_arg4) = a4 m c :=
  calc W1 m ρ c (Proc.devRef .tc main_arg4)
    _ = W0 m ρ c (Proc.devRef .tc main_arg4) := by host_skip
    _ = a4 m c := rfl

/-- Argument 5 is never written: at boundary 2 it is as launched. -/
theorem at_arg5_2 (c : Dev nD) : W2 m ρ c (Proc.devRef .tc main_arg5) = a5 m c :=
  calc W2 m ρ c (Proc.devRef .tc main_arg5)
    _ = W1 m ρ c (Proc.devRef .tc main_arg5) := W2_of_ne m ρ c main_arg5 (by decide)
    _ = W0 m ρ c (Proc.devRef .tc main_arg5) := by host_skip
    _ = a5 m c := rfl

/-- Argument 6 is never written: at boundary 4 it is as launched. -/
theorem at_arg6_4 (c : Dev nD) : W4 m ρ c (Proc.devRef .tc main_arg6) = a6 m c :=
  calc W4 m ρ c (Proc.devRef .tc main_arg6)
    _ = W3 m ρ c (Proc.devRef .tc main_arg6) := W4_of_ne m ρ c main_arg6 (by decide)
    _ = W2 m ρ c (Proc.devRef .tc main_arg6) := by host_skip
    _ = W1 m ρ c (Proc.devRef .tc main_arg6) := W2_of_ne m ρ c main_arg6 (by decide)
    _ = W0 m ρ c (Proc.devRef .tc main_arg6) := by host_skip
    _ = a6 m c := rfl

/-- Argument 7 is never written: at boundary 5 it is as launched. -/
theorem at_arg7_5 (c : Dev nD) : W5 m ρ c (Proc.devRef .tc main_arg7) = a7 m c :=
  calc W5 m ρ c (Proc.devRef .tc main_arg7)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := by host_skip
    _ = W1 m ρ c (Proc.devRef .tc main_arg7) := W2_of_ne m ρ c main_arg7 (by decide)
    _ = W0 m ρ c (Proc.devRef .tc main_arg7) := by host_skip
    _ = a7 m c := rfl

/-- Argument 8 is never written: at boundary 7 it is as launched. -/
theorem at_arg8_7 (c : Dev nD) : W7 m ρ c (Proc.devRef .tc main_arg8) = a8 m c :=
  calc W7 m ρ c (Proc.devRef .tc main_arg8)
    _ = W6 m ρ c (Proc.devRef .tc main_arg8) := W7_of_ne m ρ c main_arg8 (by decide)
    _ = W5 m ρ c (Proc.devRef .tc main_arg8) := by host_skip
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := by host_skip
    _ = W1 m ρ c (Proc.devRef .tc main_arg8) := W2_of_ne m ρ c main_arg8 (by decide)
    _ = W0 m ρ c (Proc.devRef .tc main_arg8) := by host_skip
    _ = a8 m c := rfl

/-- Argument 9 is never written: at boundary 8 it is as launched. -/
theorem at_arg9_8 (c : Dev nD) : W8 m ρ c (Proc.devRef .tc main_arg9) = a9 m c :=
  calc W8 m ρ c (Proc.devRef .tc main_arg9)
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := by host_skip
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := by host_skip
    _ = W1 m ρ c (Proc.devRef .tc main_arg9) := W2_of_ne m ρ c main_arg9 (by decide)
    _ = W0 m ρ c (Proc.devRef .tc main_arg9) := by host_skip
    _ = a9 m c := rfl

/-- Argument 11 is never written: at boundary 10 it is as launched. -/
theorem at_arg11_10 (c : Dev nD) : W10 m ρ c (Proc.devRef .tc main_arg11) = a11 m c :=
  calc W10 m ρ c (Proc.devRef .tc main_arg11)
    _ = W9 m ρ c (Proc.devRef .tc main_arg11) := W10_of_ne m ρ c main_arg11 (by decide)
    _ = W8 m ρ c (Proc.devRef .tc main_arg11) := by host_skip
    _ = W7 m ρ c (Proc.devRef .tc main_arg11) := W8_of_ne m ρ c main_arg11 (by decide)
    _ = W6 m ρ c (Proc.devRef .tc main_arg11) := W7_of_ne m ρ c main_arg11 (by decide)
    _ = W5 m ρ c (Proc.devRef .tc main_arg11) := by host_skip
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := by host_skip
    _ = W1 m ρ c (Proc.devRef .tc main_arg11) := W2_of_ne m ρ c main_arg11 (by decide)
    _ = W0 m ρ c (Proc.devRef .tc main_arg11) := by host_skip
    _ = a11 m c := rfl

/-- Argument 13 is never written: at boundary 10 it is as launched. -/
theorem at_arg13_10 (c : Dev nD) : W10 m ρ c (Proc.devRef .tc main_arg13) = a13 m c :=
  calc W10 m ρ c (Proc.devRef .tc main_arg13)
    _ = W9 m ρ c (Proc.devRef .tc main_arg13) := W10_of_ne m ρ c main_arg13 (by decide)
    _ = W8 m ρ c (Proc.devRef .tc main_arg13) := by host_skip
    _ = W7 m ρ c (Proc.devRef .tc main_arg13) := W8_of_ne m ρ c main_arg13 (by decide)
    _ = W6 m ρ c (Proc.devRef .tc main_arg13) := W7_of_ne m ρ c main_arg13 (by decide)
    _ = W5 m ρ c (Proc.devRef .tc main_arg13) := by host_skip
    _ = W4 m ρ c (Proc.devRef .tc main_arg13) := W5_of_ne m ρ c main_arg13 (by decide)
    _ = W3 m ρ c (Proc.devRef .tc main_arg13) := W4_of_ne m ρ c main_arg13 (by decide)
    _ = W2 m ρ c (Proc.devRef .tc main_arg13) := by host_skip
    _ = W1 m ρ c (Proc.devRef .tc main_arg13) := W2_of_ne m ρ c main_arg13 (by decide)
    _ = W0 m ρ c (Proc.devRef .tc main_arg13) := by host_skip
    _ = a13 m c := rfl

/-- Argument 10 is never written: at boundary 11 it is as launched. -/
theorem at_arg10_11 (c : Dev nD) : W11 m ρ c (Proc.devRef .tc main_arg10) = a10 m c :=
  calc W11 m ρ c (Proc.devRef .tc main_arg10)
    _ = W10 m ρ c (Proc.devRef .tc main_arg10) := by host_skip
    _ = W9 m ρ c (Proc.devRef .tc main_arg10) := W10_of_ne m ρ c main_arg10 (by decide)
    _ = W8 m ρ c (Proc.devRef .tc main_arg10) := by host_skip
    _ = W7 m ρ c (Proc.devRef .tc main_arg10) := W8_of_ne m ρ c main_arg10 (by decide)
    _ = W6 m ρ c (Proc.devRef .tc main_arg10) := W7_of_ne m ρ c main_arg10 (by decide)
    _ = W5 m ρ c (Proc.devRef .tc main_arg10) := by host_skip
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := by host_skip
    _ = W1 m ρ c (Proc.devRef .tc main_arg10) := W2_of_ne m ρ c main_arg10 (by decide)
    _ = W0 m ρ c (Proc.devRef .tc main_arg10) := by host_skip
    _ = a10 m c := rfl

/-- Argument 12 is never written: at boundary 11 it is as launched. -/
theorem at_arg12_11 (c : Dev nD) : W11 m ρ c (Proc.devRef .tc main_arg12) = a12 m c :=
  calc W11 m ρ c (Proc.devRef .tc main_arg12)
    _ = W10 m ρ c (Proc.devRef .tc main_arg12) := by host_skip
    _ = W9 m ρ c (Proc.devRef .tc main_arg12) := W10_of_ne m ρ c main_arg12 (by decide)
    _ = W8 m ρ c (Proc.devRef .tc main_arg12) := by host_skip
    _ = W7 m ρ c (Proc.devRef .tc main_arg12) := W8_of_ne m ρ c main_arg12 (by decide)
    _ = W6 m ρ c (Proc.devRef .tc main_arg12) := W7_of_ne m ρ c main_arg12 (by decide)
    _ = W5 m ρ c (Proc.devRef .tc main_arg12) := by host_skip
    _ = W4 m ρ c (Proc.devRef .tc main_arg12) := W5_of_ne m ρ c main_arg12 (by decide)
    _ = W3 m ρ c (Proc.devRef .tc main_arg12) := W4_of_ne m ρ c main_arg12 (by decide)
    _ = W2 m ρ c (Proc.devRef .tc main_arg12) := by host_skip
    _ = W1 m ρ c (Proc.devRef .tc main_arg12) := W2_of_ne m ρ c main_arg12 (by decide)
    _ = W0 m ρ c (Proc.devRef .tc main_arg12) := by host_skip
    _ = a12 m c := rfl

end Cert.KernelIdeal.ArgsA

end
-- ==== Proof.Region0.lean ====
/-
  Region 0 of the kernel's program (a row-blocked matrix product), at any entry contents V:
  what the region leaves in its output array is ONE function of the arrays it finds — mm of Spec.lean — index by index.
  Point t of the grid holds rows 5000·t … 5000·t + 4999; the row-indexed operands are cut in the same blocks, the weights
  and bias rows are whole; each spec function computes row r from row r alone, so block t of the result is the spec of
  block t of the operands, and the ten blocks cover the array.
-/
import proofs.«179127_j38130719654217_1_alg».proof.Proof.Gen.KernelIdeal.Frame
import proofs.«179127_j38130719654217_1_alg».proof.Proof.Spec
import proofs.«179127_j38130719654217_1_alg».proof.Proof.LibRowLayout
import Idealize.ShloMosaic.Lib.Pipeline.Value
import Idealize.ShloMosaic.Lib.ValueIdx
import Idealize.ShloMosaic.Lib.ValueLayout

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Cert.Lib.PlainDot Cert.Gcn Cert.KernelIdeal.MvnKernel

variable (V : (c : Dev nD) → (b : Ref sig .tc) → Buf (Elt Ideal) ((c : Thread nD τ).loc b))

theorem hz : (![0, 0] : Fin 2 → Nat) = fun _ => 0 := funext fun a => by fin_cases a <;> rfl

/-- The body's one stored value: the block of rows times the weights (a change of float format is the identity on the
    extended reals, and the accumulator starts at zero). -/
theorem pay_eq (x0 : Vec Ideal S5000x128 .f32) (x1 : Vec Ideal S128x128 .f32) : k0_pay1 x0 x1 = mm x0 x1 := by
  funext j
  unfold k0_pay1
  try simp only [shapeCast_self]
  exact matmul_zero_apply (φ₁ := .bf16) (φ₂ := .bf16) _ rfl none _ _ j

theorem idx_w0 : ∀ t : Fin cfg0.N, win0_0.index t (0 : Fin 2) = t.val ∧ win0_0.index t (1 : Fin 2) = 0 :=
  (by decide +kernel : ∀ t : Fin grid0.N, _)

theorem idx_w1 : ∀ t : Fin cfg0.N, win0_1.index t (0 : Fin 2) = 0 ∧ win0_1.index t (1 : Fin 2) = 0 :=
  (by decide +kernel : ∀ t : Fin grid0.N, _)

theorem idx_w2 : ∀ t : Fin cfg0.N, win0_2.index t (0 : Fin 2) = t.val ∧ win0_2.index t (1 : Fin 2) = 0 :=
  (by decide +kernel : ∀ t : Fin grid0.N, _)

/-- The column of an index inside the block is its column in the array. -/
theorem col_emb (t : Fin cfg0.N) (j : S5000x128.Idx) : (j 1).val = ((((cfg0.win 2).blk t).view.emb j) 1).val := by
  obtain ⟨o0, o1⟩ := idx_w2 t
  show (j 1).val = win0_2.index t (1 : Fin 2) * 128 + 1 * (j 1).val
  omega

/-- Row (j 0) of window 0's block is row (j 0) of the block's place in the array. -/
theorem blk0_row (c : Dev nD) (t : Fin cfg0.N) (j : S5000x128.Idx) (k : Fin 128) :
    iblk0 V c 0 t (rowIdx j k) = V c main_arg0 (rowIdx (((cfg0.win 2).blk t).view.emb j) k) := by
  obtain ⟨a0, a1⟩ := idx_w0 t
  obtain ⟨o0, o1⟩ := idx_w2 t
  show V c main_arg0 (((cfg0.win 0).blk t).view.emb (rowIdx j k)) = _
  refine congrArg (V c main_arg0) (funext fun a => Fin.ext ?_)
  match a with
  | ⟨0, _⟩ => show win0_0.index t (0 : Fin 2) * 5000 + 1 * (j 0).val = win0_2.index t (0 : Fin 2) * 5000 + 1 * (j 0).val; omega
  | ⟨1, _⟩ => show win0_0.index t (1 : Fin 2) * 128 + 1 * k.val = k.val; omega

/-- Window 1 is the whole array at every point. -/
theorem blkF1 (c : Dev nD) (t : Fin cfg0.N) : iblk0 V c 1 t = V c main_arg4 := by
  obtain ⟨a0, a1⟩ := idx_w1 t
  funext y
  show V c main_arg4 (((cfg0.win 1).blk t).view.emb y) = _
  refine congrArg (V c main_arg4) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What point t writes back is block t of the spec function of the arrays the region finds. -/
theorem flushed_eq (c : Dev nD) (t : Fin cfg0.N) :
    (dat0 V c).flushed 2 t = ((cfg0.win 2).blk t).view.read (Elt Ideal) (mm (V c main_arg0) (V c main_arg4)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [pay_eq]
  funext j
  show mm (iblk0 V c 0 t) (iblk0 V c 1 t) j = mm (V c main_arg0) (V c main_arg4) (((cfg0.win 2).blk t).view.emb j)
  rw [blkF1 V c t]
  exact mm_rows _ _ _ j _ (col_emb t j) (fun k => blk0_row V c t j k)

/-- An index of the array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v28).slice (win0_2.rect t)).set ↔ _
  rw [View.set_slice_whole, Rect.mem_set_unit]
  exact Iff.rfl

/-- Row r lies in the block of point r / 5000, and every point writes its block back. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 5000 := ⟨⟨(i 0).val / 5000, by rw [show cfg0.N = 10 from N_0]; omega⟩, rfl⟩
  obtain ⟨o0, o1⟩ := idx_w2 t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The region's output array after the region: the spec function of the arrays it found. -/
theorem final (c : Dev nD) : (dat0 V c).arrAt 2 cfg0.N = mm (V c main_arg0) (V c main_arg4) :=
  (dat0 V c).arrAt_eq_of_cover 2 _ (fun t _ => flushed_eq V c t) cover

end Cert.KernelIdeal.Region0

end
-- ==== Proof.Region1.lean ====
/-
  Region 1 of the kernel's program (the self-loop, bias and ReLU step), at any entry contents V:
  what the region leaves in its output array is ONE function of the arrays it finds — convOut of Spec.lean — index by index.
  Point t of the grid holds rows 5000·t … 5000·t + 4999; the row-indexed operands are cut in the same blocks, the weights
  and bias rows are whole; each spec function computes row r from row r alone, so block t of the result is the spec of
  block t of the operands, and the ten blocks cover the array.
-/
import proofs.«179127_j38130719654217_1_alg».proof.Proof.Gen.KernelIdeal.Frame
import proofs.«179127_j38130719654217_1_alg».proof.Proof.Spec
import proofs.«179127_j38130719654217_1_alg».proof.Proof.LibRowLayout
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Cert.Lib.PlainDot Cert.Gcn Cert.KernelIdeal.MvnKernel

variable (V : (c : Dev nD) → (b : Ref sig .tc) → Buf (Elt Ideal) ((c : Thread nD τ).loc b))

theorem hz : (![0, 0] : Fin 2 → Nat) = fun _ => 0 := funext fun a => by fin_cases a <;> rfl

/-- The body's one stored value, index by index: aggregate plus the node's own row scaled by the row's coefficient, plus the
    bias of the column, clamped below at zero. -/
theorem pay_eq (x0 x1 : Vec Ideal S5000x128 .f32) (x2 : Vec Ideal S5000x1 .f32) (x3 : Vec Ideal S1x128 .f32) :
    k1_pay1 x0 x1 x2 x3 = convOut x0 x1 x2 x3 := by
  funext j
  obtain ⟨p, q, rfl⟩ : ∃ (p : Fin 5000) (q : Fin 128), j = ix2 p q := ⟨j 0, j 1, eq_ix2 j⟩
  unfold k1_pay1 convOut
  simp only [shapeCast_self, maximumf_apply, addf_apply, mulf_apply, broadcast_apply, broadcastTo_a1_ab_apply, broadcastTo_1b_ab_apply]
  rfl

theorem idx_w0 : ∀ t : Fin cfg1.N, win1_0.index t (0 : Fin 2) = t.val ∧ win1_0.index t (1 : Fin 2) = 0 :=
  (by decide +kernel : ∀ t : Fin grid1.N, _)

theorem idx_w1 : ∀ t : Fin cfg1.N, win1_1.index t (0 : Fin 2) = t.val ∧ win1_1.index t (1 : Fin 2) = 0 :=
  (by decide +kernel : ∀ t : Fin grid1.N, _)

theorem idx_w2 : ∀ t : Fin cfg1.N, win1_2.index t (0 : Fin 2) = t.val ∧ win1_2.index t (1 : Fin 2) = 0 :=
  (by decide +kernel : ∀ t : Fin grid1.N, _)

theorem idx_w3 : ∀ t : Fin cfg1.N, win1_3.index t (0 : Fin 2) = 0 ∧ win1_3.index t (1 : Fin 2) = 0 :=
  (by decide +kernel : ∀ t : Fin grid1.N, _)

theorem idx_w4 : ∀ t : Fin cfg1.N, win1_4.index t (0 : Fin 2) = t.val ∧ win1_4.index t (1 : Fin 2) = 0 :=
  (by decide +kernel : ∀ t : Fin grid1.N, _)

/-- The column of an index inside the block is its column in the array. -/
theorem col_emb (t : Fin cfg1.N) (j : S5000x128.Idx) : (j 1).val = ((((cfg1.win 4).blk t).view.emb j) 1).val := by
  obtain ⟨o0, o1⟩ := idx_w4 t
  show (j 1).val = win1_4.index t (1 : Fin 2) * 128 + 1 * (j 1).val
  omega

/-- Window 0's block read at an index is the array read at the index's place in the array. -/
theorem blk0 (c : Dev nD) (t : Fin cfg1.N) (j : S5000x128.Idx) :
    iblk1 V c 0 t j = V c main_v41 (((cfg1.win 4).blk t).view.emb j) := by
  obtain ⟨a0, a1⟩ := idx_w0 t
  obtain ⟨o0, o1⟩ := idx_w4 t
  show V c main_v41 (((cfg1.win 0).blk t).view.emb j) = _
  refine congrArg (V c main_v41) (funext fun a => Fin.ext ?_)
  match a with
  | ⟨0, _⟩ => show win1_0.index t (0 : Fin 2) * 5000 + 1 * (j 0).val = win1_4.index t (0 : Fin 2) * 5000 + 1 * (j 0).val; omega
  | ⟨1, _⟩ => show win1_0.index t (1 : Fin 2) * 128 + 1 * (j 1).val = win1_4.index t (1 : Fin 2) * 128 + 1 * (j 1).val; omega

/-- Window 1's block read at an index is the array read at the index's place in the array. -/
theorem blk1 (c : Dev nD) (t : Fin cfg1.N) (j : S5000x128.Idx) :
    iblk1 V c 1 t j = V c main_v28 (((cfg1.win 4).blk t).view.emb j) := by
  obtain ⟨a0, a1⟩ := idx_w1 t
  obtain ⟨o0, o1⟩ := idx_w4 t
  show V c main_v28 (((cfg1.win 1).blk t).view.emb j) = _
  refine congrArg (V c main_v28) (funext fun a => Fin.ext ?_)
  match a with
  | ⟨0, _⟩ => show win1_1.index t (0 : Fin 2) * 5000 + 1 * (j 0).val = win1_4.index t (0 : Fin 2) * 5000 + 1 * (j 0).val; omega
  | ⟨1, _⟩ => show win1_1.index t (1 : Fin 2) * 128 + 1 * (j 1).val = win1_4.index t (1 : Fin 2) * 128 + 1 * (j 1).val; omega

/-- Window 2's block read at (p, 0) is the column array at the block's row. -/
theorem blk2_col (c : Dev nD) (t : Fin cfg1.N) (j : S5000x128.Idx) :
    iblk1 V c 2 t (ix2 (j 0) (0 : Fin 1)) = V c main_v27 (ix2 ((((cfg1.win 4).blk t).view.emb j) 0) (0 : Fin 1)) := by
  obtain ⟨a0, a1⟩ := idx_w2 t
  obtain ⟨o0, o1⟩ := idx_w4 t
  show V c main_v27 (((cfg1.win 2).blk t).view.emb (ix2 (j 0) (0 : Fin 1))) = _
  refine congrArg (V c main_v27) (funext fun a => Fin.ext ?_)
  match a with
  | ⟨0, _⟩ => show win1_2.index t (0 : Fin 2) * 5000 + 1 * (j 0).val = win1_4.index t (0 : Fin 2) * 5000 + 1 * (j 0).val; omega
  | ⟨1, _⟩ => show win1_2.index t (1 : Fin 2) * 1 + 1 * 0 = 0; omega

/-- Window 3 is the whole array at every point. -/
theorem blkF3 (c : Dev nD) (t : Fin cfg1.N) : iblk1 V c 3 t = V c main_v42 := by
  obtain ⟨a0, a1⟩ := idx_w3 t
  funext y
  show V c main_v42 (((cfg1.win 3).blk t).view.emb y) = _
  refine congrArg (V c main_v42) (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- What point t writes back is block t of the spec function of the arrays the region finds. -/
theorem flushed_eq (c : Dev nD) (t : Fin cfg1.N) :
    (dat1 V c).flushed 4 t = ((cfg1.win 4).blk t).view.read (Elt Ideal) (convOut (V c main_v41) (V c main_v28) (V c main_v27) (V c main_v42)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz]
  rw [pay_eq]
  funext j
  show convOut (iblk1 V c 0 t) (iblk1 V c 1 t) (iblk1 V c 2 t) (iblk1 V c 3 t) j = convOut (V c main_v41) (V c main_v28) (V c main_v27) (V c main_v42) (((cfg1.win 4).blk t).view.emb j)
  rw [blkF3 V c t]
  exact convOut_rows _ _ _ _ _ _ _ j _ (col_emb t j) (blk0 V c t j) (blk1 V c t j) (blk2_col V c t j)

/-- An index of the array is in point t's block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v43).slice (win1_4.rect t)).set ↔ _
  rw [View.set_slice_whole, Rect.mem_set_unit]
  exact Iff.rfl

/-- Row r lies in the block of point r / 5000, and every point writes its block back. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ : ∃ t : Fin cfg1.N, t.val = (i 0).val / 5000 := ⟨⟨(i 0).val / 5000, by rw [show cfg1.N = 10 from N_1]; omega⟩, rfl⟩
  obtain ⟨o0, o1⟩ := idx_w4 t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The region's output array after the region: the spec function of the arrays it found. -/
theorem final (c : Dev nD) : (dat1 V c).arrAt 4 cfg1.N = convOut (V c main_v41) (V c main_v28) (V c main_v27) (V c main_v42) :=
  (dat1 V c).arrAt_eq_of_cover 4 _ (fun t _ => flushed_eq V c t) cover

end Cert.KernelIdeal.Region1

end
-- ==== Proof.Region2.lean ====
/-
  Region 2 of the kernel's program (a row-blocked matrix product), at any entry contents V:
  what the region leaves in its output array is ONE function of the arrays it finds — mm of Spec.lean — index by index.
  Point t of the grid holds rows 5000·t … 5000·t + 4999; the row-indexed operands are cut in the same blocks, the weights
  and bias rows are whole; each spec function computes row r from row r alone, so block t of the result is the spec of
  block t of the operands, and the ten blocks cover the array.
-/
import proofs.«179127_j38130719654217_1_alg».proof.Proof.Gen.KernelIdeal.Frame
import proofs.«179127_j38130719654217_1_alg».proof.Proof.Spec
import proofs.«179127_j38130719654217_1_alg».proof.Proof.LibRowLayout
import Idealize.ShloMosaic.Lib.Pipeline.Value
import Idealize.ShloMosaic.Lib.ValueIdx
import Idealize.ShloMosaic.Lib.ValueLayout

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Cert.Lib.PlainDot Cert.Gcn Cert.KernelIdeal.MvnKernel

variable (V : (c : Dev nD) → (b : Ref sig .tc) → Buf (Elt Ideal) ((c : Thread nD τ).loc b))

theorem hz : (![0, 0] : Fin 2 → Nat) = fun _ => 0 := funext fun a => by fin_cases a <;> rfl

/-- The body's one stored value: the block of rows times the weights (a change of float format is the identity on the
    extended reals, and the accumulator starts at zero). -/
theorem pay_eq (x0 : Vec Ideal S5000x128 .f32) (x1 : Vec Ideal S128x128 .f32) : k2_pay1 x0 x1 = mm x0 x1 := by
  funext j
  unfold k2_pay1
  try simp only [shapeCast_self]
  exact matmul_zero_apply (φ₁ := .bf16) (φ₂ := .bf16) _ rfl none _ _ j

theorem idx_w0 : ∀ t : Fin cfg2.N, win2_0.index t (0 : Fin 2) = t.val ∧ win2_0.index t (1 : Fin 2) = 0 :=
  (by decide +kernel : ∀ t : Fin grid2.N, _)

theorem idx_w1 : ∀ t : Fin cfg2.N, win2_1.index t (0 : Fin 2) = 0 ∧ win2_1.index t (1 : Fin 2) = 0 :=
  (by decide +kernel : ∀ t : Fin grid2.N, _)

theorem idx_w2 : ∀ t : Fin cfg2.N, win2_2.index t (0 : Fin 2) = t.val ∧ win2_2.index t (1 : Fin 2) = 0 :=
  (by decide +kernel : ∀ t : Fin grid2.N, _)

/-- The column of an index inside the block is its column in the array. -/
theorem col_emb (t : Fin cfg2.N) (j : S5000x128.Idx) : (j 1).val = ((((cfg2.win 2).blk t).view.emb j) 1).val := by
  obtain ⟨o0, o1⟩ := idx_w2 t
  show (j 1).val = win2_2.index t (1 : Fin 2) * 128 + 1 * (j 1).val
  omega

/-- Row (j 0) of window 0's block is row (j 0) of the block's place in the array. -/
theorem blk0_row (c : Dev nD) (t : Fin cfg2.N) (j : S5000x128.Idx) (k : Fin 128) :
    iblk2 V c 0 t (rowIdx j k) = V c main_v43 (rowIdx (((cfg2.win 2).blk t).view.emb j) k) := by
  obtain ⟨a0, a1⟩ := idx_w0 t
  obtain ⟨o0, o1⟩ := idx_w2 t
  show V c main_v43 (((cfg2.win 0).blk t).view.emb (rowIdx j k)) = _
  refine congrArg (V c main_v43) (funext fun a => Fin.ext ?_)
  match a with
  | ⟨0, _⟩ => show win2_0.index t (0 : Fin 2) * 5000 + 1 * (j 0).val = win2_2.index t (0 : Fin 2) * 5000 + 1 * (j 0).val; omega
  | ⟨1, _⟩ => show win2_0.index t (1 : Fin 2) * 128 + 1 * k.val = k.val; omega

/-- Window 1 is the whole array at every point. -/
theorem blkF1 (c : Dev nD) (t : Fin cfg2.N) : iblk2 V c 1 t = V c main_arg6 := by
  obtain ⟨a0, a1⟩ := idx_w1 t
  funext y
  show V c main_arg6 (((cfg2.win 1).blk t).view.emb y) = _
  refine congrArg (V c main_arg6) (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- What point t writes back is block t of the spec function of the arrays the region finds. -/
theorem flushed_eq (c : Dev nD) (t : Fin cfg2.N) :
    (dat2 V c).flushed 2 t = ((cfg2.win 2).blk t).view.read (Elt Ideal) (mm (V c main_v43) (V c main_arg6)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  rw [pay_eq]
  funext j
  show mm (iblk2 V c 0 t) (iblk2 V c 1 t) j = mm (V c main_v43) (V c main_arg6) (((cfg2.win 2).blk t).view.emb j)
  rw [blkF1 V c t]
  exact mm_rows _ _ _ j _ (col_emb t j) (fun k => blk0_row V c t j k)

/-- An index of the array is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v44).slice (win2_2.rect t)).set ↔ _
  rw [View.set_slice_whole, Rect.mem_set_unit]
  exact Iff.rfl

/-- Row r lies in the block of point r / 5000, and every point writes its block back. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ : ∃ t : Fin cfg2.N, t.val = (i 0).val / 5000 := ⟨⟨(i 0).val / 5000, by rw [show cfg2.N = 10 from N_2]; omega⟩, rfl⟩
  obtain ⟨o0, o1⟩ := idx_w2 t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The region's output array after the region: the spec function of the arrays it found. -/
theorem final (c : Dev nD) : (dat2 V c).arrAt 2 cfg2.N = mm (V c main_v43) (V c main_arg6) :=
  (dat2 V c).arrAt_eq_of_cover 2 _ (fun t _ => flushed_eq V c t) cover

end Cert.KernelIdeal.Region2

end
-- ==== Proof.Region3.lean ====
/-
  Region 3 of the kernel's program (the self-loop, bias and ReLU step), at any entry contents V:
  what the region leaves in its output array is ONE function of the arrays it finds — convOut of Spec.lean — index by index.
  Point t of the grid holds rows 5000·t … 5000·t + 4999; the row-indexed operands are cut in the same blocks, the weights
  and bias rows are whole; each spec function computes row r from row r alone, so block t of the result is the spec of
  block t of the operands, and the ten blocks cover the array.
-/
import proofs.«179127_j38130719654217_1_alg».proof.Proof.Gen.KernelIdeal.Frame
import proofs.«179127_j38130719654217_1_alg».proof.Proof.Spec
import proofs.«179127_j38130719654217_1_alg».proof.Proof.LibRowLayout
import Idealize.ShloMosaic.Lib.Pipeline.Value
import Idealize.ShloMosaic.Lib.ValueIdx
import Idealize.ShloMosaic.Lib.ValueLayout

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Cert.Lib.PlainDot Cert.Gcn Cert.KernelIdeal.MvnKernel

variable (V : (c : Dev nD) → (b : Ref sig .tc) → Buf (Elt Ideal) ((c : Thread nD τ).loc b))

theorem hz : (![0, 0] : Fin 2 → Nat) = fun _ => 0 := funext fun a => by fin_cases a <;> rfl

/-- The body's one stored value, index by index: aggregate plus the node's own row scaled by the row's coefficient, plus the
    bias of the column, clamped below at zero. -/
theorem pay_eq (x0 x1 : Vec Ideal S5000x128 .f32) (x2 : Vec Ideal S5000x1 .f32) (x3 : Vec Ideal S1x128 .f32) :
    k3_pay1 x0 x1 x2 x3 = convOut x0 x1 x2 x3 := by
  funext j
  obtain ⟨p, q, rfl⟩ : ∃ (p : Fin 5000) (q : Fin 128), j = ix2 p q := ⟨j 0, j 1, eq_ix2 j⟩
  unfold k3_pay1 convOut
  simp only [shapeCast_self, maximumf_apply, addf_apply, mulf_apply, broadcast_apply, broadcastTo_a1_ab_apply, broadcastTo_1b_ab_apply]
  rfl

theorem idx_w0 : ∀ t : Fin cfg3.N, win3_0.index t (0 : Fin 2) = t.val ∧ win3_0.index t (1 : Fin 2) = 0 :=
  (by decide +kernel : ∀ t : Fin grid3.N, _)

theorem idx_w1 : ∀ t : Fin cfg3.N, win3_1.index t (0 : Fin 2) = t.val ∧ win3_1.index t (1 : Fin 2) = 0 :=
  (by decide +kernel : ∀ t : Fin grid3.N, _)

theorem idx_w2 : ∀ t : Fin cfg3.N, win3_2.index t (0 : Fin 2) = t.val ∧ win3_2.index t (1 : Fin 2) = 0 :=
  (by decide +kernel : ∀ t : Fin grid3.N, _)

theorem idx_w3 : ∀ t : Fin cfg3.N, win3_3.index t (0 : Fin 2) = 0 ∧ win3_3.index t (1 : Fin 2) = 0 :=
  (by decide +kernel : ∀ t : Fin grid3.N, _)

theorem idx_w4 : ∀ t : Fin cfg3.N, win3_4.index t (0 : Fin 2) = t.val ∧ win3_4.index t (1 : Fin 2) = 0 :=
  (by decide +kernel : ∀ t : Fin grid3.N, _)

/-- The column of an index inside the block is its column in the array. -/
theorem col_emb (t : Fin cfg3.N) (j : S5000x128.Idx) : (j 1).val = ((((cfg3.win 4).blk t).view.emb j) 1).val := by
  obtain ⟨o0, o1⟩ := idx_w4 t
  show (j 1).val = win3_4.index t (1 : Fin 2) * 128 + 1 * (j 1).val
  omega

/-- Window 0's block read at an index is the array read at the index's place in the array. -/
theorem blk0 (c : Dev nD) (t : Fin cfg3.N) (j : S5000x128.Idx) :
    iblk3 V c 0 t j = V c main_v57 (((cfg3.win 4).blk t).view.emb j) := by
  obtain ⟨a0, a1⟩ := idx_w0 t
  obtain ⟨o0, o1⟩ := idx_w4 t
  show V c main_v57 (((cfg3.win 0).blk t).view.emb j) = _
  refine congrArg (V c main_v57) (funext fun a => Fin.ext ?_)
  match a with
  | ⟨0, _⟩ => show win3_0.index t (0 : Fin 2) * 5000 + 1 * (j 0).val = win3_4.index t (0 : Fin 2) * 5000 + 1 * (j 0).val; omega
  | ⟨1, _⟩ => show win3_0.index t (1 : Fin 2) * 128 + 1 * (j 1).val = win3_4.index t (1 : Fin 2) * 128 + 1 * (j 1).val; omega

/-- Window 1's block read at an index is the array read at the index's place in the array. -/
theorem blk1 (c : Dev nD) (t : Fin cfg3.N) (j : S5000x128.Idx) :
    iblk3 V c 1 t j = V c main_v44 (((cfg3.win 4).blk t).view.emb j) := by
  obtain ⟨a0, a1⟩ := idx_w1 t
  obtain ⟨o0, o1⟩ := idx_w4 t
  show V c main_v44 (((cfg3.win 1).blk t).view.emb j) = _
  refine congrArg (V c main_v44) (funext fun a => Fin.ext ?_)
  match a with
  | ⟨0, _⟩ => show win3_1.index t (0 : Fin 2) * 5000 + 1 * (j 0).val = win3_4.index t (0 : Fin 2) * 5000 + 1 * (j 0).val; omega
  | ⟨1, _⟩ => show win3_1.index t (1 : Fin 2) * 128 + 1 * (j 1).val = win3_4.index t (1 : Fin 2) * 128 + 1 * (j 1).val; omega

/-- Window 2's block read at (p, 0) is the column array at the block's row. -/
theorem blk2_col (c : Dev nD) (t : Fin cfg3.N) (j : S5000x128.Idx) :
    iblk3 V c 2 t (ix2 (j 0) (0 : Fin 1)) = V c main_v27 (ix2 ((((cfg3.win 4).blk t).view.emb j) 0) (0 : Fin 1)) := by
  obtain ⟨a0, a1⟩ := idx_w2 t
  obtain ⟨o0, o1⟩ := idx_w4 t
  show V c main_v27 (((cfg3.win 2).blk t).view.emb (ix2 (j 0) (0 : Fin 1))) = _
  refine congrArg (V c main_v27) (funext fun a => Fin.ext ?_)
  match a with
  | ⟨0, _⟩ => show win3_2.index t (0 : Fin 2) * 5000 + 1 * (j 0).val = win3_4.index t (0 : Fin 2) * 5000 + 1 * (j 0).val; omega
  | ⟨1, _⟩ => show win3_2.index t (1 : Fin 2) * 1 + 1 * 0 = 0; omega

/-- Window 3 is the whole array at every point. -/
theorem blkF3 (c : Dev nD) (t : Fin cfg3.N) : iblk3 V c 3 t = V c main_v58 := by
  obtain ⟨a0, a1⟩ := idx_w3 t
  funext y
  show V c main_v58 (((cfg3.win 3).blk t).view.emb y) = _
  refine congrArg (V c main_v58) (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- What point t writes back is block t of the spec function of the arrays the region finds. -/
theorem flushed_eq (c : Dev nD) (t : Fin cfg3.N) :
    (dat3 V c).flushed 4 t = ((cfg3.win 4).blk t).view.read (Elt Ideal) (convOut (V c main_v57) (V c main_v44) (V c main_v27) (V c main_v58)) := by
  show (cfg3.win 4).cut (grid3.coords t) ((dat3 V c).after 4 t) = _
  rw [after3_4]
  unfold out3_4
  rw [View.canon_unit_zero hz]
  simp only [View.ld_unit_zero (S := S5000x128) hz, View.ld_unit_zero (S := S5000x1) hz, View.ld_unit_zero (S := S1x128) hz]
  rw [pay_eq]
  funext j
  show convOut (iblk3 V c 0 t) (iblk3 V c 1 t) (iblk3 V c 2 t) (iblk3 V c 3 t) j = convOut (V c main_v57) (V c main_v44) (V c main_v27) (V c main_v58) (((cfg3.win 4).blk t).view.emb j)
  rw [blkF3 V c t]
  exact convOut_rows _ _ _ _ _ _ _ j _ (col_emb t j) (blk0 V c t j) (blk1 V c t j) (blk2_col V c t j)

/-- An index of the array is in point t's block iff each coordinate is in the block's range on its axis. -/
theorem mem_blk (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v59).slice (win3_4.rect t)).set ↔ _
  rw [View.set_slice_whole, Rect.mem_set_unit]
  exact Iff.rfl

/-- Row r lies in the block of point r / 5000, and every point writes its block back. -/
theorem cover (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ : ∃ t : Fin cfg3.N, t.val = (i 0).val / 5000 := ⟨⟨(i 0).val / 5000, by rw [show cfg3.N = 10 from N_3]; omega⟩, rfl⟩
  obtain ⟨o0, o1⟩ := idx_w4 t
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The region's output array after the region: the spec function of the arrays it found. -/
theorem final (c : Dev nD) : (dat3 V c).arrAt 4 cfg3.N = convOut (V c main_v57) (V c main_v44) (V c main_v27) (V c main_v58) :=
  (dat3 V c).arrAt_eq_of_cover 4 _ (fun t _ => flushed_eq V c t) cover

end Cert.KernelIdeal.Region3

end
-- ==== Proof.Region4.lean ====
/-
  Region 4 of the kernel's program (a row-blocked matrix product), at any entry contents V:
  what the region leaves in its output array is ONE function of the arrays it finds — mm of Spec.lean — index by index.
  Point t of the grid holds rows 5000·t … 5000·t + 4999; the row-indexed operands are cut in the same blocks, the weights
  and bias rows are whole; each spec function computes row r from row r alone, so block t of the result is the spec of
  block t of the operands, and the ten blocks cover the array.
-/
import proofs.«179127_j38130719654217_1_alg».proof.Proof.Gen.KernelIdeal.Frame
import proofs.«179127_j38130719654217_1_alg».proof.Proof.Spec
import proofs.«179127_j38130719654217_1_alg».proof.Proof.LibRowLayout
import Idealize.ShloMosaic.Lib.Pipeline.Value
import Idealize.ShloMosaic.Lib.ValueIdx
import Idealize.ShloMosaic.Lib.ValueLayout

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Cert.Lib.PlainDot Cert.Gcn Cert.KernelIdeal.MvnKernel

variable (V : (c : Dev nD) → (b : Ref sig .tc) → Buf (Elt Ideal) ((c : Thread nD τ).loc b))

theorem hz : (![0, 0] : Fin 2 → Nat) = fun _ => 0 := funext fun a => by fin_cases a <;> rfl

/-- The body's one stored value: the block of rows times the weights (a change of float format is the identity on the
    extended reals, and the accumulator starts at zero). -/
theorem pay_eq (x0 : Vec Ideal S5000x128 .f32) (x1 : Vec Ideal S128x128 .f32) : k4_pay1 x0 x1 = mm x0 x1 := by
  funext j
  unfold k4_pay1
  try simp only [shapeCast_self]
  exact matmul_zero_apply (φ₁ := .bf16) (φ₂ := .bf16) _ rfl none _ _ j

theorem idx_w0 : ∀ t : Fin cfg4.N, win4_0.index t (0 : Fin 2) = t.val ∧ win4_0.index t (1 : Fin 2) = 0 :=
  (by decide +kernel : ∀ t : Fin grid4.N, _)

theorem idx_w1 : ∀ t : Fin cfg4.N, win4_1.index t (0 : Fin 2) = 0 ∧ win4_1.index t (1 : Fin 2) = 0 :=
  (by decide +kernel : ∀ t : Fin grid4.N, _)

theorem idx_w2 : ∀ t : Fin cfg4.N, win4_2.index t (0 : Fin 2) = t.val ∧ win4_2.index t (1 : Fin 2) = 0 :=
  (by decide +kernel : ∀ t : Fin grid4.N, _)

/-- The column of an index inside the block is its column in the array. -/
theorem col_emb (t : Fin cfg4.N) (j : S5000x128.Idx) : (j 1).val = ((((cfg4.win 2).blk t).view.emb j) 1).val := by
  obtain ⟨o0, o1⟩ := idx_w2 t
  show (j 1).val = win4_2.index t (1 : Fin 2) * 128 + 1 * (j 1).val
  omega

/-- Row (j 0) of window 0's block is row (j 0) of the block's place in the array. -/
theorem blk0_row (c : Dev nD) (t : Fin cfg4.N) (j : S5000x128.Idx) (k : Fin 128) :
    iblk4 V c 0 t (rowIdx j k) = V c main_v59 (rowIdx (((cfg4.win 2).blk t).view.emb j) k) := by
  obtain ⟨a0, a1⟩ := idx_w0 t
  obtain ⟨o0, o1⟩ := idx_w2 t
  show V c main_v59 (((cfg4.win 0).blk t).view.emb (rowIdx j k)) = _
  refine congrArg (V c main_v59) (funext fun a => Fin.ext ?_)
  match a with
  | ⟨0, _⟩ => show win4_0.index t (0 : Fin 2) * 5000 + 1 * (j 0).val = win4_2.index t (0 : Fin 2) * 5000 + 1 * (j 0).val; omega
  | ⟨1, _⟩ => show win4_0.index t (1 : Fin 2) * 128 + 1 * k.val = k.val; omega

/-- Window 1 is the whole array at every point. -/
theorem blkF1 (c : Dev nD) (t : Fin cfg4.N) : iblk4 V c 1 t = V c main_arg8 := by
  obtain ⟨a0, a1⟩ := idx_w1 t
  funext y
  show V c main_arg8 (((cfg4.win 1).blk t).view.emb y) = _
  refine congrArg (V c main_arg8) (funext fun a => Fin.ext ?_)
  match a with
  | ⟨0, _⟩ => show win4_1.index t (0 : Fin 2) * 128 + 1 * (y 0).val = (y 0).val; omega
  | ⟨1, _⟩ => show win4_1.index t (1 : Fin 2) * 128 + 1 * (y 1).val = (y 1).val; omega

/-- What point t writes back is block t of the spec function of the arrays the region finds. -/
theorem flushed_eq (c : Dev nD) (t : Fin cfg4.N) :
    (dat4 V c).flushed 2 t = ((cfg4.win 2).blk t).view.read (Elt Ideal) (mm (V c main_v59) (V c main_arg8)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  rw [pay_eq]
  funext j
  show mm (iblk4 V c 0 t) (iblk4 V c 1 t) j = mm (V c main_v59) (V c main_arg8) (((cfg4.win 2).blk t).view.emb j)
  rw [blkF1 V c t]
  exact mm_rows _ _ _ j _ (col_emb t j) (fun k => blk0_row V c t j k)

/-- An index of the array is in point t's block iff each coordinate is in the block's range on its axis. -/
theorem mem_blk (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v60).slice (win4_2.rect t)).set ↔ _
  rw [View.set_slice_whole, Rect.mem_set_unit]
  exact Iff.rfl

/-- Row r lies in the block of point r / 5000, and every point writes its block back. -/
theorem cover (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ : ∃ t : Fin cfg4.N, t.val = (i 0).val / 5000 := ⟨⟨(i 0).val / 5000, by rw [show cfg4.N = 10 from N_4]; omega⟩, rfl⟩
  obtain ⟨o0, o1⟩ := idx_w2 t
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The region's output array after the region: the spec function of the arrays it found. -/
theorem final (c : Dev nD) : (dat4 V c).arrAt 2 cfg4.N = mm (V c main_v59) (V c main_arg8) :=
  (dat4 V c).arrAt_eq_of_cover 2 _ (fun t _ => flushed_eq V c t) cover

end Cert.KernelIdeal.Region4

end
-- ==== Proof.Region5.lean ====
/-
  Region 5 of the kernel's program (the self-loop, bias and ReLU step), at any entry contents V:
  what the region leaves in its output array is ONE function of the arrays it finds — convOut of Spec.lean — index by index.
  Point t of the grid holds rows 5000·t … 5000·t + 4999; the row-indexed operands are cut in the same blocks, the weights
  and bias rows are whole; each spec function computes row r from row r alone, so block t of the result is the spec of
  block t of the operands, and the ten blocks cover the array.
-/
import proofs.«179127_j38130719654217_1_alg».proof.Proof.Gen.KernelIdeal.Frame
import proofs.«179127_j38130719654217_1_alg».proof.Proof.Spec
import proofs.«179127_j38130719654217_1_alg».proof.Proof.LibRowLayout
import Idealize.ShloMosaic.Lib.Pipeline.Value
import Idealize.ShloMosaic.Lib.ValueIdx
import Idealize.ShloMosaic.Lib.ValueLayout

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Cert.Lib.PlainDot Cert.Gcn Cert.KernelIdeal.MvnKernel

variable (V : (c : Dev nD) → (b : Ref sig .tc) → Buf (Elt Ideal) ((c : Thread nD τ).loc b))

theorem hz : (![0, 0] : Fin 2 → Nat) = fun _ => 0 := funext fun a => by fin_cases a <;> rfl

/-- The body's one stored value, index by index: aggregate plus the node's own row scaled by the row's coefficient, plus the
    bias of the column, clamped below at zero. -/
theorem pay_eq (x0 x1 : Vec Ideal S5000x128 .f32) (x2 : Vec Ideal S5000x1 .f32) (x3 : Vec Ideal S1x128 .f32) :
    k5_pay1 x0 x1 x2 x3 = convOut x0 x1 x2 x3 := by
  funext j
  obtain ⟨p, q, rfl⟩ : ∃ (p : Fin 5000) (q : Fin 128), j = ix2 p q := ⟨j 0, j 1, eq_ix2 j⟩
  unfold k5_pay1 convOut
  simp only [shapeCast_self, maximumf_apply, addf_apply, mulf_apply, broadcast_apply, broadcastTo_a1_ab_apply, broadcastTo_1b_ab_apply]
  rfl

theorem idx_w0 : ∀ t : Fin cfg5.N, win5_0.index t (0 : Fin 2) = t.val ∧ win5_0.index t (1 : Fin 2) = 0 :=
  (by decide +kernel : ∀ t : Fin grid5.N, _)

theorem idx_w1 : ∀ t : Fin cfg5.N, win5_1.index t (0 : Fin 2) = t.val ∧ win5_1.index t (1 : Fin 2) = 0 :=
  (by decide +kernel : ∀ t : Fin grid5.N, _)

theorem idx_w2 : ∀ t : Fin cfg5.N, win5_2.index t (0 : Fin 2) = t.val ∧ win5_2.index t (1 : Fin 2) = 0 :=
  (by decide +kernel : ∀ t : Fin grid5.N, _)

theorem idx_w3 : ∀ t : Fin cfg5.N, win5_3.index t (0 : Fin 2) = 0 ∧ win5_3.index t (1 : Fin 2) = 0 :=
  (by decide +kernel : ∀ t : Fin grid5.N, _)

theorem idx_w4 : ∀ t : Fin cfg5.N, win5_4.index t (0 : Fin 2) = t.val ∧ win5_4.index t (1 : Fin 2) = 0 :=
  (by decide +kernel : ∀ t : Fin grid5.N, _)

/-- The column of an index inside the block is its column in the array. -/
theorem col_emb (t : Fin cfg5.N) (j : S5000x128.Idx) : (j 1).val = ((((cfg5.win 4).blk t).view.emb j) 1).val := by
  obtain ⟨o0, o1⟩ := idx_w4 t
  show (j 1).val = win5_4.index t (1 : Fin 2) * 128 + 1 * (j 1).val
  omega

/-- Window 0's block read at an index is the array read at the index's place in the array. -/
theorem blk0 (c : Dev nD) (t : Fin cfg5.N) (j : S5000x128.Idx) :
    iblk5 V c 0 t j = V c main_v73 (((cfg5.win 4).blk t).view.emb j) := by
  obtain ⟨a0, a1⟩ := idx_w0 t
  obtain ⟨o0, o1⟩ := idx_w4 t
  show V c main_v73 (((cfg5.win 0).blk t).view.emb j) = _
  refine congrArg (V c main_v73) (funext fun a => Fin.ext ?_)
  match a with
  | ⟨0, _⟩ => show win5_0.index t (0 : Fin 2) * 5000 + 1 * (j 0).val = win5_4.index t (0 : Fin 2) * 5000 + 1 * (j 0).val; omega
  | ⟨1, _⟩ => show win5_0.index t (1 : Fin 2) * 128 + 1 * (j 1).val = win5_4.index t (1 : Fin 2) * 128 + 1 * (j 1).val; omega

/-- Window 1's block read at an index is the array read at the index's place in the array. -/
theorem blk1 (c : Dev nD) (t : Fin cfg5.N) (j : S5000x128.Idx) :
    iblk5 V c 1 t j = V c main_v60 (((cfg5.win 4).blk t).view.emb j) := by
  obtain ⟨a0, a1⟩ := idx_w1 t
  obtain ⟨o0, o1⟩ := idx_w4 t
  show V c main_v60 (((cfg5.win 1).blk t).view.emb j) = _
  refine congrArg (V c main_v60) (funext fun a => Fin.ext ?_)
  match a with
  | ⟨0, _⟩ => show win5_1.index t (0 : Fin 2) * 5000 + 1 * (j 0).val = win5_4.index t (0 : Fin 2) * 5000 + 1 * (j 0).val; omega
  | ⟨1, _⟩ => show win5_1.index t (1 : Fin 2) * 128 + 1 * (j 1).val = win5_4.index t (1 : Fin 2) * 128 + 1 * (j 1).val; omega

/-- Window 2's block read at (p, 0) is the column array at the block's row. -/
theorem blk2_col (c : Dev nD) (t : Fin cfg5.N) (j : S5000x128.Idx) :
    iblk5 V c 2 t (ix2 (j 0) (0 : Fin 1)) = V c main_v27 (ix2 ((((cfg5.win 4).blk t).view.emb j) 0) (0 : Fin 1)) := by
  obtain ⟨a0, a1⟩ := idx_w2 t
  obtain ⟨o0, o1⟩ := idx_w4 t
  show V c main_v27 (((cfg5.win 2).blk t).view.emb (ix2 (j 0) (0 : Fin 1))) = _
  refine congrArg (V c main_v27) (funext fun a => Fin.ext ?_)
  match a with
  | ⟨0, _⟩ => show win5_2.index t (0 : Fin 2) * 5000 + 1 * (j 0).val = win5_4.index t (0 : Fin 2) * 5000 + 1 * (j 0).val; omega
  | ⟨1, _⟩ => show win5_2.index t (1 : Fin 2) * 1 + 1 * 0 = 0; omega

/-- Window 3 is the whole array at every point. -/
theorem blkF3 (c : Dev nD) (t : Fin cfg5.N) : iblk5 V c 3 t = V c main_v74 := by
  obtain ⟨a0, a1⟩ := idx_w3 t
  funext y
  show V c main_v74 (((cfg5.win 3).blk t).view.emb y) = _
  refine congrArg (V c main_v74) (funext fun a => Fin.ext ?_)
  match a with
  | ⟨0, _⟩ => show win5_3.index t (0 : Fin 2) * 1 + 1 * (y 0).val = (y 0).val; omega
  | ⟨1, _⟩ => show win5_3.index t (1 : Fin 2) * 128 + 1 * (y 1).val = (y 1).val; omega

/-- What point t writes back is block t of the spec function of the arrays the region finds. -/
theorem flushed_eq (c : Dev nD) (t : Fin cfg5.N) :
    (dat5 V c).flushed 4 t = ((cfg5.win 4).blk t).view.read (Elt Ideal) (convOut (V c main_v73) (V c main_v60) (V c main_v27) (V c main_v74)) := by
  show (cfg5.win 4).cut (grid5.coords t) ((dat5 V c).after 4 t) = _
  rw [after5_4]
  unfold out5_4
  rw [View.canon_unit_zero hz]
  simp only [View.ld_unit_zero (S := S5000x128) hz, View.ld_unit_zero (S := S5000x1) hz, View.ld_unit_zero (S := S1x128) hz]
  rw [pay_eq]
  funext j
  show convOut (iblk5 V c 0 t) (iblk5 V c 1 t) (iblk5 V c 2 t) (iblk5 V c 3 t) j = convOut (V c main_v73) (V c main_v60) (V c main_v27) (V c main_v74) (((cfg5.win 4).blk t).view.emb j)
  rw [blkF3 V c t]
  exact convOut_rows _ _ _ _ _ _ _ j _ (col_emb t j) (blk0 V c t j) (blk1 V c t j) (blk2_col V c t j)

/-- An index of the array is in point t's block iff each coordinate is in the block's range on its axis. -/
theorem mem_blk (t : Fin cfg5.N) (i : S50000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v75).slice (win5_4.rect t)).set ↔ _
  rw [View.set_slice_whole, Rect.mem_set_unit]
  exact Iff.rfl

/-- Row r lies in the block of point r / 5000, and every point writes its block back. -/
theorem cover (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  obtain ⟨t, ht⟩ : ∃ t : Fin cfg5.N, t.val = (i 0).val / 5000 := ⟨⟨(i 0).val / 5000, by rw [show cfg5.N = 10 from N_5]; omega⟩, rfl⟩
  obtain ⟨o0, o1⟩ := idx_w4 t
  refine ⟨t, flush5_4 t, ?_⟩
  rw [mem_blk]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 128 ≤ (i 1).val ∧ (i 1).val < win5_4.index t (1 : Fin 2) * 128 + 128; omega

/-- The region's output array after the region: the spec function of the arrays it found. -/
theorem final (c : Dev nD) : (dat5 V c).arrAt 4 cfg5.N = convOut (V c main_v73) (V c main_v60) (V c main_v27) (V c main_v74) :=
  (dat5 V c).arrAt_eq_of_cover 4 _ (fun t _ => flushed_eq V c t) cover

end Cert.KernelIdeal.Region5

end
-- ==== Proof.Region6.lean ====
/-
  Region 6 of the kernel's program (the two-layer head), at any entry contents V:
  what the region leaves in its output array is ONE function of the arrays it finds — head of Spec.lean — index by index.
  Point t of the grid holds rows 5000·t … 5000·t + 4999; the row-indexed operands are cut in the same blocks, the weights
  and bias rows are whole; each spec function computes row r from row r alone, so block t of the result is the spec of
  block t of the operands, and the ten blocks cover the array.
-/
import proofs.«179127_j38130719654217_1_alg».proof.Proof.Gen.KernelIdeal.Frame
import proofs.«179127_j38130719654217_1_alg».proof.Proof.Spec
import proofs.«179127_j38130719654217_1_alg».proof.Proof.LibRowLayout
import Idealize.ShloMosaic.Lib.Pipeline.Value
import Idealize.ShloMosaic.Lib.ValueIdx
import Idealize.ShloMosaic.Lib.ValueLayout

set_option maxRecDepth 16384

noncomputable section

namespace Cert.KernelIdeal.Region6

open Cert.KernelIdeal Cert.KernelIdeal.Gen
open Idealize.ShloMosaic Idealize.ShloMosaic.TcCoe Idealize.ShloMosaic.ValueIdx Idealize.SL.Sem
open Cert.Lib.PlainDot Cert.Gcn Cert.KernelIdeal.MvnKernel

variable (V : (c : Dev nD) → (b : Ref sig .tc) → Buf (Elt Ideal) ((c : Thread nD τ).loc b))

theorem hz : (![0, 0] : Fin 2 → Nat) = fun _ => 0 := funext fun a => by fin_cases a <;> rfl

/-- The hidden layer of the head on a block of rows, index by index. -/
theorem hidden_eq (x0 : Vec Ideal S5000x128 .f32) (x1 : Vec Ideal S128x128 .f32) (x2 : Vec Ideal S1x128 .f32) (i : S5000x128.Idx) :
    maximumf (addf (matmul dot_S5000x128_S128x128_S5000x128_1_0_0_1_n_n none (truncf .bf16 x0 bitsLt_bf16_f32) (truncf .bf16 x1 bitsLt_bf16_f32) (constant S5000x128 .f32 0x00000000#32))
        (broadcastTo S5000x128 x2 broadcasts_S1x128_S5000x128)) (broadcast S5000x128 (Scalar.ofBits (F := Ideal) .f32 0x00000000#32)) i
      = relu (lin x0 x1 x2) i := by
  obtain ⟨p, q, rfl⟩ : ∃ (p : Fin 5000) (q : Fin 128), i = ix2 p q := ⟨i 0, i 1, eq_ix2 i⟩
  have hm := matmul_zero_apply (φ₁ := .bf16) (φ₂ := .bf16) dot_S5000x128_S128x128_S5000x128_1_0_0_1_n_n rfl none
    (truncf .bf16 x0 bitsLt_bf16_f32) (truncf .bf16 x1 bitsLt_bf16_f32) (ix2 p q)
  have hb := broadcastTo_1b_ab_apply x2 broadcasts_S1x128_S5000x128 p q
  show max (_ + broadcastTo S5000x128 x2 broadcasts_S1x128_S5000x128 (ix2 p q)) _ = max (mm x0 x1 (ix2 p q) + x2 (ix2 (0 : Fin 1) q)) z32
  rw [hb]
  exact congrArg (fun z => max (z + x2 (ix2 (0 : Fin 1) q)) z32) hm

/-- The body's one stored value: the two-layer head of the block of rows. -/
theorem pay_eq (x0 : Vec Ideal S5000x128 .f32) (x1 : Vec Ideal S128x128 .f32) (x2 : Vec Ideal S1x128 .f32) (x3 : Vec Ideal S128x128 .f32) (x4 : Vec Ideal S1x128 .f32) :
    k6_pay1 x0 x1 x2 x3 x4 = head x0 x1 x2 x3 x4 := by
  funext j
  obtain ⟨p, q, rfl⟩ : ∃ (p : Fin 5000) (q : Fin 128), j = ix2 p q := ⟨j 0, j 1, eq_ix2 j⟩
  unfold k6_pay1
  simp only [shapeCast_self]
  have hb := broadcastTo_1b_ab_apply x4 broadcasts_S1x128_S5000x128 p q
  have hm := matmul_zero_apply (φ₁ := .bf16) (φ₂ := .bf16) dot_S5000x128_S128x128_S5000x128_1_0_0_1_n_n rfl none
    (truncf .bf16 (maximumf (addf (matmul dot_S5000x128_S128x128_S5000x128_1_0_0_1_n_n none (truncf .bf16 x0 bitsLt_bf16_f32) (truncf .bf16 x1 bitsLt_bf16_f32) (constant S5000x128 .f32 0x00000000#32))
        (broadcastTo S5000x128 x2 broadcasts_S1x128_S5000x128)) (broadcast S5000x128 (Scalar.ofBits (F := Ideal) .f32 0x00000000#32))) bitsLt_bf16_f32)
    (truncf .bf16 x3 bitsLt_bf16_f32) (ix2 p q)
  show _ + broadcastTo S5000x128 x4 broadcasts_S1x128_S5000x128 (ix2 p q) = mm (relu (lin x0 x1 x2)) x3 (ix2 p q) + x4 (ix2 (0 : Fin 1) q)
  rw [hb]
  refine (congrArg (· + x4 (ix2 (0 : Fin 1) q)) hm).trans ?_
  refine congrArg (· + x4 (ix2 (0 : Fin 1) q)) ?_
  unfold mm
  refine Finset.sum_congr rfl fun k _ => congrArg (· * x3 (colIdx (ix2 p q) k)) ?_
  exact hidden_eq x0 x1 x2 _

theorem idx_w0 : ∀ t : Fin cfg6.N, win6_0.index t (0 : Fin 2) = t.val ∧ win6_0.index t (1 : Fin 2) = 0 :=
  (by decide +kernel : ∀ t : Fin grid6.N, _)

theorem idx_w1 : ∀ t : Fin cfg6.N, win6_1.index t (0 : Fin 2) = 0 ∧ win6_1.index t (1 : Fin 2) = 0 :=
  (by decide +kernel : ∀ t : Fin grid6.N, _)

theorem idx_w2 : ∀ t : Fin cfg6.N, win6_2.index t (0 : Fin 2) = 0 ∧ win6_2.index t (1 : Fin 2) = 0 :=
  (by decide +kernel : ∀ t : Fin grid6.N, _)

theorem idx_w3 : ∀ t : Fin cfg6.N, win6_3.index t (0 : Fin 2) = 0 ∧ win6_3.index t (1 : Fin 2) = 0 :=
  (by decide +kernel : ∀ t : Fin grid6.N, _)

theorem idx_w4 : ∀ t : Fin cfg6.N, win6_4.index t (0 : Fin 2) = 0 ∧ win6_4.index t (1 : Fin 2) = 0 :=
  (by decide +kernel : ∀ t : Fin grid6.N, _)

theorem idx_w5 : ∀ t : Fin cfg6.N, win6_5.index t (0 : Fin 2) = t.val ∧ win6_5.index t (1 : Fin 2) = 0 :=
  (by decide +kernel : ∀ t : Fin grid6.N, _)

/-- The column of an index inside the block is its column in the array. -/
theorem col_emb (t : Fin cfg6.N) (j : S5000x128.Idx) : (j 1).val = ((((cfg6.win 5).blk t).view.emb j) 1).val := by
  obtain ⟨o0, o1⟩ := idx_w5 t
  show (j 1).val = win6_5.index t (1 : Fin 2) * 128 + 1 * (j 1).val
  omega

/-- Row (j 0) of window 0's block is row (j 0) of the block's place in the array. -/
theorem blk0_row (c : Dev nD) (t : Fin cfg6.N) (j : S5000x128.Idx) (k : Fin 128) :
    iblk6 V c 0 t (rowIdx j k) = V c main_v75 (rowIdx (((cfg6.win 5).blk t).view.emb j) k) := by
  obtain ⟨a0, a1⟩ := idx_w0 t
  obtain ⟨o0, o1⟩ := idx_w5 t
  show V c main_v75 (((cfg6.win 0).blk t).view.emb (rowIdx j k)) = _
  refine congrArg (V c main_v75) (funext fun a => Fin.ext ?_)
  match a with
  | ⟨0, _⟩ => show win6_0.index t (0 : Fin 2) * 5000 + 1 * (j 0).val = win6_5.index t (0 : Fin 2) * 5000 + 1 * (j 0).val; omega
  | ⟨1, _⟩ => show win6_0.index t (1 : Fin 2) * 128 + 1 * k.val = k.val; omega

/-- Window 1 is the whole array at every point. -/
theorem blkF1 (c : Dev nD) (t : Fin cfg6.N) : iblk6 V c 1 t = V c main_arg10 := by
  obtain ⟨a0, a1⟩ := idx_w1 t
  funext y
  show V c main_arg10 (((cfg6.win 1).blk t).view.emb y) = _
  refine congrArg (V c main_arg10) (funext fun a => Fin.ext ?_)
  match a with
  | ⟨0, _⟩ => show win6_1.index t (0 : Fin 2) * 128 + 1 * (y 0).val = (y 0).val; omega
  | ⟨1, _⟩ => show win6_1.index t (1 : Fin 2) * 128 + 1 * (y 1).val = (y 1).val; omega

/-- Window 2 is the whole array at every point. -/
theorem blkF2 (c : Dev nD) (t : Fin cfg6.N) : iblk6 V c 2 t = V c main_v76 := by
  obtain ⟨a0, a1⟩ := idx_w2 t
  funext y
  show V c main_v76 (((cfg6.win 2).blk t).view.emb y) = _
  refine congrArg (V c main_v76) (funext fun a => Fin.ext ?_)
  match a with
  | ⟨0, _⟩ => show win6_2.index t (0 : Fin 2) * 1 + 1 * (y 0).val = (y 0).val; omega
  | ⟨1, _⟩ => show win6_2.index t (1 : Fin 2) * 128 + 1 * (y 1).val = (y 1).val; omega

/-- Window 3 is the whole array at every point. -/
theorem blkF3 (c : Dev nD) (t : Fin cfg6.N) : iblk6 V c 3 t = V c main_arg12 := by
  obtain ⟨a0, a1⟩ := idx_w3 t
  funext y
  show V c main_arg12 (((cfg6.win 3).blk t).view.emb y) = _
  refine congrArg (V c main_arg12) (funext fun a => Fin.ext ?_)
  match a with
  | ⟨0, _⟩ => show win6_3.index t (0 : Fin 2) * 128 + 1 * (y 0).val = (y 0).val; omega
  | ⟨1, _⟩ => show win6_3.index t (1 : Fin 2) * 128 + 1 * (y 1).val = (y 1).val; omega

/-- Window 4 is the whole array at every point. -/
theorem blkF4 (c : Dev nD) (t : Fin cfg6.N) : iblk6 V c 4 t = V c main_v77 := by
  obtain ⟨a0, a1⟩ := idx_w4 t
  funext y
  show V c main_v77 (((cfg6.win 4).blk t).view.emb y) = _
  refine congrArg (V c main_v77) (funext fun a => Fin.ext ?_)
  match a with
  | ⟨0, _⟩ => show win6_4.index t (0 : Fin 2) * 1 + 1 * (y 0).val = (y 0).val; omega
  | ⟨1, _⟩ => show win6_4.index t (1 : Fin 2) * 128 + 1 * (y 1).val = (y 1).val; omega

/-- What point t writes back is block t of the spec function of the arrays the region finds. -/
theorem flushed_eq (c : Dev nD) (t : Fin cfg6.N) :
    (dat6 V c).flushed 5 t = ((cfg6.win 5).blk t).view.read (Elt Ideal) (head (V c main_v75) (V c main_arg10) (V c main_v76) (V c main_arg12) (V c main_v77)) := by
  show (cfg6.win 5).cut (grid6.coords t) ((dat6 V c).after 5 t) = _
  rw [after6_5]
  unfold out6_5
  rw [View.canon_unit_zero hz]
  simp only [View.ld_unit_zero (S := S5000x128) hz, View.ld_unit_zero (S := S128x128) hz, View.ld_unit_zero (S := S1x128) hz]
  rw [pay_eq]
  funext j
  show head (iblk6 V c 0 t) (iblk6 V c 1 t) (iblk6 V c 2 t) (iblk6 V c 3 t) (iblk6 V c 4 t) j = head (V c main_v75) (V c main_arg10) (V c main_v76) (V c main_arg12) (V c main_v77) (((cfg6.win 5).blk t).view.emb j)
  rw [blkF1 V c t, blkF2 V c t, blkF3 V c t, blkF4 V c t]
  exact head_rows _ _ _ _ _ _ j _ (col_emb t j) (fun k => blk0_row V c t j k)

/-- An index of the array is in point t's block iff each coordinate is in the block's range on its axis. -/
theorem mem_blk (t : Fin cfg6.N) (i : S50000x128.Idx) :
    i ∈ ((cfg6.win 5).blk t).view.set ↔ ∀ a : Fin 2, win6_5.index t a * S5000x128.size a ≤ (i a).val ∧ (i a).val < win6_5.index t a * S5000x128.size a + S5000x128.size a := by
  show i ∈ ((View.whole main_v78).slice (win6_5.rect t)).set ↔ _
  rw [View.set_slice_whole, Rect.mem_set_unit]
  exact Iff.rfl

/-- Row r lies in the block of point r / 5000, and every point writes its block back. -/
theorem cover (i : S50000x128.Idx) :
    ∃ t : Fin cfg6.N, (cfg6.win 5).flush t = true ∧ i ∈ ((cfg6.win 5).blk t).view.set := by
  have hi0 : (i 0).val < 50000 := (i 0).isLt
  have hi1 : (i 1).val < 128 := (i 1).isLt
  obtain ⟨t, ht⟩ : ∃ t : Fin cfg6.N, t.val = (i 0).val / 5000 := ⟨⟨(i 0).val / 5000, by rw [show cfg6.N = 10 from N_6]; omega⟩, rfl⟩
  obtain ⟨o0, o1⟩ := idx_w5 t
  refine ⟨t, flush6_5 t, ?_⟩
  rw [mem_blk]
  intro a
  match a with
  | ⟨0, _⟩ => show win6_5.index t (0 : Fin 2) * 5000 ≤ (i 0).val ∧ (i 0).val < win6_5.index t (0 : Fin 2) * 5000 + 5000; omega
  | ⟨1, _⟩ => show win6_5.index t (1 : Fin 2) * 128 ≤ (i 1).val ∧ (i 1).val < win6_5.index t (1 : Fin 2) * 128 + 128; omega

/-- The region's output array after the region: the spec function of the arrays it found. -/
theorem final (c : Dev nD) : (dat6 V c).arrAt 5 cfg6.N = head (V c main_v75) (V c main_arg10) (V c main_v76) (V c main_arg12) (V c main_v77) :=
  (dat6 V c).arrAt_eq_of_cover 5 _ (fun t _ => flushed_eq V c t) cover

end Cert.KernelIdeal.Region6

end
-- ==== Proof.Chain1.lean ====
/-
  The first graph through the kernel's program, segment by segment: every buffer that one segment writes and a later one
  reads holds, at the boundary where it is written, the value the reference computes for it (the reference's own stage,
  as a function of the arguments).  A host stretch applies the same operations as the reference to operands already known
  to be the reference's; a region's output is the layer function of Spec.lean of its operands (Region<K>.lean), which is the
  reference's spelling of that layer (Bridge.lean).  Between the boundary where a buffer is written and the one where it is
  read, no segment writes it.
-/
import proofs.«179127_j38130719654217_1_alg».proof.Proof.Gen.KernelIdeal.Frame
import proofs.«179127_j38130719654217_1_alg».proof.Proof.ReadP
import proofs.«179127_j38130719654217_1_alg».proof.Proof.Bridge
import proofs.«179127_j38130719654217_1_alg».proof.Proof.Walk
import proofs.«179127_j38130719654217_1_alg».proof.Proof.ArgsA
import proofs.«179127_j38130719654217_1_alg».proof.Proof.Region0
import proofs.«179127_j38130719654217_1_alg».proof.Proof.Region1
import proofs.«179127_j38130719654217_1_alg».proof.Proof.Region2
import proofs.«179127_j38130719654217_1_alg».proof.Proof.Region3
import proofs.«179127_j38130719654217_1_alg».proof.Proof.Region4
import proofs.«179127_j38130719654217_1_alg».proof.Proof.Region5
import proofs.«179127_j38130719654217_1_alg».proof.Proof.Region6
import Idealize.ShloMosaic.Lib.StableHlo.Run

set_option maxRecDepth 16384

noncomputable section

namespace Cert.KernelIdeal.Chain1

open Cert.KernelIdeal Cert.KernelIdeal.Gen
open Idealize.ShloMosaic Idealize.ShloMosaic.TcCoe Idealize.SL.Sem Idealize.ShloMosaic.StableHlo
open Cert.Gcn

variable (m : (ℓ : Loc nD τ sig) → Buf (Elt Ideal) ℓ) (ρ : Dev nD → PrngReg)

open Cert.Lib.PlainDot
open Cert.KernelIdeal.Walk Cert.KernelIdeal.ArgsA

set_option maxHeartbeats 4000000 in
/-- v1, written by the host stretch that ends at boundary 1, is the reference's value there. -/
theorem val_v1 (c : Dev nD) : W1 m ρ c (Proc.devRef .tc main_v1) = Cert.ReferenceIdeal.ReadP.val_main_v1 (F := Ideal) (a1 m c) := by
  show StableHlo.after hostOps0 (W0 m ρ c) (Proc.devRef .tc main_v1) = _
  after_results_simp
  rfl

theorem at_v1_2 (c : Dev nD) : W2 m ρ c (Proc.devRef .tc main_v1) = Cert.ReferenceIdeal.ReadP.val_main_v1 (F := Ideal) (a1 m c) :=
  (calc W2 m ρ c (Proc.devRef .tc main_v1)
    _ = W1 m ρ c (Proc.devRef .tc main_v1) := W2_of_ne m ρ c main_v1 (by decide)
  ).trans (val_v1 m ρ c)

theorem at_v1_5 (c : Dev nD) : W5 m ρ c (Proc.devRef .tc main_v1) = Cert.ReferenceIdeal.ReadP.val_main_v1 (F := Ideal) (a1 m c) :=
  (calc W5 m ρ c (Proc.devRef .tc main_v1)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := by host_skip
  ).trans (at_v1_2 m ρ c)

theorem at_v1_8 (c : Dev nD) : W8 m ρ c (Proc.devRef .tc main_v1) = Cert.ReferenceIdeal.ReadP.val_main_v1 (F := Ideal) (a1 m c) :=
  (calc W8 m ρ c (Proc.devRef .tc main_v1)
    _ = W7 m ρ c (Proc.devRef .tc main_v1) := W8_of_ne m ρ c main_v1 (by decide)
    _ = W6 m ρ c (Proc.devRef .tc main_v1) := W7_of_ne m ρ c main_v1 (by decide)
    _ = W5 m ρ c (Proc.devRef .tc main_v1) := by host_skip
  ).trans (at_v1_5 m ρ c)

set_option maxHeartbeats 4000000 in
/-- v3, written by the host stretch that ends at boundary 1, is the reference's value there. -/
theorem val_v3 (c : Dev nD) : W1 m ρ c (Proc.devRef .tc main_v3) = Cert.ReferenceIdeal.ReadP.val_main_v3 (F := Ideal) (a1 m c) := by
  show StableHlo.after hostOps0 (W0 m ρ c) (Proc.devRef .tc main_v3) = _
  after_results_simp
  rfl

theorem at_v3_2 (c : Dev nD) : W2 m ρ c (Proc.devRef .tc main_v3) = Cert.ReferenceIdeal.ReadP.val_main_v3 (F := Ideal) (a1 m c) :=
  (calc W2 m ρ c (Proc.devRef .tc main_v3)
    _ = W1 m ρ c (Proc.devRef .tc main_v3) := W2_of_ne m ρ c main_v3 (by decide)
  ).trans (val_v3 m ρ c)

theorem at_v3_5 (c : Dev nD) : W5 m ρ c (Proc.devRef .tc main_v3) = Cert.ReferenceIdeal.ReadP.val_main_v3 (F := Ideal) (a1 m c) :=
  (calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := by host_skip
  ).trans (at_v3_2 m ρ c)

theorem at_v3_8 (c : Dev nD) : W8 m ρ c (Proc.devRef .tc main_v3) = Cert.ReferenceIdeal.ReadP.val_main_v3 (F := Ideal) (a1 m c) :=
  (calc W8 m ρ c (Proc.devRef .tc main_v3)
    _ = W7 m ρ c (Proc.devRef .tc main_v3) := W8_of_ne m ρ c main_v3 (by decide)
    _ = W6 m ρ c (Proc.devRef .tc main_v3) := W7_of_ne m ρ c main_v3 (by decide)
    _ = W5 m ρ c (Proc.devRef .tc main_v3) := by host_skip
  ).trans (at_v3_5 m ρ c)

set_option maxHeartbeats 4000000 in
/-- v25, written by the host stretch that ends at boundary 1, is the reference's value there. -/
theorem val_v25 (c : Dev nD) : W1 m ρ c (Proc.devRef .tc main_v25) = Cert.ReferenceIdeal.ReadP.val_main_v26 (F := Ideal) (a1 m c) := by
  show StableHlo.after hostOps0 (W0 m ρ c) (Proc.devRef .tc main_v25) = _
  after_results_simp
  rfl

theorem at_v25_2 (c : Dev nD) : W2 m ρ c (Proc.devRef .tc main_v25) = Cert.ReferenceIdeal.ReadP.val_main_v26 (F := Ideal) (a1 m c) :=
  (calc W2 m ρ c (Proc.devRef .tc main_v25)
    _ = W1 m ρ c (Proc.devRef .tc main_v25) := W2_of_ne m ρ c main_v25 (by decide)
  ).trans (val_v25 m ρ c)

theorem at_v25_5 (c : Dev nD) : W5 m ρ c (Proc.devRef .tc main_v25) = Cert.ReferenceIdeal.ReadP.val_main_v26 (F := Ideal) (a1 m c) :=
  (calc W5 m ρ c (Proc.devRef .tc main_v25)
    _ = W4 m ρ c (Proc.devRef .tc main_v25) := W5_of_ne m ρ c main_v25 (by decide)
    _ = W3 m ρ c (Proc.devRef .tc main_v25) := W4_of_ne m ρ c main_v25 (by decide)
    _ = W2 m ρ c (Proc.devRef .tc main_v25) := by host_skip
  ).trans (at_v25_2 m ρ c)

theorem at_v25_8 (c : Dev nD) : W8 m ρ c (Proc.devRef .tc main_v25) = Cert.ReferenceIdeal.ReadP.val_main_v26 (F := Ideal) (a1 m c) :=
  (calc W8 m ρ c (Proc.devRef .tc main_v25)
    _ = W7 m ρ c (Proc.devRef .tc main_v25) := W8_of_ne m ρ c main_v25 (by decide)
    _ = W6 m ρ c (Proc.devRef .tc main_v25) := W7_of_ne m ρ c main_v25 (by decide)
    _ = W5 m ρ c (Proc.devRef .tc main_v25) := by host_skip
  ).trans (at_v25_5 m ρ c)

set_option maxHeartbeats 4000000 in
/-- v27, written by the host stretch that ends at boundary 1, is the reference's value there. -/
theorem val_v27 (c : Dev nD) : W1 m ρ c (Proc.devRef .tc main_v27) = shapeCast S50000x1 (Cert.ReferenceIdeal.ReadP.val_main_v40 (F := Ideal) (a1 m c)) shapeCasts_S50000_S50000x1 := by
  show StableHlo.after hostOps0 (W0 m ρ c) (Proc.devRef .tc main_v27) = _
  after_results_simp
  rfl

theorem at_v27_3 (c : Dev nD) : W3 m ρ c (Proc.devRef .tc main_v27) = shapeCast S50000x1 (Cert.ReferenceIdeal.ReadP.val_main_v40 (F := Ideal) (a1 m c)) shapeCasts_S50000_S50000x1 :=
  (calc W3 m ρ c (Proc.devRef .tc main_v27)
    _ = W2 m ρ c (Proc.devRef .tc main_v27) := by host_skip
    _ = W1 m ρ c (Proc.devRef .tc main_v27) := W2_of_ne m ρ c main_v27 (by decide)
  ).trans (val_v27 m ρ c)

theorem at_v27_6 (c : Dev nD) : W6 m ρ c (Proc.devRef .tc main_v27) = shapeCast S50000x1 (Cert.ReferenceIdeal.ReadP.val_main_v40 (F := Ideal) (a1 m c)) shapeCasts_S50000_S50000x1 :=
  (calc W6 m ρ c (Proc.devRef .tc main_v27)
    _ = W5 m ρ c (Proc.devRef .tc main_v27) := by host_skip
    _ = W4 m ρ c (Proc.devRef .tc main_v27) := W5_of_ne m ρ c main_v27 (by decide)
    _ = W3 m ρ c (Proc.devRef .tc main_v27) := (W4_arr m ρ c 2).trans (((dat1 (V3 m ρ) c).arrAt_in 2 rfl _).trans (A_eq1 (V3 m ρ) c 2))
  ).trans (at_v27_3 m ρ c)

theorem at_v27_9 (c : Dev nD) : W9 m ρ c (Proc.devRef .tc main_v27) = shapeCast S50000x1 (Cert.ReferenceIdeal.ReadP.val_main_v40 (F := Ideal) (a1 m c)) shapeCasts_S50000_S50000x1 :=
  (calc W9 m ρ c (Proc.devRef .tc main_v27)
    _ = W8 m ρ c (Proc.devRef .tc main_v27) := by host_skip
    _ = W7 m ρ c (Proc.devRef .tc main_v27) := W8_of_ne m ρ c main_v27 (by decide)
    _ = W6 m ρ c (Proc.devRef .tc main_v27) := (W7_arr m ρ c 2).trans (((dat3 (V6 m ρ) c).arrAt_in 2 rfl _).trans (A_eq3 (V6 m ρ) c 2))
  ).trans (at_v27_6 m ρ c)

set_option maxHeartbeats 4000000 in
/-- v28, written by region 0 that ends at boundary 2, is the reference's value there. -/
theorem val_v28 (c : Dev nD) : W2 m ρ c (Proc.devRef .tc main_v28) = Cert.ReferenceIdeal.ReadP.val_main_v4 (F := Ideal) (a0 m c) (a4 m c) := by
  refine (W2_arr m ρ c 2).trans ((Region0.final (V1 m ρ) c).trans ?_)
  show mm (W1 m ρ c (Proc.devRef .tc main_arg0)) (W1 m ρ c (Proc.devRef .tc main_arg4)) = _
  rw [at_arg0_1 m ρ c, at_arg4_1 m ρ c]
  exact (Cert.ReferenceIdeal.Bridge.dot_eq _ _).symm

theorem at_v28_3 (c : Dev nD) : W3 m ρ c (Proc.devRef .tc main_v28) = Cert.ReferenceIdeal.ReadP.val_main_v4 (F := Ideal) (a0 m c) (a4 m c) :=
  (calc W3 m ρ c (Proc.devRef .tc main_v28)
    _ = W2 m ρ c (Proc.devRef .tc main_v28) := by host_skip
  ).trans (val_v28 m ρ c)

set_option maxHeartbeats 4000000 in
/-- v41, written by the host stretch that ends at boundary 3, is the reference's value there. -/
theorem val_v41 (c : Dev nD) : W3 m ρ c (Proc.devRef .tc main_v41) = Cert.ReferenceIdeal.ReadP.val_main_v39 (F := Ideal) (a0 m c) (a1 m c) (a4 m c) := by
  show StableHlo.after hostOps1 (W2 m ρ c) (Proc.devRef .tc main_v41) = _
  after_results_simp
  rw [at_v1_2 m ρ c, val_v28 m ρ c, at_v25_2 m ρ c, at_v3_2 m ρ c]
  rfl

set_option maxHeartbeats 4000000 in
/-- v42, written by the host stretch that ends at boundary 3, is the reference's value there. -/
theorem val_v42 (c : Dev nD) : W3 m ρ c (Proc.devRef .tc main_v42) = shapeCast S1x128 (a5 m c) shapeCasts_S128_S1x128 := by
  show StableHlo.after hostOps1 (W2 m ρ c) (Proc.devRef .tc main_v42) = _
  after_results_simp
  rw [at_arg5_2 m ρ c]
  rfl

set_option maxHeartbeats 4000000 in
/-- v43, written by region 1 that ends at boundary 4, is the reference's value there. -/
theorem val_v43 (c : Dev nD) : W4 m ρ c (Proc.devRef .tc main_v43) = Cert.ReferenceIdeal.ReadP.val_main_v48 (F := Ideal) (a0 m c) (a1 m c) (a4 m c) (a5 m c) := by
  refine (W4_arr m ρ c 4).trans ((Region1.final (V3 m ρ) c).trans ?_)
  show convOut (W3 m ρ c (Proc.devRef .tc main_v41)) (W3 m ρ c (Proc.devRef .tc main_v28)) (W3 m ρ c (Proc.devRef .tc main_v27)) (W3 m ρ c (Proc.devRef .tc main_v42)) = _
  rw [val_v41 m ρ c, at_v28_3 m ρ c, at_v27_3 m ρ c, val_v42 m ρ c]
  exact Cert.ReferenceIdeal.Bridge.post_eq _ _ _ _ _ _

set_option maxHeartbeats 4000000 in
/-- v44, written by region 2 that ends at boundary 5, is the reference's value there. -/
theorem val_v44 (c : Dev nD) : W5 m ρ c (Proc.devRef .tc main_v44) = Cert.ReferenceIdeal.ReadP.val_main_v49 (F := Ideal) (a0 m c) (a1 m c) (a4 m c) (a5 m c) (a6 m c) := by
  refine (W5_arr m ρ c 2).trans ((Region2.final (V4 m ρ) c).trans ?_)
  show mm (W4 m ρ c (Proc.devRef .tc main_v43)) (W4 m ρ c (Proc.devRef .tc main_arg6)) = _
  rw [val_v43 m ρ c, at_arg6_4 m ρ c]
  exact (Cert.ReferenceIdeal.Bridge.dot_eq _ _).symm

theorem at_v44_6 (c : Dev nD) : W6 m ρ c (Proc.devRef .tc main_v44) = Cert.ReferenceIdeal.ReadP.val_main_v49 (F := Ideal) (a0 m c) (a1 m c) (a4 m c) (a5 m c) (a6 m c) :=
  (calc W6 m ρ c (Proc.devRef .tc main_v44)
    _ = W5 m ρ c (Proc.devRef .tc main_v44) := by host_skip
  ).trans (val_v44 m ρ c)

set_option maxHeartbeats 4000000 in
/-- v57, written by the host stretch that ends at boundary 6, is the reference's value there. -/
theorem val_v57 (c : Dev nD) : W6 m ρ c (Proc.devRef .tc main_v57) = Cert.ReferenceIdeal.ReadP.val_main_v84 (F := Ideal) (a0 m c) (a1 m c) (a4 m c) (a5 m c) (a6 m c) := by
  show StableHlo.after hostOps3 (W5 m ρ c) (Proc.devRef .tc main_v57) = _
  after_results_simp
  rw [at_v1_5 m ρ c, val_v44 m ρ c, at_v25_5 m ρ c, at_v3_5 m ρ c]
  rfl

set_option maxHeartbeats 4000000 in
/-- v58, written by the host stretch that ends at boundary 6, is the reference's value there. -/
theorem val_v58 (c : Dev nD) : W6 m ρ c (Proc.devRef .tc main_v58) = shapeCast S1x128 (a7 m c) shapeCasts_S128_S1x128 := by
  show StableHlo.after hostOps3 (W5 m ρ c) (Proc.devRef .tc main_v58) = _
  after_results_simp
  rw [at_arg7_5 m ρ c]
  rfl

set_option maxHeartbeats 4000000 in
/-- v59, written by region 3 that ends at boundary 7, is the reference's value there. -/
theorem val_v59 (c : Dev nD) : W7 m ρ c (Proc.devRef .tc main_v59) = Cert.ReferenceIdeal.ReadP.val_main_v93 (F := Ideal) (a0 m c) (a1 m c) (a4 m c) (a5 m c) (a6 m c) (a7 m c) := by
  refine (W7_arr m ρ c 4).trans ((Region3.final (V6 m ρ) c).trans ?_)
  show convOut (W6 m ρ c (Proc.devRef .tc main_v57)) (W6 m ρ c (Proc.devRef .tc main_v44)) (W6 m ρ c (Proc.devRef .tc main_v27)) (W6 m ρ c (Proc.devRef .tc main_v58)) = _
  rw [val_v57 m ρ c, at_v44_6 m ρ c, at_v27_6 m ρ c, val_v58 m ρ c]
  exact Cert.ReferenceIdeal.Bridge.post_eq _ _ _ _ _ _

set_option maxHeartbeats 4000000 in
/-- v60, written by region 4 that ends at boundary 8, is the reference's value there. -/
theorem val_v60 (c : Dev nD) : W8 m ρ c (Proc.devRef .tc main_v60) = Cert.ReferenceIdeal.ReadP.val_main_v94 (F := Ideal) (a0 m c) (a1 m c) (a4 m c) (a5 m c) (a6 m c) (a7 m c) (a8 m c) := by
  refine (W8_arr m ρ c 2).trans ((Region4.final (V7 m ρ) c).trans ?_)
  show mm (W7 m ρ c (Proc.devRef .tc main_v59)) (W7 m ρ c (Proc.devRef .tc main_arg8)) = _
  rw [val_v59 m ρ c, at_arg8_7 m ρ c]
  exact (Cert.ReferenceIdeal.Bridge.dot_eq _ _).symm

theorem at_v60_9 (c : Dev nD) : W9 m ρ c (Proc.devRef .tc main_v60) = Cert.ReferenceIdeal.ReadP.val_main_v94 (F := Ideal) (a0 m c) (a1 m c) (a4 m c) (a5 m c) (a6 m c) (a7 m c) (a8 m c) :=
  (calc W9 m ρ c (Proc.devRef .tc main_v60)
    _ = W8 m ρ c (Proc.devRef .tc main_v60) := by host_skip
  ).trans (val_v60 m ρ c)

set_option maxHeartbeats 4000000 in
/-- v73, written by the host stretch that ends at boundary 9, is the reference's value there. -/
theorem val_v73 (c : Dev nD) : W9 m ρ c (Proc.devRef .tc main_v73) = Cert.ReferenceIdeal.ReadP.val_main_v129 (F := Ideal) (a0 m c) (a1 m c) (a4 m c) (a5 m c) (a6 m c) (a7 m c) (a8 m c) := by
  show StableHlo.after hostOps5 (W8 m ρ c) (Proc.devRef .tc main_v73) = _
  after_results_simp
  rw [at_v1_8 m ρ c, val_v60 m ρ c, at_v25_8 m ρ c, at_v3_8 m ρ c]
  rfl

set_option maxHeartbeats 4000000 in
/-- v74, written by the host stretch that ends at boundary 9, is the reference's value there. -/
theorem val_v74 (c : Dev nD) : W9 m ρ c (Proc.devRef .tc main_v74) = shapeCast S1x128 (a9 m c) shapeCasts_S128_S1x128 := by
  show StableHlo.after hostOps5 (W8 m ρ c) (Proc.devRef .tc main_v74) = _
  after_results_simp
  rw [at_arg9_8 m ρ c]
  rfl

set_option maxHeartbeats 4000000 in
/-- v75, written by region 5 that ends at boundary 10, is the reference's value there. -/
theorem val_v75 (c : Dev nD) : W10 m ρ c (Proc.devRef .tc main_v75) = Cert.ReferenceIdeal.ReadP.val_main_v138 (F := Ideal) (a0 m c) (a1 m c) (a4 m c) (a5 m c) (a6 m c) (a7 m c) (a8 m c) (a9 m c) := by
  refine (W10_arr m ρ c 4).trans ((Region5.final (V9 m ρ) c).trans ?_)
  show convOut (W9 m ρ c (Proc.devRef .tc main_v73)) (W9 m ρ c (Proc.devRef .tc main_v60)) (W9 m ρ c (Proc.devRef .tc main_v27)) (W9 m ρ c (Proc.devRef .tc main_v74)) = _
  rw [val_v73 m ρ c, at_v60_9 m ρ c, at_v27_9 m ρ c, val_v74 m ρ c]
  exact Cert.ReferenceIdeal.Bridge.post_eq _ _ _ _ _ _

theorem at_v75_11 (c : Dev nD) : W11 m ρ c (Proc.devRef .tc main_v75) = Cert.ReferenceIdeal.ReadP.val_main_v138 (F := Ideal) (a0 m c) (a1 m c) (a4 m c) (a5 m c) (a6 m c) (a7 m c) (a8 m c) (a9 m c) :=
  (calc W11 m ρ c (Proc.devRef .tc main_v75)
    _ = W10 m ρ c (Proc.devRef .tc main_v75) := by host_skip
  ).trans (val_v75 m ρ c)

set_option maxHeartbeats 4000000 in
/-- v76, written by the host stretch that ends at boundary 11, is the reference's value there. -/
theorem val_v76 (c : Dev nD) : W11 m ρ c (Proc.devRef .tc main_v76) = shapeCast S1x128 (a11 m c) shapeCasts_S128_S1x128 := by
  show StableHlo.after hostOps6 (W10 m ρ c) (Proc.devRef .tc main_v76) = _
  after_results_simp
  rw [at_arg11_10 m ρ c]
  rfl

set_option maxHeartbeats 4000000 in
/-- v77, written by the host stretch that ends at boundary 11, is the reference's value there. -/
theorem val_v77 (c : Dev nD) : W11 m ρ c (Proc.devRef .tc main_v77) = shapeCast S1x128 (a13 m c) shapeCasts_S128_S1x128 := by
  show StableHlo.after hostOps6 (W10 m ρ c) (Proc.devRef .tc main_v77) = _
  after_results_simp
  rw [at_arg13_10 m ρ c]
  rfl

set_option maxHeartbeats 4000000 in
/-- v78, written by region 6 that ends at boundary 12, is the reference's value there. -/
theorem val_v78 (c : Dev nD) : W12 m ρ c (Proc.devRef .tc main_v78) = Cert.ReferenceIdeal.ReadP.val_main_v147 (F := Ideal) (a0 m c) (a1 m c) (a4 m c) (a5 m c) (a6 m c) (a7 m c) (a8 m c) (a9 m c) (a10 m c) (a11 m c) (a12 m c) (a13 m c) := by
  refine (W12_arr m ρ c 5).trans ((Region6.final (V11 m ρ) c).trans ?_)
  show head (W11 m ρ c (Proc.devRef .tc main_v75)) (W11 m ρ c (Proc.devRef .tc main_arg10)) (W11 m ρ c (Proc.devRef .tc main_v76)) (W11 m ρ c (Proc.devRef .tc main_arg12)) (W11 m ρ c (Proc.devRef .tc main_v77)) = _
  rw [at_v75_11 m ρ c, at_arg10_11 m ρ c, val_v76 m ρ c, at_arg12_11 m ρ c, val_v77 m ρ c]
  exact Cert.ReferenceIdeal.Bridge.head_eq _ _ _ _ _ _

theorem at_v78_24 (c : Dev nD) : W24 m ρ c (Proc.devRef .tc main_v78) = Cert.ReferenceIdeal.ReadP.val_main_v147 (F := Ideal) (a0 m c) (a1 m c) (a4 m c) (a5 m c) (a6 m c) (a7 m c) (a8 m c) (a9 m c) (a10 m c) (a11 m c) (a12 m c) (a13 m c) :=
  (calc W24 m ρ c (Proc.devRef .tc main_v78)
    _ = W23 m ρ c (Proc.devRef .tc main_v78) := W24_of_ne m ρ c main_v78 (by decide)
    _ = W22 m ρ c (Proc.devRef .tc main_v78) := by host_skip
    _ = W21 m ρ c (Proc.devRef .tc main_v78) := W22_of_ne m ρ c main_v78 (by decide)
    _ = W20 m ρ c (Proc.devRef .tc main_v78) := by host_skip
    _ = W19 m ρ c (Proc.devRef .tc main_v78) := W20_of_ne m ρ c main_v78 (by decide)
    _ = W18 m ρ c (Proc.devRef .tc main_v78) := W19_of_ne m ρ c main_v78 (by decide)
    _ = W17 m ρ c (Proc.devRef .tc main_v78) := by host_skip
    _ = W16 m ρ c (Proc.devRef .tc main_v78) := W17_of_ne m ρ c main_v78 (by decide)
    _ = W15 m ρ c (Proc.devRef .tc main_v78) := W16_of_ne m ρ c main_v78 (by decide)
    _ = W14 m ρ c (Proc.devRef .tc main_v78) := by host_skip
    _ = W13 m ρ c (Proc.devRef .tc main_v78) := W14_of_ne m ρ c main_v78 (by decide)
    _ = W12 m ρ c (Proc.devRef .tc main_v78) := by host_skip
  ).trans (val_v78 m ρ c)

end Cert.KernelIdeal.Chain1

end
-- ==== Proof.ArgsB.lean ====
/-
  The arguments of the program are never written: no host operation writes one, and a region either does not touch it
  or reads it through an input window, which is put back as it was.  So at every segment boundary where an argument is
  read, it holds its launch contents.  Each lemma walks the fold of segments back from that boundary to the launch.
-/
import proofs.«179127_j38130719654217_1_alg».proof.Proof.Gen.KernelIdeal.Frame
import proofs.«179127_j38130719654217_1_alg».proof.Proof.Walk
import Idealize.ShloMosaic.Lib.StableHlo.Run

set_option maxRecDepth 16384

noncomputable section

namespace Cert.KernelIdeal.ArgsB

open Cert.KernelIdeal Cert.KernelIdeal.Gen
open Idealize.ShloMosaic Idealize.ShloMosaic.TcCoe Idealize.SL.Sem Idealize.ShloMosaic.StableHlo
open Cert.Gcn

variable (m : (ℓ : Loc nD τ sig) → Buf (Elt Ideal) ℓ) (ρ : Dev nD → PrngReg)

open Cert.KernelIdeal.Walk

/-- Argument 3 is never written: at boundary 12 it is as launched. -/
theorem at_arg3_12 (c : Dev nD) : W12 m ρ c (Proc.devRef .tc main_arg3) = a3 m c :=
  calc W12 m ρ c (Proc.devRef .tc main_arg3)
    _ = W11 m ρ c (Proc.devRef .tc main_arg3) := W12_of_ne m ρ c main_arg3 (by decide)
    _ = W10 m ρ c (Proc.devRef .tc main_arg3) := by host_skip
    _ = W9 m ρ c (Proc.devRef .tc main_arg3) := W10_of_ne m ρ c main_arg3 (by decide)
    _ = W8 m ρ c (Proc.devRef .tc main_arg3) := by host_skip
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := by host_skip
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := by host_skip
    _ = W1 m ρ c (Proc.devRef .tc main_arg3) := W2_of_ne m ρ c main_arg3 (by decide)
    _ = W0 m ρ c (Proc.devRef .tc main_arg3) := by host_skip
    _ = a3 m c := rfl

/-- Argument 2 is never written: at boundary 13 it is as launched. -/
theorem at_arg2_13 (c : Dev nD) : W13 m ρ c (Proc.devRef .tc main_arg2) = a2 m c :=
  calc W13 m ρ c (Proc.devRef .tc main_arg2)
    _ = W12 m ρ c (Proc.devRef .tc main_arg2) := by host_skip
    _ = W11 m ρ c (Proc.devRef .tc main_arg2) := W12_of_ne m ρ c main_arg2 (by decide)
    _ = W10 m ρ c (Proc.devRef .tc main_arg2) := by host_skip
    _ = W9 m ρ c (Proc.devRef .tc main_arg2) := W10_of_ne m ρ c main_arg2 (by decide)
    _ = W8 m ρ c (Proc.devRef .tc main_arg2) := by host_skip
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := by host_skip
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := by host_skip
    _ = W1 m ρ c (Proc.devRef .tc main_arg2) := W2_of_ne m ρ c main_arg2 (by decide)
    _ = W0 m ρ c (Proc.devRef .tc main_arg2) := by host_skip
    _ = a2 m c := rfl

/-- Argument 4 is never written: at boundary 13 it is as launched. -/
theorem at_arg4_13 (c : Dev nD) : W13 m ρ c (Proc.devRef .tc main_arg4) = a4 m c :=
  calc W13 m ρ c (Proc.devRef .tc main_arg4)
    _ = W12 m ρ c (Proc.devRef .tc main_arg4) := by host_skip
    _ = W11 m ρ c (Proc.devRef .tc main_arg4) := W12_of_ne m ρ c main_arg4 (by decide)
    _ = W10 m ρ c (Proc.devRef .tc main_arg4) := by host_skip
    _ = W9 m ρ c (Proc.devRef .tc main_arg4) := W10_of_ne m ρ c main_arg4 (by decide)
    _ = W8 m ρ c (Proc.devRef .tc main_arg4) := by host_skip
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := by host_skip
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := by host_skip
    _ = W1 m ρ c (Proc.devRef .tc main_arg4) := (W2_arr m ρ c 1).trans (((dat0 (V1 m ρ) c).arrAt_in 1 rfl _).trans (A_eq0 (V1 m ρ) c 1))
    _ = W0 m ρ c (Proc.devRef .tc main_arg4) := by host_skip
    _ = a4 m c := rfl

/-- Argument 5 is never written: at boundary 14 it is as launched. -/
theorem at_arg5_14 (c : Dev nD) : W14 m ρ c (Proc.devRef .tc main_arg5) = a5 m c :=
  calc W14 m ρ c (Proc.devRef .tc main_arg5)
    _ = W13 m ρ c (Proc.devRef .tc main_arg5) := W14_of_ne m ρ c main_arg5 (by decide)
    _ = W12 m ρ c (Proc.devRef .tc main_arg5) := by host_skip
    _ = W11 m ρ c (Proc.devRef .tc main_arg5) := W12_of_ne m ρ c main_arg5 (by decide)
    _ = W10 m ρ c (Proc.devRef .tc main_arg5) := by host_skip
    _ = W9 m ρ c (Proc.devRef .tc main_arg5) := W10_of_ne m ρ c main_arg5 (by decide)
    _ = W8 m ρ c (Proc.devRef .tc main_arg5) := by host_skip
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := by host_skip
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := by host_skip
    _ = W1 m ρ c (Proc.devRef .tc main_arg5) := W2_of_ne m ρ c main_arg5 (by decide)
    _ = W0 m ρ c (Proc.devRef .tc main_arg5) := by host_skip
    _ = a5 m c := rfl

/-- Argument 6 is never written: at boundary 16 it is as launched. -/
theorem at_arg6_16 (c : Dev nD) : W16 m ρ c (Proc.devRef .tc main_arg6) = a6 m c :=
  calc W16 m ρ c (Proc.devRef .tc main_arg6)
    _ = W15 m ρ c (Proc.devRef .tc main_arg6) := W16_of_ne m ρ c main_arg6 (by decide)
    _ = W14 m ρ c (Proc.devRef .tc main_arg6) := by host_skip
    _ = W13 m ρ c (Proc.devRef .tc main_arg6) := W14_of_ne m ρ c main_arg6 (by decide)
    _ = W12 m ρ c (Proc.devRef .tc main_arg6) := by host_skip
    _ = W11 m ρ c (Proc.devRef .tc main_arg6) := W12_of_ne m ρ c main_arg6 (by decide)
    _ = W10 m ρ c (Proc.devRef .tc main_arg6) := by host_skip
    _ = W9 m ρ c (Proc.devRef .tc main_arg6) := W10_of_ne m ρ c main_arg6 (by decide)
    _ = W8 m ρ c (Proc.devRef .tc main_arg6) := by host_skip
    _ = W7 m ρ c (Proc.devRef .tc main_arg6) := W8_of_ne m ρ c main_arg6 (by decide)
    _ = W6 m ρ c (Proc.devRef .tc main_arg6) := W7_of_ne m ρ c main_arg6 (by decide)
    _ = W5 m ρ c (Proc.devRef .tc main_arg6) := by host_skip
    _ = W4 m ρ c (Proc.devRef .tc main_arg6) := (W5_arr m ρ c 1).trans (((dat2 (V4 m ρ) c).arrAt_in 1 rfl _).trans (A_eq2 (V4 m ρ) c 1))
    _ = W3 m ρ c (Proc.devRef .tc main_arg6) := W4_of_ne m ρ c main_arg6 (by decide)
    _ = W2 m ρ c (Proc.devRef .tc main_arg6) := by host_skip
    _ = W1 m ρ c (Proc.devRef .tc main_arg6) := W2_of_ne m ρ c main_arg6 (by decide)
    _ = W0 m ρ c (Proc.devRef .tc main_arg6) := by host_skip
    _ = a6 m c := rfl

/-- Argument 7 is never written: at boundary 17 it is as launched. -/
theorem at_arg7_17 (c : Dev nD) : W17 m ρ c (Proc.devRef .tc main_arg7) = a7 m c :=
  calc W17 m ρ c (Proc.devRef .tc main_arg7)
    _ = W16 m ρ c (Proc.devRef .tc main_arg7) := W17_of_ne m ρ c main_arg7 (by decide)
    _ = W15 m ρ c (Proc.devRef .tc main_arg7) := W16_of_ne m ρ c main_arg7 (by decide)
    _ = W14 m ρ c (Proc.devRef .tc main_arg7) := by host_skip
    _ = W13 m ρ c (Proc.devRef .tc main_arg7) := W14_of_ne m ρ c main_arg7 (by decide)
    _ = W12 m ρ c (Proc.devRef .tc main_arg7) := by host_skip
    _ = W11 m ρ c (Proc.devRef .tc main_arg7) := W12_of_ne m ρ c main_arg7 (by decide)
    _ = W10 m ρ c (Proc.devRef .tc main_arg7) := by host_skip
    _ = W9 m ρ c (Proc.devRef .tc main_arg7) := W10_of_ne m ρ c main_arg7 (by decide)
    _ = W8 m ρ c (Proc.devRef .tc main_arg7) := by host_skip
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := by host_skip
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := by host_skip
    _ = W1 m ρ c (Proc.devRef .tc main_arg7) := W2_of_ne m ρ c main_arg7 (by decide)
    _ = W0 m ρ c (Proc.devRef .tc main_arg7) := by host_skip
    _ = a7 m c := rfl

/-- Argument 8 is never written: at boundary 19 it is as launched. -/
theorem at_arg8_19 (c : Dev nD) : W19 m ρ c (Proc.devRef .tc main_arg8) = a8 m c :=
  calc W19 m ρ c (Proc.devRef .tc main_arg8)
    _ = W18 m ρ c (Proc.devRef .tc main_arg8) := W19_of_ne m ρ c main_arg8 (by decide)
    _ = W17 m ρ c (Proc.devRef .tc main_arg8) := by host_skip
    _ = W16 m ρ c (Proc.devRef .tc main_arg8) := W17_of_ne m ρ c main_arg8 (by decide)
    _ = W15 m ρ c (Proc.devRef .tc main_arg8) := W16_of_ne m ρ c main_arg8 (by decide)
    _ = W14 m ρ c (Proc.devRef .tc main_arg8) := by host_skip
    _ = W13 m ρ c (Proc.devRef .tc main_arg8) := W14_of_ne m ρ c main_arg8 (by decide)
    _ = W12 m ρ c (Proc.devRef .tc main_arg8) := by host_skip
    _ = W11 m ρ c (Proc.devRef .tc main_arg8) := W12_of_ne m ρ c main_arg8 (by decide)
    _ = W10 m ρ c (Proc.devRef .tc main_arg8) := by host_skip
    _ = W9 m ρ c (Proc.devRef .tc main_arg8) := W10_of_ne m ρ c main_arg8 (by decide)
    _ = W8 m ρ c (Proc.devRef .tc main_arg8) := by host_skip
    _ = W7 m ρ c (Proc.devRef .tc main_arg8) := (W8_arr m ρ c 1).trans (((dat4 (V7 m ρ) c).arrAt_in 1 rfl _).trans (A_eq4 (V7 m ρ) c 1))
    _ = W6 m ρ c (Proc.devRef .tc main_arg8) := W7_of_ne m ρ c main_arg8 (by decide)
    _ = W5 m ρ c (Proc.devRef .tc main_arg8) := by host_skip
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := by host_skip
    _ = W1 m ρ c (Proc.devRef .tc main_arg8) := W2_of_ne m ρ c main_arg8 (by decide)
    _ = W0 m ρ c (Proc.devRef .tc main_arg8) := by host_skip
    _ = a8 m c := rfl

/-- Argument 9 is never written: at boundary 20 it is as launched. -/
theorem at_arg9_20 (c : Dev nD) : W20 m ρ c (Proc.devRef .tc main_arg9) = a9 m c :=
  calc W20 m ρ c (Proc.devRef .tc main_arg9)
    _ = W19 m ρ c (Proc.devRef .tc main_arg9) := W20_of_ne m ρ c main_arg9 (by decide)
    _ = W18 m ρ c (Proc.devRef .tc main_arg9) := W19_of_ne m ρ c main_arg9 (by decide)
    _ = W17 m ρ c (Proc.devRef .tc main_arg9) := by host_skip
    _ = W16 m ρ c (Proc.devRef .tc main_arg9) := W17_of_ne m ρ c main_arg9 (by decide)
    _ = W15 m ρ c (Proc.devRef .tc main_arg9) := W16_of_ne m ρ c main_arg9 (by decide)
    _ = W14 m ρ c (Proc.devRef .tc main_arg9) := by host_skip
    _ = W13 m ρ c (Proc.devRef .tc main_arg9) := W14_of_ne m ρ c main_arg9 (by decide)
    _ = W12 m ρ c (Proc.devRef .tc main_arg9) := by host_skip
    _ = W11 m ρ c (Proc.devRef .tc main_arg9) := W12_of_ne m ρ c main_arg9 (by decide)
    _ = W10 m ρ c (Proc.devRef .tc main_arg9) := by host_skip
    _ = W9 m ρ c (Proc.devRef .tc main_arg9) := W10_of_ne m ρ c main_arg9 (by decide)
    _ = W8 m ρ c (Proc.devRef .tc main_arg9) := by host_skip
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := by host_skip
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := by host_skip
    _ = W1 m ρ c (Proc.devRef .tc main_arg9) := W2_of_ne m ρ c main_arg9 (by decide)
    _ = W0 m ρ c (Proc.devRef .tc main_arg9) := by host_skip
    _ = a9 m c := rfl

/-- Argument 11 is never written: at boundary 22 it is as launched. -/
theorem at_arg11_22 (c : Dev nD) : W22 m ρ c (Proc.devRef .tc main_arg11) = a11 m c :=
  calc W22 m ρ c (Proc.devRef .tc main_arg11)
    _ = W21 m ρ c (Proc.devRef .tc main_arg11) := W22_of_ne m ρ c main_arg11 (by decide)
    _ = W20 m ρ c (Proc.devRef .tc main_arg11) := by host_skip
    _ = W19 m ρ c (Proc.devRef .tc main_arg11) := W20_of_ne m ρ c main_arg11 (by decide)
    _ = W18 m ρ c (Proc.devRef .tc main_arg11) := W19_of_ne m ρ c main_arg11 (by decide)
    _ = W17 m ρ c (Proc.devRef .tc main_arg11) := by host_skip
    _ = W16 m ρ c (Proc.devRef .tc main_arg11) := W17_of_ne m ρ c main_arg11 (by decide)
    _ = W15 m ρ c (Proc.devRef .tc main_arg11) := W16_of_ne m ρ c main_arg11 (by decide)
    _ = W14 m ρ c (Proc.devRef .tc main_arg11) := by host_skip
    _ = W13 m ρ c (Proc.devRef .tc main_arg11) := W14_of_ne m ρ c main_arg11 (by decide)
    _ = W12 m ρ c (Proc.devRef .tc main_arg11) := by host_skip
    _ = W11 m ρ c (Proc.devRef .tc main_arg11) := W12_of_ne m ρ c main_arg11 (by decide)
    _ = W10 m ρ c (Proc.devRef .tc main_arg11) := by host_skip
    _ = W9 m ρ c (Proc.devRef .tc main_arg11) := W10_of_ne m ρ c main_arg11 (by decide)
    _ = W8 m ρ c (Proc.devRef .tc main_arg11) := by host_skip
    _ = W7 m ρ c (Proc.devRef .tc main_arg11) := W8_of_ne m ρ c main_arg11 (by decide)
    _ = W6 m ρ c (Proc.devRef .tc main_arg11) := W7_of_ne m ρ c main_arg11 (by decide)
    _ = W5 m ρ c (Proc.devRef .tc main_arg11) := by host_skip
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := by host_skip
    _ = W1 m ρ c (Proc.devRef .tc main_arg11) := W2_of_ne m ρ c main_arg11 (by decide)
    _ = W0 m ρ c (Proc.devRef .tc main_arg11) := by host_skip
    _ = a11 m c := rfl

/-- Argument 13 is never written: at boundary 22 it is as launched. -/
theorem at_arg13_22 (c : Dev nD) : W22 m ρ c (Proc.devRef .tc main_arg13) = a13 m c :=
  calc W22 m ρ c (Proc.devRef .tc main_arg13)
    _ = W21 m ρ c (Proc.devRef .tc main_arg13) := W22_of_ne m ρ c main_arg13 (by decide)
    _ = W20 m ρ c (Proc.devRef .tc main_arg13) := by host_skip
    _ = W19 m ρ c (Proc.devRef .tc main_arg13) := W20_of_ne m ρ c main_arg13 (by decide)
    _ = W18 m ρ c (Proc.devRef .tc main_arg13) := W19_of_ne m ρ c main_arg13 (by decide)
    _ = W17 m ρ c (Proc.devRef .tc main_arg13) := by host_skip
    _ = W16 m ρ c (Proc.devRef .tc main_arg13) := W17_of_ne m ρ c main_arg13 (by decide)
    _ = W15 m ρ c (Proc.devRef .tc main_arg13) := W16_of_ne m ρ c main_arg13 (by decide)
    _ = W14 m ρ c (Proc.devRef .tc main_arg13) := by host_skip
    _ = W13 m ρ c (Proc.devRef .tc main_arg13) := W14_of_ne m ρ c main_arg13 (by decide)
    _ = W12 m ρ c (Proc.devRef .tc main_arg13) := by host_skip
    _ = W11 m ρ c (Proc.devRef .tc main_arg13) := W12_of_ne m ρ c main_arg13 (by decide)
    _ = W10 m ρ c (Proc.devRef .tc main_arg13) := by host_skip
    _ = W9 m ρ c (Proc.devRef .tc main_arg13) := W10_of_ne m ρ c main_arg13 (by decide)
    _ = W8 m ρ c (Proc.devRef .tc main_arg13) := by host_skip
    _ = W7 m ρ c (Proc.devRef .tc main_arg13) := W8_of_ne m ρ c main_arg13 (by decide)
    _ = W6 m ρ c (Proc.devRef .tc main_arg13) := W7_of_ne m ρ c main_arg13 (by decide)
    _ = W5 m ρ c (Proc.devRef .tc main_arg13) := by host_skip
    _ = W4 m ρ c (Proc.devRef .tc main_arg13) := W5_of_ne m ρ c main_arg13 (by decide)
    _ = W3 m ρ c (Proc.devRef .tc main_arg13) := W4_of_ne m ρ c main_arg13 (by decide)
    _ = W2 m ρ c (Proc.devRef .tc main_arg13) := by host_skip
    _ = W1 m ρ c (Proc.devRef .tc main_arg13) := W2_of_ne m ρ c main_arg13 (by decide)
    _ = W0 m ρ c (Proc.devRef .tc main_arg13) := by host_skip
    _ = a13 m c := rfl

/-- Argument 10 is never written: at boundary 23 it is as launched. -/
theorem at_arg10_23 (c : Dev nD) : W23 m ρ c (Proc.devRef .tc main_arg10) = a10 m c :=
  calc W23 m ρ c (Proc.devRef .tc main_arg10)
    _ = W22 m ρ c (Proc.devRef .tc main_arg10) := by host_skip
    _ = W21 m ρ c (Proc.devRef .tc main_arg10) := W22_of_ne m ρ c main_arg10 (by decide)
    _ = W20 m ρ c (Proc.devRef .tc main_arg10) := by host_skip
    _ = W19 m ρ c (Proc.devRef .tc main_arg10) := W20_of_ne m ρ c main_arg10 (by decide)
    _ = W18 m ρ c (Proc.devRef .tc main_arg10) := W19_of_ne m ρ c main_arg10 (by decide)
    _ = W17 m ρ c (Proc.devRef .tc main_arg10) := by host_skip
    _ = W16 m ρ c (Proc.devRef .tc main_arg10) := W17_of_ne m ρ c main_arg10 (by decide)
    _ = W15 m ρ c (Proc.devRef .tc main_arg10) := W16_of_ne m ρ c main_arg10 (by decide)
    _ = W14 m ρ c (Proc.devRef .tc main_arg10) := by host_skip
    _ = W13 m ρ c (Proc.devRef .tc main_arg10) := W14_of_ne m ρ c main_arg10 (by decide)
    _ = W12 m ρ c (Proc.devRef .tc main_arg10) := by host_skip
    _ = W11 m ρ c (Proc.devRef .tc main_arg10) := (W12_arr m ρ c 1).trans (((dat6 (V11 m ρ) c).arrAt_in 1 rfl _).trans (A_eq6 (V11 m ρ) c 1))
    _ = W10 m ρ c (Proc.devRef .tc main_arg10) := by host_skip
    _ = W9 m ρ c (Proc.devRef .tc main_arg10) := W10_of_ne m ρ c main_arg10 (by decide)
    _ = W8 m ρ c (Proc.devRef .tc main_arg10) := by host_skip
    _ = W7 m ρ c (Proc.devRef .tc main_arg10) := W8_of_ne m ρ c main_arg10 (by decide)
    _ = W6 m ρ c (Proc.devRef .tc main_arg10) := W7_of_ne m ρ c main_arg10 (by decide)
    _ = W5 m ρ c (Proc.devRef .tc main_arg10) := by host_skip
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := by host_skip
    _ = W1 m ρ c (Proc.devRef .tc main_arg10) := W2_of_ne m ρ c main_arg10 (by decide)
    _ = W0 m ρ c (Proc.devRef .tc main_arg10) := by host_skip
    _ = a10 m c := rfl

/-- Argument 12 is never written: at boundary 23 it is as launched. -/
theorem at_arg12_23 (c : Dev nD) : W23 m ρ c (Proc.devRef .tc main_arg12) = a12 m c :=
  calc W23 m ρ c (Proc.devRef .tc main_arg12)
    _ = W22 m ρ c (Proc.devRef .tc main_arg12) := by host_skip
    _ = W21 m ρ c (Proc.devRef .tc main_arg12) := W22_of_ne m ρ c main_arg12 (by decide)
    _ = W20 m ρ c (Proc.devRef .tc main_arg12) := by host_skip
    _ = W19 m ρ c (Proc.devRef .tc main_arg12) := W20_of_ne m ρ c main_arg12 (by decide)
    _ = W18 m ρ c (Proc.devRef .tc main_arg12) := W19_of_ne m ρ c main_arg12 (by decide)
    _ = W17 m ρ c (Proc.devRef .tc main_arg12) := by host_skip
    _ = W16 m ρ c (Proc.devRef .tc main_arg12) := W17_of_ne m ρ c main_arg12 (by decide)
    _ = W15 m ρ c (Proc.devRef .tc main_arg12) := W16_of_ne m ρ c main_arg12 (by decide)
    _ = W14 m ρ c (Proc.devRef .tc main_arg12) := by host_skip
    _ = W13 m ρ c (Proc.devRef .tc main_arg12) := W14_of_ne m ρ c main_arg12 (by decide)
    _ = W12 m ρ c (Proc.devRef .tc main_arg12) := by host_skip
    _ = W11 m ρ c (Proc.devRef .tc main_arg12) := (W12_arr m ρ c 3).trans (((dat6 (V11 m ρ) c).arrAt_in 3 rfl _).trans (A_eq6 (V11 m ρ) c 3))
    _ = W10 m ρ c (Proc.devRef .tc main_arg12) := by host_skip
    _ = W9 m ρ c (Proc.devRef .tc main_arg12) := W10_of_ne m ρ c main_arg12 (by decide)
    _ = W8 m ρ c (Proc.devRef .tc main_arg12) := by host_skip
    _ = W7 m ρ c (Proc.devRef .tc main_arg12) := W8_of_ne m ρ c main_arg12 (by decide)
    _ = W6 m ρ c (Proc.devRef .tc main_arg12) := W7_of_ne m ρ c main_arg12 (by decide)
    _ = W5 m ρ c (Proc.devRef .tc main_arg12) := by host_skip
    _ = W4 m ρ c (Proc.devRef .tc main_arg12) := W5_of_ne m ρ c main_arg12 (by decide)
    _ = W3 m ρ c (Proc.devRef .tc main_arg12) := W4_of_ne m ρ c main_arg12 (by decide)
    _ = W2 m ρ c (Proc.devRef .tc main_arg12) := by host_skip
    _ = W1 m ρ c (Proc.devRef .tc main_arg12) := W2_of_ne m ρ c main_arg12 (by decide)
    _ = W0 m ρ c (Proc.devRef .tc main_arg12) := by host_skip
    _ = a12 m c := rfl

end Cert.KernelIdeal.ArgsB

end
-- ==== Proof.Region7.lean ====
/-
  Region 7 of the kernel's program (a row-blocked matrix product), at any entry contents V:
  what the region leaves in its output array is ONE function of the arrays it finds — mm of Spec.lean — index by index.
  Point t of the grid holds rows 5000·t … 5000·t + 4999; the row-indexed operands are cut in the same blocks, the weights
  and bias rows are whole; each spec function computes row r from row r alone, so block t of the result is the spec of
  block t of the operands, and the ten blocks cover the array.
-/
import proofs.«179127_j38130719654217_1_alg».proof.Proof.Gen.KernelIdeal.Frame
import proofs.«179127_j38130719654217_1_alg».proof.Proof.Spec
import proofs.«179127_j38130719654217_1_alg».proof.Proof.LibRowLayout
import Idealize.ShloMosaic.Lib.Pipeline.Value
import Idealize.ShloMosaic.Lib.ValueIdx
import Idealize.ShloMosaic.Lib.ValueLayout

set_option maxRecDepth 16384

noncomputable section

namespace Cert.KernelIdeal.Region7

open Cert.KernelIdeal Cert.KernelIdeal.Gen
open Idealize.ShloMosaic Idealize.ShloMosaic.TcCoe Idealize.ShloMosaic.ValueIdx Idealize.SL.Sem
open Cert.Lib.PlainDot Cert.Gcn Cert.KernelIdeal.MvnKernel

variable (V : (c : Dev nD) → (b : Ref sig .tc) → Buf (Elt Ideal) ((c : Thread nD τ).loc b))

theorem hz : (![0, 0] : Fin 2 → Nat) = fun _ => 0 := funext fun a => by fin_cases a <;> rfl

/-- The body's one stored value: the block of rows times the weights (a change of float format is the identity on the
    extended reals, and the accumulator starts at zero). -/
theorem pay_eq (x0 : Vec Ideal S5000x128 .f32) (x1 : Vec Ideal S128x128 .f32) : k7_pay1 x0 x1 = mm x0 x1 := by
  funext j
  unfold k7_pay1
  try simp only [shapeCast_self]
  exact matmul_zero_apply (φ₁ := .bf16) (φ₂ := .bf16) _ rfl none _ _ j

theorem idx_w0 : ∀ t : Fin cfg7.N, win7_0.index t (0 : Fin 2) = t.val ∧ win7_0.index t (1 : Fin 2) = 0 :=
  (by decide +kernel : ∀ t : Fin grid7.N, _)

theorem idx_w1 : ∀ t : Fin cfg7.N, win7_1.index t (0 : Fin 2) = 0 ∧ win7_1.index t (1 : Fin 2) = 0 :=
  (by decide +kernel : ∀ t : Fin grid7.N, _)

theorem idx_w2 : ∀ t : Fin cfg7.N, win7_2.index t (0 : Fin 2) = t.val ∧ win7_2.index t (1 : Fin 2) = 0 :=
  (by decide +kernel : ∀ t : Fin grid7.N, _)

/-- The column of an index inside the block is its column in the array. -/
theorem col_emb (t : Fin cfg7.N) (j : S5000x128.Idx) : (j 1).val = ((((cfg7.win 2).blk t).view.emb j) 1).val := by
  obtain ⟨o0, o1⟩ := idx_w2 t
  show (j 1).val = win7_2.index t (1 : Fin 2) * 128 + 1 * (j 1).val
  omega

/-- Row (j 0) of window 0's block is row (j 0) of the block's place in the array. -/
theorem blk0_row (c : Dev nD) (t : Fin cfg7.N) (j : S5000x128.Idx) (k : Fin 128) :
    iblk7 V c 0 t (rowIdx j k) = V c main_arg2 (rowIdx (((cfg7.win 2).blk t).view.emb j) k) := by
  obtain ⟨a0, a1⟩ := idx_w0 t
  obtain ⟨o0, o1⟩ := idx_w2 t
  show V c main_arg2 (((cfg7.win 0).blk t).view.emb (rowIdx j k)) = _
  refine congrArg (V c main_arg2) (funext fun a => Fin.ext ?_)
  match a with
  | ⟨0, _⟩ => show win7_0.index t (0 : Fin 2) * 5000 + 1 * (j 0).val = win7_2.index t (0 : Fin 2) * 5000 + 1 * (j 0).val; omega
  | ⟨1, _⟩ => show win7_0.index t (1 : Fin 2) * 128 + 1 * k.val = k.val; omega

/-- Window 1 is the whole array at every point. -/
theorem blkF1 (c : Dev nD) (t : Fin cfg7.N) : iblk7 V c 1 t = V c main_arg4 := by
  obtain ⟨a0, a1⟩ := idx_w1 t
  funext y
  show V c main_arg4 (((cfg7.win 1).blk t).view.emb y) = _
  refine congrArg (V c main_arg4) (funext fun a => Fin.ext ?_)
  match a with
  | ⟨0, _⟩ => show win7_1.index t (0 : Fin 2) * 128 + 1 * (y 0).val = (y 0).val; omega
  | ⟨1, _⟩ => show win7_1.index t (1 : Fin 2) * 128 + 1 * (y 1).val = (y 1).val; omega

/-- What point t writes back is block t of the spec function of the arrays the region finds. -/
theorem flushed_eq (c : Dev nD) (t : Fin cfg7.N) :
    (dat7 V c).flushed 2 t = ((cfg7.win 2).blk t).view.read (Elt Ideal) (mm (V c main_arg2) (V c main_arg4)) := by
  show (cfg7.win 2).cut (grid7.coords t) ((dat7 V c).after 2 t) = _
  rw [after7_2]
  unfold out7_2
  rw [View.canon_unit_zero hz]
  simp only [View.ld_unit_zero (S := S5000x128) hz, View.ld_unit_zero (S := S128x128) hz]
  rw [pay_eq]
  funext j
  show mm (iblk7 V c 0 t) (iblk7 V c 1 t) j = mm (V c main_arg2) (V c main_arg4) (((cfg7.win 2).blk t).view.emb j)
  rw [blkF1 V c t]
  exact mm_rows _ _ _ j _ (col_emb t j) (fun k => blk0_row V c t j k)

/-- An index of the array is in point t's block iff each coordinate is in the block's range on its axis. -/
theorem mem_blk (t : Fin cfg7.N) (i : S50000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole main_v107).slice (win7_2.rect t)).set ↔ _
  rw [View.set_slice_whole, Rect.mem_set_unit]
  exact Iff.rfl

/-- Row r lies in the block of point r / 5000, and every point writes its block back. -/
theorem cover (i : S50000x128.Idx) :
    ∃ t : Fin cfg7.N, (cfg7.win 2).flush t = true ∧ i ∈ ((cfg7.win 2).blk t).view.set := by
  have hi0 : (i 0).val < 50000 := (i 0).isLt
  have hi1 : (i 1).val < 128 := (i 1).isLt
  obtain ⟨t, ht⟩ : ∃ t : Fin cfg7.N, t.val = (i 0).val / 5000 := ⟨⟨(i 0).val / 5000, by rw [show cfg7.N = 10 from N_7]; omega⟩, rfl⟩
  obtain ⟨o0, o1⟩ := idx_w2 t
  refine ⟨t, flush7_2 t, ?_⟩
  rw [mem_blk]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 128 ≤ (i 1).val ∧ (i 1).val < win7_2.index t (1 : Fin 2) * 128 + 128; omega

/-- The region's output array after the region: the spec function of the arrays it found. -/
theorem final (c : Dev nD) : (dat7 V c).arrAt 2 cfg7.N = mm (V c main_arg2) (V c main_arg4) :=
  (dat7 V c).arrAt_eq_of_cover 2 _ (fun t _ => flushed_eq V c t) cover

end Cert.KernelIdeal.Region7

end
-- ==== Proof.Region8.lean ====
/-
  Region 8 of the kernel's program (the self-loop, bias and ReLU step), at any entry contents V:
  what the region leaves in its output array is ONE function of the arrays it finds — convOut of Spec.lean — index by index.
  Point t of the grid holds rows 5000·t … 5000·t + 4999; the row-indexed operands are cut in the same blocks, the weights
  and bias rows are whole; each spec function computes row r from row r alone, so block t of the result is the spec of
  block t of the operands, and the ten blocks cover the array.
-/
import proofs.«179127_j38130719654217_1_alg».proof.Proof.Gen.KernelIdeal.Frame
import proofs.«179127_j38130719654217_1_alg».proof.Proof.Spec
import proofs.«179127_j38130719654217_1_alg».proof.Proof.LibRowLayout
import Idealize.ShloMosaic.Lib.Pipeline.Value
import Idealize.ShloMosaic.Lib.ValueIdx
import Idealize.ShloMosaic.Lib.ValueLayout

set_option maxRecDepth 16384

noncomputable section

namespace Cert.KernelIdeal.Region8

open Cert.KernelIdeal Cert.KernelIdeal.Gen
open Idealize.ShloMosaic Idealize.ShloMosaic.TcCoe Idealize.ShloMosaic.ValueIdx Idealize.SL.Sem
open Cert.Lib.PlainDot Cert.Gcn Cert.KernelIdeal.MvnKernel

variable (V : (c : Dev nD) → (b : Ref sig .tc) → Buf (Elt Ideal) ((c : Thread nD τ).loc b))

theorem hz : (![0, 0] : Fin 2 → Nat) = fun _ => 0 := funext fun a => by fin_cases a <;> rfl

/-- The body's one stored value, index by index: aggregate plus the node's own row scaled by the row's coefficient, plus the
    bias of the column, clamped below at zero. -/
theorem pay_eq (x0 x1 : Vec Ideal S5000x128 .f32) (x2 : Vec Ideal S5000x1 .f32) (x3 : Vec Ideal S1x128 .f32) :
    k8_pay1 x0 x1 x2 x3 = convOut x0 x1 x2 x3 := by
  funext j
  obtain ⟨p, q, rfl⟩ : ∃ (p : Fin 5000) (q : Fin 128), j = ix2 p q := ⟨j 0, j 1, eq_ix2 j⟩
  unfold k8_pay1 convOut
  simp only [shapeCast_self, maximumf_apply, addf_apply, mulf_apply, broadcast_apply, broadcastTo_a1_ab_apply, broadcastTo_1b_ab_apply]
  rfl

theorem idx_w0 : ∀ t : Fin cfg8.N, win8_0.index t (0 : Fin 2) = t.val ∧ win8_0.index t (1 : Fin 2) = 0 :=
  (by decide +kernel : ∀ t : Fin grid8.N, _)

theorem idx_w1 : ∀ t : Fin cfg8.N, win8_1.index t (0 : Fin 2) = t.val ∧ win8_1.index t (1 : Fin 2) = 0 :=
  (by decide +kernel : ∀ t : Fin grid8.N, _)

theorem idx_w2 : ∀ t : Fin cfg8.N, win8_2.index t (0 : Fin 2) = t.val ∧ win8_2.index t (1 : Fin 2) = 0 :=
  (by decide +kernel : ∀ t : Fin grid8.N, _)

theorem idx_w3 : ∀ t : Fin cfg8.N, win8_3.index t (0 : Fin 2) = 0 ∧ win8_3.index t (1 : Fin 2) = 0 :=
  (by decide +kernel : ∀ t : Fin grid8.N, _)

theorem idx_w4 : ∀ t : Fin cfg8.N, win8_4.index t (0 : Fin 2) = t.val ∧ win8_4.index t (1 : Fin 2) = 0 :=
  (by decide +kernel : ∀ t : Fin grid8.N, _)

/-- The column of an index inside the block is its column in the array. -/
theorem col_emb (t : Fin cfg8.N) (j : S5000x128.Idx) : (j 1).val = ((((cfg8.win 4).blk t).view.emb j) 1).val := by
  obtain ⟨o0, o1⟩ := idx_w4 t
  show (j 1).val = win8_4.index t (1 : Fin 2) * 128 + 1 * (j 1).val
  omega

/-- Window 0's block read at an index is the array read at the index's place in the array. -/
theorem blk0 (c : Dev nD) (t : Fin cfg8.N) (j : S5000x128.Idx) :
    iblk8 V c 0 t j = V c main_v120 (((cfg8.win 4).blk t).view.emb j) := by
  obtain ⟨a0, a1⟩ := idx_w0 t
  obtain ⟨o0, o1⟩ := idx_w4 t
  show V c main_v120 (((cfg8.win 0).blk t).view.emb j) = _
  refine congrArg (V c main_v120) (funext fun a => Fin.ext ?_)
  match a with
  | ⟨0, _⟩ => show win8_0.index t (0 : Fin 2) * 5000 + 1 * (j 0).val = win8_4.index t (0 : Fin 2) * 5000 + 1 * (j 0).val; omega
  | ⟨1, _⟩ => show win8_0.index t (1 : Fin 2) * 128 + 1 * (j 1).val = win8_4.index t (1 : Fin 2) * 128 + 1 * (j 1).val; omega

/-- Window 1's block read at an index is the array read at the index's place in the array. -/
theorem blk1 (c : Dev nD) (t : Fin cfg8.N) (j : S5000x128.Idx) :
    iblk8 V c 1 t j = V c main_v107 (((cfg8.win 4).blk t).view.emb j) := by
  obtain ⟨a0, a1⟩ := idx_w1 t
  obtain ⟨o0, o1⟩ := idx_w4 t
  show V c main_v107 (((cfg8.win 1).blk t).view.emb j) = _
  refine congrArg (V c main_v107) (funext fun a => Fin.ext ?_)
  match a with
  | ⟨0, _⟩ => show win8_1.index t (0 : Fin 2) * 5000 + 1 * (j 0).val = win8_4.index t (0 : Fin 2) * 5000 + 1 * (j 0).val; omega
  | ⟨1, _⟩ => show win8_1.index t (1 : Fin 2) * 128 + 1 * (j 1).val = win8_4.index t (1 : Fin 2) * 128 + 1 * (j 1).val; omega

/-- Window 2's block read at (p, 0) is the column array at the block's row. -/
theorem blk2_col (c : Dev nD) (t : Fin cfg8.N) (j : S5000x128.Idx) :
    iblk8 V c 2 t (ix2 (j 0) (0 : Fin 1)) = V c main_v106 (ix2 ((((cfg8.win 4).blk t).view.emb j) 0) (0 : Fin 1)) := by
  obtain ⟨a0, a1⟩ := idx_w2 t
  obtain ⟨o0, o1⟩ := idx_w4 t
  show V c main_v106 (((cfg8.win 2).blk t).view.emb (ix2 (j 0) (0 : Fin 1))) = _
  refine congrArg (V c main_v106) (funext fun a => Fin.ext ?_)
  match a with
  | ⟨0, _⟩ => show win8_2.index t (0 : Fin 2) * 5000 + 1 * (j 0).val = win8_4.index t (0 : Fin 2) * 5000 + 1 * (j 0).val; omega
  | ⟨1, _⟩ => show win8_2.index t (1 : Fin 2) * 1 + 1 * 0 = 0; omega

/-- Window 3 is the whole array at every point. -/
theorem blkF3 (c : Dev nD) (t : Fin cfg8.N) : iblk8 V c 3 t = V c main_v121 := by
  obtain ⟨a0, a1⟩ := idx_w3 t
  funext y
  show V c main_v121 (((cfg8.win 3).blk t).view.emb y) = _
  refine congrArg (V c main_v121) (funext fun a => Fin.ext ?_)
  match a with
  | ⟨0, _⟩ => show win8_3.index t (0 : Fin 2) * 1 + 1 * (y 0).val = (y 0).val; omega
  | ⟨1, _⟩ => show win8_3.index t (1 : Fin 2) * 128 + 1 * (y 1).val = (y 1).val; omega

/-- What point t writes back is block t of the spec function of the arrays the region finds. -/
theorem flushed_eq (c : Dev nD) (t : Fin cfg8.N) :
    (dat8 V c).flushed 4 t = ((cfg8.win 4).blk t).view.read (Elt Ideal) (convOut (V c main_v120) (V c main_v107) (V c main_v106) (V c main_v121)) := by
  show (cfg8.win 4).cut (grid8.coords t) ((dat8 V c).after 4 t) = _
  rw [after8_4]
  unfold out8_4
  rw [View.canon_unit_zero hz]
  simp only [View.ld_unit_zero (S := S5000x128) hz, View.ld_unit_zero (S := S5000x1) hz, View.ld_unit_zero (S := S1x128) hz]
  rw [pay_eq]
  funext j
  show convOut (iblk8 V c 0 t) (iblk8 V c 1 t) (iblk8 V c 2 t) (iblk8 V c 3 t) j = convOut (V c main_v120) (V c main_v107) (V c main_v106) (V c main_v121) (((cfg8.win 4).blk t).view.emb j)
  rw [blkF3 V c t]
  exact convOut_rows _ _ _ _ _ _ _ j _ (col_emb t j) (blk0 V c t j) (blk1 V c t j) (blk2_col V c t j)

/-- An index of the array is in point t's block iff each coordinate is in the block's range on its axis. -/
theorem mem_blk (t : Fin cfg8.N) (i : S50000x128.Idx) :
    i ∈ ((cfg8.win 4).blk t).view.set ↔ ∀ a : Fin 2, win8_4.index t a * S5000x128.size a ≤ (i a).val ∧ (i a).val < win8_4.index t a * S5000x128.size a + S5000x128.size a := by
  show i ∈ ((View.whole main_v122).slice (win8_4.rect t)).set ↔ _
  rw [View.set_slice_whole, Rect.mem_set_unit]
  exact Iff.rfl

/-- Row r lies in the block of point r / 5000, and every point writes its block back. -/
theorem cover (i : S50000x128.Idx) :
    ∃ t : Fin cfg8.N, (cfg8.win 4).flush t = true ∧ i ∈ ((cfg8.win 4).blk t).view.set := by
  have hi0 : (i 0).val < 50000 := (i 0).isLt
  have hi1 : (i 1).val < 128 := (i 1).isLt
  obtain ⟨t, ht⟩ : ∃ t : Fin cfg8.N, t.val = (i 0).val / 5000 := ⟨⟨(i 0).val / 5000, by rw [show cfg8.N = 10 from N_8]; omega⟩, rfl⟩
  obtain ⟨o0, o1⟩ := idx_w4 t
  refine ⟨t, flush8_4 t, ?_⟩
  rw [mem_blk]
  intro a
  match a with
  | ⟨0, _⟩ => show win8_4.index t (0 : Fin 2) * 5000 ≤ (i 0).val ∧ (i 0).val < win8_4.index t (0 : Fin 2) * 5000 + 5000; omega
  | ⟨1, _⟩ => show win8_4.index t (1 : Fin 2) * 128 ≤ (i 1).val ∧ (i 1).val < win8_4.index t (1 : Fin 2) * 128 + 128; omega

/-- The region's output array after the region: the spec function of the arrays it found. -/
theorem final (c : Dev nD) : (dat8 V c).arrAt 4 cfg8.N = convOut (V c main_v120) (V c main_v107) (V c main_v106) (V c main_v121) :=
  (dat8 V c).arrAt_eq_of_cover 4 _ (fun t _ => flushed_eq V c t) cover

end Cert.KernelIdeal.Region8

end
-- ==== Proof.Region9.lean ====
/-
  Region 9 of the kernel's program (a row-blocked matrix product), at any entry contents V:
  what the region leaves in its output array is ONE function of the arrays it finds — mm of Spec.lean — index by index.
  Point t of the grid holds rows 5000·t … 5000·t + 4999; the row-indexed operands are cut in the same blocks, the weights
  and bias rows are whole; each spec function computes row r from row r alone, so block t of the result is the spec of
  block t of the operands, and the ten blocks cover the array.
-/
import proofs.«179127_j38130719654217_1_alg».proof.Proof.Gen.KernelIdeal.Frame
import proofs.«179127_j38130719654217_1_alg».proof.Proof.Spec
import proofs.«179127_j38130719654217_1_alg».proof.Proof.LibRowLayout
import Idealize.ShloMosaic.Lib.Pipeline.Value
import Idealize.ShloMosaic.Lib.ValueIdx
import Idealize.ShloMosaic.Lib.ValueLayout

set_option maxRecDepth 16384

noncomputable section

namespace Cert.KernelIdeal.Region9

open Cert.KernelIdeal Cert.KernelIdeal.Gen
open Idealize.ShloMosaic Idealize.ShloMosaic.TcCoe Idealize.ShloMosaic.ValueIdx Idealize.SL.Sem
open Cert.Lib.PlainDot Cert.Gcn Cert.KernelIdeal.MvnKernel

variable (V : (c : Dev nD) → (b : Ref sig .tc) → Buf (Elt Ideal) ((c : Thread nD τ).loc b))

theorem hz : (![0, 0] : Fin 2 → Nat) = fun _ => 0 := funext fun a => by fin_cases a <;> rfl

/-- The body's one stored value: the block of rows times the weights (a change of float format is the identity on the
    extended reals, and the accumulator starts at zero). -/
theorem pay_eq (x0 : Vec Ideal S5000x128 .f32) (x1 : Vec Ideal S128x128 .f32) : k9_pay1 x0 x1 = mm x0 x1 := by
  funext j
  unfold k9_pay1
  try simp only [shapeCast_self]
  exact matmul_zero_apply (φ₁ := .bf16) (φ₂ := .bf16) _ rfl none _ _ j

theorem idx_w0 : ∀ t : Fin cfg9.N, win9_0.index t (0 : Fin 2) = t.val ∧ win9_0.index t (1 : Fin 2) = 0 :=
  (by decide +kernel : ∀ t : Fin grid9.N, _)

theorem idx_w1 : ∀ t : Fin cfg9.N, win9_1.index t (0 : Fin 2) = 0 ∧ win9_1.index t (1 : Fin 2) = 0 :=
  (by decide +kernel : ∀ t : Fin grid9.N, _)

theorem idx_w2 : ∀ t : Fin cfg9.N, win9_2.index t (0 : Fin 2) = t.val ∧ win9_2.index t (1 : Fin 2) = 0 :=
  (by decide +kernel : ∀ t : Fin grid9.N, _)

/-- The column of an index inside the block is its column in the array. -/
theorem col_emb (t : Fin cfg9.N) (j : S5000x128.Idx) : (j 1).val = ((((cfg9.win 2).blk t).view.emb j) 1).val := by
  obtain ⟨o0, o1⟩ := idx_w2 t
  show (j 1).val = win9_2.index t (1 : Fin 2) * 128 + 1 * (j 1).val
  omega

/-- Row (j 0) of window 0's block is row (j 0) of the block's place in the array. -/
theorem blk0_row (c : Dev nD) (t : Fin cfg9.N) (j : S5000x128.Idx) (k : Fin 128) :
    iblk9 V c 0 t (rowIdx j k) = V c main_v122 (rowIdx (((cfg9.win 2).blk t).view.emb j) k) := by
  obtain ⟨a0, a1⟩ := idx_w0 t
  obtain ⟨o0, o1⟩ := idx_w2 t
  show V c main_v122 (((cfg9.win 0).blk t).view.emb (rowIdx j k)) = _
  refine congrArg (V c main_v122) (funext fun a => Fin.ext ?_)
  match a with
  | ⟨0, _⟩ => show win9_0.index t (0 : Fin 2) * 5000 + 1 * (j 0).val = win9_2.index t (0 : Fin 2) * 5000 + 1 * (j 0).val; omega
  | ⟨1, _⟩ => show win9_0.index t (1 : Fin 2) * 128 + 1 * k.val = k.val; omega

/-- Window 1 is the whole array at every point. -/
theorem blkF1 (c : Dev nD) (t : Fin cfg9.N) : iblk9 V c 1 t = V c main_arg6 := by
  obtain ⟨a0, a1⟩ := idx_w1 t
  funext y
  show V c main_arg6 (((cfg9.win 1).blk t).view.emb y) = _
  refine congrArg (V c main_arg6) (funext fun a => Fin.ext ?_)
  match a with
  | ⟨0, _⟩ => show win9_1.index t (0 : Fin 2) * 128 + 1 * (y 0).val = (y 0).val; omega
  | ⟨1, _⟩ => show win9_1.index t (1 : Fin 2) * 128 + 1 * (y 1).val = (y 1).val; omega

/-- What point t writes back is block t of the spec function of the arrays the region finds. -/
theorem flushed_eq (c : Dev nD) (t : Fin cfg9.N) :
    (dat9 V c).flushed 2 t = ((cfg9.win 2).blk t).view.read (Elt Ideal) (mm (V c main_v122) (V c main_arg6)) := by
  show (cfg9.win 2).cut (grid9.coords t) ((dat9 V c).after 2 t) = _
  rw [after9_2]
  unfold out9_2
  rw [View.canon_unit_zero hz]
  simp only [View.ld_unit_zero (S := S5000x128) hz, View.ld_unit_zero (S := S128x128) hz]
  rw [pay_eq]
  funext j
  show mm (iblk9 V c 0 t) (iblk9 V c 1 t) j = mm (V c main_v122) (V c main_arg6) (((cfg9.win 2).blk t).view.emb j)
  rw [blkF1 V c t]
  exact mm_rows _ _ _ j _ (col_emb t j) (fun k => blk0_row V c t j k)

/-- An index of the array is in point t's block iff each coordinate is in the block's range on its axis. -/
theorem mem_blk (t : Fin cfg9.N) (i : S50000x128.Idx) :
    i ∈ ((cfg9.win 2).blk t).view.set ↔ ∀ a : Fin 2, win9_2.index t a * S5000x128.size a ≤ (i a).val ∧ (i a).val < win9_2.index t a * S5000x128.size a + S5000x128.size a := by
  show i ∈ ((View.whole main_v123).slice (win9_2.rect t)).set ↔ _
  rw [View.set_slice_whole, Rect.mem_set_unit]
  exact Iff.rfl

/-- Row r lies in the block of point r / 5000, and every point writes its block back. -/
theorem cover (i : S50000x128.Idx) :
    ∃ t : Fin cfg9.N, (cfg9.win 2).flush t = true ∧ i ∈ ((cfg9.win 2).blk t).view.set := by
  have hi0 : (i 0).val < 50000 := (i 0).isLt
  have hi1 : (i 1).val < 128 := (i 1).isLt
  obtain ⟨t, ht⟩ : ∃ t : Fin cfg9.N, t.val = (i 0).val / 5000 := ⟨⟨(i 0).val / 5000, by rw [show cfg9.N = 10 from N_9]; omega⟩, rfl⟩
  obtain ⟨o0, o1⟩ := idx_w2 t
  refine ⟨t, flush9_2 t, ?_⟩
  rw [mem_blk]
  intro a
  match a with
  | ⟨0, _⟩ => show win9_2.index t (0 : Fin 2) * 5000 ≤ (i 0).val ∧ (i 0).val < win9_2.index t (0 : Fin 2) * 5000 + 5000; omega
  | ⟨1, _⟩ => show win9_2.index t (1 : Fin 2) * 128 ≤ (i 1).val ∧ (i 1).val < win9_2.index t (1 : Fin 2) * 128 + 128; omega

/-- The region's output array after the region: the spec function of the arrays it found. -/
theorem final (c : Dev nD) : (dat9 V c).arrAt 2 cfg9.N = mm (V c main_v122) (V c main_arg6) :=
  (dat9 V c).arrAt_eq_of_cover 2 _ (fun t _ => flushed_eq V c t) cover

end Cert.KernelIdeal.Region9

end
-- ==== Proof.Region10.lean ====
/-
  Region 10 of the kernel's program (the self-loop, bias and ReLU step), at any entry contents V:
  what the region leaves in its output array is ONE function of the arrays it finds — convOut of Spec.lean — index by index.
  Point t of the grid holds rows 5000·t … 5000·t + 4999; the row-indexed operands are cut in the same blocks, the weights
  and bias rows are whole; each spec function computes row r from row r alone, so block t of the result is the spec of
  block t of the operands, and the ten blocks cover the array.
-/
import proofs.«179127_j38130719654217_1_alg».proof.Proof.Gen.KernelIdeal.Frame
import proofs.«179127_j38130719654217_1_alg».proof.Proof.Spec
import proofs.«179127_j38130719654217_1_alg».proof.Proof.LibRowLayout
import Idealize.ShloMosaic.Lib.Pipeline.Value
import Idealize.ShloMosaic.Lib.ValueIdx
import Idealize.ShloMosaic.Lib.ValueLayout

set_option maxRecDepth 16384

noncomputable section

namespace Cert.KernelIdeal.Region10

open Cert.KernelIdeal Cert.KernelIdeal.Gen
open Idealize.ShloMosaic Idealize.ShloMosaic.TcCoe Idealize.ShloMosaic.ValueIdx Idealize.SL.Sem
open Cert.Lib.PlainDot Cert.Gcn Cert.KernelIdeal.MvnKernel

variable (V : (c : Dev nD) → (b : Ref sig .tc) → Buf (Elt Ideal) ((c : Thread nD τ).loc b))

theorem hz : (![0, 0] : Fin 2 → Nat) = fun _ => 0 := funext fun a => by fin_cases a <;> rfl

/-- The body's one stored value, index by index: aggregate plus the node's own row scaled by the row's coefficient, plus the
    bias of the column, clamped below at zero. -/
theorem pay_eq (x0 x1 : Vec Ideal S5000x128 .f32) (x2 : Vec Ideal S5000x1 .f32) (x3 : Vec Ideal S1x128 .f32) :
    k10_pay1 x0 x1 x2 x3 = convOut x0 x1 x2 x3 := by
  funext j
  obtain ⟨p, q, rfl⟩ : ∃ (p : Fin 5000) (q : Fin 128), j = ix2 p q := ⟨j 0, j 1, eq_ix2 j⟩
  unfold k10_pay1 convOut
  simp only [shapeCast_self, maximumf_apply, addf_apply, mulf_apply, broadcast_apply, broadcastTo_a1_ab_apply, broadcastTo_1b_ab_apply]
  rfl

theorem idx_w0 : ∀ t : Fin cfg10.N, win10_0.index t (0 : Fin 2) = t.val ∧ win10_0.index t (1 : Fin 2) = 0 :=
  (by decide +kernel : ∀ t : Fin grid10.N, _)

theorem idx_w1 : ∀ t : Fin cfg10.N, win10_1.index t (0 : Fin 2) = t.val ∧ win10_1.index t (1 : Fin 2) = 0 :=
  (by decide +kernel : ∀ t : Fin grid10.N, _)

theorem idx_w2 : ∀ t : Fin cfg10.N, win10_2.index t (0 : Fin 2) = t.val ∧ win10_2.index t (1 : Fin 2) = 0 :=
  (by decide +kernel : ∀ t : Fin grid10.N, _)

theorem idx_w3 : ∀ t : Fin cfg10.N, win10_3.index t (0 : Fin 2) = 0 ∧ win10_3.index t (1 : Fin 2) = 0 :=
  (by decide +kernel : ∀ t : Fin grid10.N, _)

theorem idx_w4 : ∀ t : Fin cfg10.N, win10_4.index t (0 : Fin 2) = t.val ∧ win10_4.index t (1 : Fin 2) = 0 :=
  (by decide +kernel : ∀ t : Fin grid10.N, _)

/-- The column of an index inside the block is its column in the array. -/
theorem col_emb (t : Fin cfg10.N) (j : S5000x128.Idx) : (j 1).val = ((((cfg10.win 4).blk t).view.emb j) 1).val := by
  obtain ⟨o0, o1⟩ := idx_w4 t
  show (j 1).val = win10_4.index t (1 : Fin 2) * 128 + 1 * (j 1).val
  omega

/-- Window 0's block read at an index is the array read at the index's place in the array. -/
theorem blk0 (c : Dev nD) (t : Fin cfg10.N) (j : S5000x128.Idx) :
    iblk10 V c 0 t j = V c main_v136 (((cfg10.win 4).blk t).view.emb j) := by
  obtain ⟨a0, a1⟩ := idx_w0 t
  obtain ⟨o0, o1⟩ := idx_w4 t
  show V c main_v136 (((cfg10.win 0).blk t).view.emb j) = _
  refine congrArg (V c main_v136) (funext fun a => Fin.ext ?_)
  match a with
  | ⟨0, _⟩ => show win10_0.index t (0 : Fin 2) * 5000 + 1 * (j 0).val = win10_4.index t (0 : Fin 2) * 5000 + 1 * (j 0).val; omega
  | ⟨1, _⟩ => show win10_0.index t (1 : Fin 2) * 128 + 1 * (j 1).val = win10_4.index t (1 : Fin 2) * 128 + 1 * (j 1).val; omega

/-- Window 1's block read at an index is the array read at the index's place in the array. -/
theorem blk1 (c : Dev nD) (t : Fin cfg10.N) (j : S5000x128.Idx) :
    iblk10 V c 1 t j = V c main_v123 (((cfg10.win 4).blk t).view.emb j) := by
  obtain ⟨a0, a1⟩ := idx_w1 t
  obtain ⟨o0, o1⟩ := idx_w4 t
  show V c main_v123 (((cfg10.win 1).blk t).view.emb j) = _
  refine congrArg (V c main_v123) (funext fun a => Fin.ext ?_)
  match a with
  | ⟨0, _⟩ => show win10_1.index t (0 : Fin 2) * 5000 + 1 * (j 0).val = win10_4.index t (0 : Fin 2) * 5000 + 1 * (j 0).val; omega
  | ⟨1, _⟩ => show win10_1.index t (1 : Fin 2) * 128 + 1 * (j 1).val = win10_4.index t (1 : Fin 2) * 128 + 1 * (j 1).val; omega

/-- Window 2's block read at (p, 0) is the column array at the block's row. -/
theorem blk2_col (c : Dev nD) (t : Fin cfg10.N) (j : S5000x128.Idx) :
    iblk10 V c 2 t (ix2 (j 0) (0 : Fin 1)) = V c main_v106 (ix2 ((((cfg10.win 4).blk t).view.emb j) 0) (0 : Fin 1)) := by
  obtain ⟨a0, a1⟩ := idx_w2 t
  obtain ⟨o0, o1⟩ := idx_w4 t
  show V c main_v106 (((cfg10.win 2).blk t).view.emb (ix2 (j 0) (0 : Fin 1))) = _
  refine congrArg (V c main_v106) (funext fun a => Fin.ext ?_)
  match a with
  | ⟨0, _⟩ => show win10_2.index t (0 : Fin 2) * 5000 + 1 * (j 0).val = win10_4.index t (0 : Fin 2) * 5000 + 1 * (j 0).val; omega
  | ⟨1, _⟩ => show win10_2.index t (1 : Fin 2) * 1 + 1 * 0 = 0; omega

/-- Window 3 is the whole array at every point. -/
theorem blkF3 (c : Dev nD) (t : Fin cfg10.N) : iblk10 V c 3 t = V c main_v137 := by
  obtain ⟨a0, a1⟩ := idx_w3 t
  funext y
  show V c main_v137 (((cfg10.win 3).blk t).view.emb y) = _
  refine congrArg (V c main_v137) (funext fun a => Fin.ext ?_)
  match a with
  | ⟨0, _⟩ => show win10_3.index t (0 : Fin 2) * 1 + 1 * (y 0).val = (y 0).val; omega
  | ⟨1, _⟩ => show win10_3.index t (1 : Fin 2) * 128 + 1 * (y 1).val = (y 1).val; omega

/-- What point t writes back is block t of the spec function of the arrays the region finds. -/
theorem flushed_eq (c : Dev nD) (t : Fin cfg10.N) :
    (dat10 V c).flushed 4 t = ((cfg10.win 4).blk t).view.read (Elt Ideal) (convOut (V c main_v136) (V c main_v123) (V c main_v106) (V c main_v137)) := by
  show (cfg10.win 4).cut (grid10.coords t) ((dat10 V c).after 4 t) = _
  rw [after10_4]
  unfold out10_4
  rw [View.canon_unit_zero hz]
  simp only [View.ld_unit_zero (S := S5000x128) hz, View.ld_unit_zero (S := S5000x1) hz, View.ld_unit_zero (S := S1x128) hz]
  rw [pay_eq]
  funext j
  show convOut (iblk10 V c 0 t) (iblk10 V c 1 t) (iblk10 V c 2 t) (iblk10 V c 3 t) j = convOut (V c main_v136) (V c main_v123) (V c main_v106) (V c main_v137) (((cfg10.win 4).blk t).view.emb j)
  rw [blkF3 V c t]
  exact convOut_rows _ _ _ _ _ _ _ j _ (col_emb t j) (blk0 V c t j) (blk1 V c t j) (blk2_col V c t j)

/-- An index of the array is in point t's block iff each coordinate is in the block's range on its axis. -/
theorem mem_blk (t : Fin cfg10.N) (i : S50000x128.Idx) :
    i ∈ ((cfg10.win 4).blk t).view.set ↔ ∀ a : Fin 2, win10_4.index t a * S5000x128.size a ≤ (i a).val ∧ (i a).val < win10_4.index t a * S5000x128.size a + S5000x128.size a := by
  show i ∈ ((View.whole main_v138).slice (win10_4.rect t)).set ↔ _
  rw [View.set_slice_whole, Rect.mem_set_unit]
  exact Iff.rfl

/-- Row r lies in the block of point r / 5000, and every point writes its block back. -/
theorem cover (i : S50000x128.Idx) :
    ∃ t : Fin cfg10.N, (cfg10.win 4).flush t = true ∧ i ∈ ((cfg10.win 4).blk t).view.set := by
  have hi0 : (i 0).val < 50000 := (i 0).isLt
  have hi1 : (i 1).val < 128 := (i 1).isLt
  obtain ⟨t, ht⟩ : ∃ t : Fin cfg10.N, t.val = (i 0).val / 5000 := ⟨⟨(i 0).val / 5000, by rw [show cfg10.N = 10 from N_10]; omega⟩, rfl⟩
  obtain ⟨o0, o1⟩ := idx_w4 t
  refine ⟨t, flush10_4 t, ?_⟩
  rw [mem_blk]
  intro a
  match a with
  | ⟨0, _⟩ => show win10_4.index t (0 : Fin 2) * 5000 ≤ (i 0).val ∧ (i 0).val < win10_4.index t (0 : Fin 2) * 5000 + 5000; omega
  | ⟨1, _⟩ => show win10_4.index t (1 : Fin 2) * 128 ≤ (i 1).val ∧ (i 1).val < win10_4.index t (1 : Fin 2) * 128 + 128; omega

/-- The region's output array after the region: the spec function of the arrays it found. -/
theorem final (c : Dev nD) : (dat10 V c).arrAt 4 cfg10.N = convOut (V c main_v136) (V c main_v123) (V c main_v106) (V c main_v137) :=
  (dat10 V c).arrAt_eq_of_cover 4 _ (fun t _ => flushed_eq V c t) cover

end Cert.KernelIdeal.Region10

end
-- ==== Proof.Region11.lean ====
/-
  Region 11 of the kernel's program (a row-blocked matrix product), at any entry contents V:
  what the region leaves in its output array is ONE function of the arrays it finds — mm of Spec.lean — index by index.
  Point t of the grid holds rows 5000·t … 5000·t + 4999; the row-indexed operands are cut in the same blocks, the weights
  and bias rows are whole; each spec function computes row r from row r alone, so block t of the result is the spec of
  block t of the operands, and the ten blocks cover the array.
-/
import proofs.«179127_j38130719654217_1_alg».proof.Proof.Gen.KernelIdeal.Frame
import proofs.«179127_j38130719654217_1_alg».proof.Proof.Spec
import proofs.«179127_j38130719654217_1_alg».proof.Proof.LibRowLayout
import Idealize.ShloMosaic.Lib.Pipeline.Value
import Idealize.ShloMosaic.Lib.ValueIdx
import Idealize.ShloMosaic.Lib.ValueLayout

set_option maxRecDepth 16384

noncomputable section

namespace Cert.KernelIdeal.Region11

open Cert.KernelIdeal Cert.KernelIdeal.Gen
open Idealize.ShloMosaic Idealize.ShloMosaic.TcCoe Idealize.ShloMosaic.ValueIdx Idealize.SL.Sem
open Cert.Lib.PlainDot Cert.Gcn Cert.KernelIdeal.MvnKernel

variable (V : (c : Dev nD) → (b : Ref sig .tc) → Buf (Elt Ideal) ((c : Thread nD τ).loc b))

theorem hz : (![0, 0] : Fin 2 → Nat) = fun _ => 0 := funext fun a => by fin_cases a <;> rfl

/-- The body's one stored value: the block of rows times the weights (a change of float format is the identity on the
    extended reals, and the accumulator starts at zero). -/
theorem pay_eq (x0 : Vec Ideal S5000x128 .f32) (x1 : Vec Ideal S128x128 .f32) : k11_pay1 x0 x1 = mm x0 x1 := by
  funext j
  unfold k11_pay1
  try simp only [shapeCast_self]
  exact matmul_zero_apply (φ₁ := .bf16) (φ₂ := .bf16) _ rfl none _ _ j

theorem idx_w0 : ∀ t : Fin cfg11.N, win11_0.index t (0 : Fin 2) = t.val ∧ win11_0.index t (1 : Fin 2) = 0 :=
  (by decide +kernel : ∀ t : Fin grid11.N, _)

theorem idx_w1 : ∀ t : Fin cfg11.N, win11_1.index t (0 : Fin 2) = 0 ∧ win11_1.index t (1 : Fin 2) = 0 :=
  (by decide +kernel : ∀ t : Fin grid11.N, _)

theorem idx_w2 : ∀ t : Fin cfg11.N, win11_2.index t (0 : Fin 2) = t.val ∧ win11_2.index t (1 : Fin 2) = 0 :=
  (by decide +kernel : ∀ t : Fin grid11.N, _)

/-- The column of an index inside the block is its column in the array. -/
theorem col_emb (t : Fin cfg11.N) (j : S5000x128.Idx) : (j 1).val = ((((cfg11.win 2).blk t).view.emb j) 1).val := by
  obtain ⟨o0, o1⟩ := idx_w2 t
  show (j 1).val = win11_2.index t (1 : Fin 2) * 128 + 1 * (j 1).val
  omega

/-- Row (j 0) of window 0's block is row (j 0) of the block's place in the array. -/
theorem blk0_row (c : Dev nD) (t : Fin cfg11.N) (j : S5000x128.Idx) (k : Fin 128) :
    iblk11 V c 0 t (rowIdx j k) = V c main_v138 (rowIdx (((cfg11.win 2).blk t).view.emb j) k) := by
  obtain ⟨a0, a1⟩ := idx_w0 t
  obtain ⟨o0, o1⟩ := idx_w2 t
  show V c main_v138 (((cfg11.win 0).blk t).view.emb (rowIdx j k)) = _
  refine congrArg (V c main_v138) (funext fun a => Fin.ext ?_)
  match a with
  | ⟨0, _⟩ => show win11_0.index t (0 : Fin 2) * 5000 + 1 * (j 0).val = win11_2.index t (0 : Fin 2) * 5000 + 1 * (j 0).val; omega
  | ⟨1, _⟩ => show win11_0.index t (1 : Fin 2) * 128 + 1 * k.val = k.val; omega

/-- Window 1 is the whole array at every point. -/
theorem blkF1 (c : Dev nD) (t : Fin cfg11.N) : iblk11 V c 1 t = V c main_arg8 := by
  obtain ⟨a0, a1⟩ := idx_w1 t
  funext y
  show V c main_arg8 (((cfg11.win 1).blk t).view.emb y) = _
  refine congrArg (V c main_arg8) (funext fun a => Fin.ext ?_)
  match a with
  | ⟨0, _⟩ => show win11_1.index t (0 : Fin 2) * 128 + 1 * (y 0).val = (y 0).val; omega
  | ⟨1, _⟩ => show win11_1.index t (1 : Fin 2) * 128 + 1 * (y 1).val = (y 1).val; omega

/-- What point t writes back is block t of the spec function of the arrays the region finds. -/
theorem flushed_eq (c : Dev nD) (t : Fin cfg11.N) :
    (dat11 V c).flushed 2 t = ((cfg11.win 2).blk t).view.read (Elt Ideal) (mm (V c main_v138) (V c main_arg8)) := by
  show (cfg11.win 2).cut (grid11.coords t) ((dat11 V c).after 2 t) = _
  rw [after11_2]
  unfold out11_2
  rw [View.canon_unit_zero hz]
  simp only [View.ld_unit_zero (S := S5000x128) hz, View.ld_unit_zero (S := S128x128) hz]
  rw [pay_eq]
  funext j
  show mm (iblk11 V c 0 t) (iblk11 V c 1 t) j = mm (V c main_v138) (V c main_arg8) (((cfg11.win 2).blk t).view.emb j)
  rw [blkF1 V c t]
  exact mm_rows _ _ _ j _ (col_emb t j) (fun k => blk0_row V c t j k)

/-- An index of the array is in point t's block iff each coordinate is in the block's range on its axis. -/
theorem mem_blk (t : Fin cfg11.N) (i : S50000x128.Idx) :
    i ∈ ((cfg11.win 2).blk t).view.set ↔ ∀ a : Fin 2, win11_2.index t a * S5000x128.size a ≤ (i a).val ∧ (i a).val < win11_2.index t a * S5000x128.size a + S5000x128.size a := by
  show i ∈ ((View.whole main_v139).slice (win11_2.rect t)).set ↔ _
  rw [View.set_slice_whole, Rect.mem_set_unit]
  exact Iff.rfl

/-- Row r lies in the block of point r / 5000, and every point writes its block back. -/
theorem cover (i : S50000x128.Idx) :
    ∃ t : Fin cfg11.N, (cfg11.win 2).flush t = true ∧ i ∈ ((cfg11.win 2).blk t).view.set := by
  have hi0 : (i 0).val < 50000 := (i 0).isLt
  have hi1 : (i 1).val < 128 := (i 1).isLt
  obtain ⟨t, ht⟩ : ∃ t : Fin cfg11.N, t.val = (i 0).val / 5000 := ⟨⟨(i 0).val / 5000, by rw [show cfg11.N = 10 from N_11]; omega⟩, rfl⟩
  obtain ⟨o0, o1⟩ := idx_w2 t
  refine ⟨t, flush11_2 t, ?_⟩
  rw [mem_blk]
  intro a
  match a with
  | ⟨0, _⟩ => show win11_2.index t (0 : Fin 2) * 5000 ≤ (i 0).val ∧ (i 0).val < win11_2.index t (0 : Fin 2) * 5000 + 5000; omega
  | ⟨1, _⟩ => show win11_2.index t (1 : Fin 2) * 128 ≤ (i 1).val ∧ (i 1).val < win11_2.index t (1 : Fin 2) * 128 + 128; omega

/-- The region's output array after the region: the spec function of the arrays it found. -/
theorem final (c : Dev nD) : (dat11 V c).arrAt 2 cfg11.N = mm (V c main_v138) (V c main_arg8) :=
  (dat11 V c).arrAt_eq_of_cover 2 _ (fun t _ => flushed_eq V c t) cover

end Cert.KernelIdeal.Region11

end
-- ==== Proof.Region12.lean ====
/-
  Region 12 of the kernel's program (the self-loop, bias and ReLU step), at any entry contents V:
  what the region leaves in its output array is ONE function of the arrays it finds — convOut of Spec.lean — index by index.
  Point t of the grid holds rows 5000·t … 5000·t + 4999; the row-indexed operands are cut in the same blocks, the weights
  and bias rows are whole; each spec function computes row r from row r alone, so block t of the result is the spec of
  block t of the operands, and the ten blocks cover the array.
-/
import proofs.«179127_j38130719654217_1_alg».proof.Proof.Gen.KernelIdeal.Frame
import proofs.«179127_j38130719654217_1_alg».proof.Proof.Spec
import proofs.«179127_j38130719654217_1_alg».proof.Proof.LibRowLayout
import Idealize.ShloMosaic.Lib.Pipeline.Value
import Idealize.ShloMosaic.Lib.ValueIdx
import Idealize.ShloMosaic.Lib.ValueLayout

set_option maxRecDepth 16384

noncomputable section

namespace Cert.KernelIdeal.Region12

open Cert.KernelIdeal Cert.KernelIdeal.Gen
open Idealize.ShloMosaic Idealize.ShloMosaic.TcCoe Idealize.ShloMosaic.ValueIdx Idealize.SL.Sem
open Cert.Lib.PlainDot Cert.Gcn Cert.KernelIdeal.MvnKernel

variable (V : (c : Dev nD) → (b : Ref sig .tc) → Buf (Elt Ideal) ((c : Thread nD τ).loc b))

theorem hz : (![0, 0] : Fin 2 → Nat) = fun _ => 0 := funext fun a => by fin_cases a <;> rfl

/-- The body's one stored value, index by index: aggregate plus the node's own row scaled by the row's coefficient, plus the
    bias of the column, clamped below at zero. -/
theorem pay_eq (x0 x1 : Vec Ideal S5000x128 .f32) (x2 : Vec Ideal S5000x1 .f32) (x3 : Vec Ideal S1x128 .f32) :
    k12_pay1 x0 x1 x2 x3 = convOut x0 x1 x2 x3 := by
  funext j
  obtain ⟨p, q, rfl⟩ : ∃ (p : Fin 5000) (q : Fin 128), j = ix2 p q := ⟨j 0, j 1, eq_ix2 j⟩
  unfold k12_pay1 convOut
  simp only [shapeCast_self, maximumf_apply, addf_apply, mulf_apply, broadcast_apply, broadcastTo_a1_ab_apply, broadcastTo_1b_ab_apply]
  rfl

theorem idx_w0 : ∀ t : Fin cfg12.N, win12_0.index t (0 : Fin 2) = t.val ∧ win12_0.index t (1 : Fin 2) = 0 :=
  (by decide +kernel : ∀ t : Fin grid12.N, _)

theorem idx_w1 : ∀ t : Fin cfg12.N, win12_1.index t (0 : Fin 2) = t.val ∧ win12_1.index t (1 : Fin 2) = 0 :=
  (by decide +kernel : ∀ t : Fin grid12.N, _)

theorem idx_w2 : ∀ t : Fin cfg12.N, win12_2.index t (0 : Fin 2) = t.val ∧ win12_2.index t (1 : Fin 2) = 0 :=
  (by decide +kernel : ∀ t : Fin grid12.N, _)

theorem idx_w3 : ∀ t : Fin cfg12.N, win12_3.index t (0 : Fin 2) = 0 ∧ win12_3.index t (1 : Fin 2) = 0 :=
  (by decide +kernel : ∀ t : Fin grid12.N, _)

theorem idx_w4 : ∀ t : Fin cfg12.N, win12_4.index t (0 : Fin 2) = t.val ∧ win12_4.index t (1 : Fin 2) = 0 :=
  (by decide +kernel : ∀ t : Fin grid12.N, _)

/-- The column of an index inside the block is its column in the array. -/
theorem col_emb (t : Fin cfg12.N) (j : S5000x128.Idx) : (j 1).val = ((((cfg12.win 4).blk t).view.emb j) 1).val := by
  obtain ⟨o0, o1⟩ := idx_w4 t
  show (j 1).val = win12_4.index t (1 : Fin 2) * 128 + 1 * (j 1).val
  omega

/-- Window 0's block read at an index is the array read at the index's place in the array. -/
theorem blk0 (c : Dev nD) (t : Fin cfg12.N) (j : S5000x128.Idx) :
    iblk12 V c 0 t j = V c main_v152 (((cfg12.win 4).blk t).view.emb j) := by
  obtain ⟨a0, a1⟩ := idx_w0 t
  obtain ⟨o0, o1⟩ := idx_w4 t
  show V c main_v152 (((cfg12.win 0).blk t).view.emb j) = _
  refine congrArg (V c main_v152) (funext fun a => Fin.ext ?_)
  match a with
  | ⟨0, _⟩ => show win12_0.index t (0 : Fin 2) * 5000 + 1 * (j 0).val = win12_4.index t (0 : Fin 2) * 5000 + 1 * (j 0).val; omega
  | ⟨1, _⟩ => show win12_0.index t (1 : Fin 2) * 128 + 1 * (j 1).val = win12_4.index t (1 : Fin 2) * 128 + 1 * (j 1).val; omega

/-- Window 1's block read at an index is the array read at the index's place in the array. -/
theorem blk1 (c : Dev nD) (t : Fin cfg12.N) (j : S5000x128.Idx) :
    iblk12 V c 1 t j = V c main_v139 (((cfg12.win 4).blk t).view.emb j) := by
  obtain ⟨a0, a1⟩ := idx_w1 t
  obtain ⟨o0, o1⟩ := idx_w4 t
  show V c main_v139 (((cfg12.win 1).blk t).view.emb j) = _
  refine congrArg (V c main_v139) (funext fun a => Fin.ext ?_)
  match a with
  | ⟨0, _⟩ => show win12_1.index t (0 : Fin 2) * 5000 + 1 * (j 0).val = win12_4.index t (0 : Fin 2) * 5000 + 1 * (j 0).val; omega
  | ⟨1, _⟩ => show win12_1.index t (1 : Fin 2) * 128 + 1 * (j 1).val = win12_4.index t (1 : Fin 2) * 128 + 1 * (j 1).val; omega

/-- Window 2's block read at (p, 0) is the column array at the block's row. -/
theorem blk2_col (c : Dev nD) (t : Fin cfg12.N) (j : S5000x128.Idx) :
    iblk12 V c 2 t (ix2 (j 0) (0 : Fin 1)) = V c main_v106 (ix2 ((((cfg12.win 4).blk t).view.emb j) 0) (0 : Fin 1)) := by
  obtain ⟨a0, a1⟩ := idx_w2 t
  obtain ⟨o0, o1⟩ := idx_w4 t
  show V c main_v106 (((cfg12.win 2).blk t).view.emb (ix2 (j 0) (0 : Fin 1))) = _
  refine congrArg (V c main_v106) (funext fun a => Fin.ext ?_)
  match a with
  | ⟨0, _⟩ => show win12_2.index t (0 : Fin 2) * 5000 + 1 * (j 0).val = win12_4.index t (0 : Fin 2) * 5000 + 1 * (j 0).val; omega
  | ⟨1, _⟩ => show win12_2.index t (1 : Fin 2) * 1 + 1 * 0 = 0; omega

/-- Window 3 is the whole array at every point. -/
theorem blkF3 (c : Dev nD) (t : Fin cfg12.N) : iblk12 V c 3 t = V c main_v153 := by
  obtain ⟨a0, a1⟩ := idx_w3 t
  funext y
  show V c main_v153 (((cfg12.win 3).blk t).view.emb y) = _
  refine congrArg (V c main_v153) (funext fun a => Fin.ext ?_)
  match a with
  | ⟨0, _⟩ => show win12_3.index t (0 : Fin 2) * 1 + 1 * (y 0).val = (y 0).val; omega
  | ⟨1, _⟩ => show win12_3.index t (1 : Fin 2) * 128 + 1 * (y 1).val = (y 1).val; omega

/-- What point t writes back is block t of the spec function of the arrays the region finds. -/
theorem flushed_eq (c : Dev nD) (t : Fin cfg12.N) :
    (dat12 V c).flushed 4 t = ((cfg12.win 4).blk t).view.read (Elt Ideal) (convOut (V c main_v152) (V c main_v139) (V c main_v106) (V c main_v153)) := by
  show (cfg12.win 4).cut (grid12.coords t) ((dat12 V c).after 4 t) = _
  rw [after12_4]
  unfold out12_4
  rw [View.canon_unit_zero hz]
  simp only [View.ld_unit_zero (S := S5000x128) hz, View.ld_unit_zero (S := S5000x1) hz, View.ld_unit_zero (S := S1x128) hz]
  rw [pay_eq]
  funext j
  show convOut (iblk12 V c 0 t) (iblk12 V c 1 t) (iblk12 V c 2 t) (iblk12 V c 3 t) j = convOut (V c main_v152) (V c main_v139) (V c main_v106) (V c main_v153) (((cfg12.win 4).blk t).view.emb j)
  rw [blkF3 V c t]
  exact convOut_rows _ _ _ _ _ _ _ j _ (col_emb t j) (blk0 V c t j) (blk1 V c t j) (blk2_col V c t j)

/-- An index of the array is in point t's block iff each coordinate is in the block's range on its axis. -/
theorem mem_blk (t : Fin cfg12.N) (i : S50000x128.Idx) :
    i ∈ ((cfg12.win 4).blk t).view.set ↔ ∀ a : Fin 2, win12_4.index t a * S5000x128.size a ≤ (i a).val ∧ (i a).val < win12_4.index t a * S5000x128.size a + S5000x128.size a := by
  show i ∈ ((View.whole main_v154).slice (win12_4.rect t)).set ↔ _
  rw [View.set_slice_whole, Rect.mem_set_unit]
  exact Iff.rfl

/-- Row r lies in the block of point r / 5000, and every point writes its block back. -/
theorem cover (i : S50000x128.Idx) :
    ∃ t : Fin cfg12.N, (cfg12.win 4).flush t = true ∧ i ∈ ((cfg12.win 4).blk t).view.set := by
  have hi0 : (i 0).val < 50000 := (i 0).isLt
  have hi1 : (i 1).val < 128 := (i 1).isLt
  obtain ⟨t, ht⟩ : ∃ t : Fin cfg12.N, t.val = (i 0).val / 5000 := ⟨⟨(i 0).val / 5000, by rw [show cfg12.N = 10 from N_12]; omega⟩, rfl⟩
  obtain ⟨o0, o1⟩ := idx_w4 t
  refine ⟨t, flush12_4 t, ?_⟩
  rw [mem_blk]
  intro a
  match a with
  | ⟨0, _⟩ => show win12_4.index t (0 : Fin 2) * 5000 ≤ (i 0).val ∧ (i 0).val < win12_4.index t (0 : Fin 2) * 5000 + 5000; omega
  | ⟨1, _⟩ => show win12_4.index t (1 : Fin 2) * 128 ≤ (i 1).val ∧ (i 1).val < win12_4.index t (1 : Fin 2) * 128 + 128; omega

/-- The region's output array after the region: the spec function of the arrays it found. -/
theorem final (c : Dev nD) : (dat12 V c).arrAt 4 cfg12.N = convOut (V c main_v152) (V c main_v139) (V c main_v106) (V c main_v153) :=
  (dat12 V c).arrAt_eq_of_cover 4 _ (fun t _ => flushed_eq V c t) cover

end Cert.KernelIdeal.Region12

end
-- ==== Proof.Region13.lean ====
/-
  Region 13 of the kernel's program (the two-layer head), at any entry contents V:
  what the region leaves in its output array is ONE function of the arrays it finds — head of Spec.lean — index by index.
  Point t of the grid holds rows 5000·t … 5000·t + 4999; the row-indexed operands are cut in the same blocks, the weights
  and bias rows are whole; each spec function computes row r from row r alone, so block t of the result is the spec of
  block t of the operands, and the ten blocks cover the array.
-/
import proofs.«179127_j38130719654217_1_alg».proof.Proof.Gen.KernelIdeal.Frame
import proofs.«179127_j38130719654217_1_alg».proof.Proof.Spec
import proofs.«179127_j38130719654217_1_alg».proof.Proof.LibRowLayout
import Idealize.ShloMosaic.Lib.Pipeline.Value
import Idealize.ShloMosaic.Lib.ValueIdx
import Idealize.ShloMosaic.Lib.ValueLayout

set_option maxRecDepth 16384

noncomputable section

namespace Cert.KernelIdeal.Region13

open Cert.KernelIdeal Cert.KernelIdeal.Gen
open Idealize.ShloMosaic Idealize.ShloMosaic.TcCoe Idealize.ShloMosaic.ValueIdx Idealize.SL.Sem
open Cert.Lib.PlainDot Cert.Gcn Cert.KernelIdeal.MvnKernel

variable (V : (c : Dev nD) → (b : Ref sig .tc) → Buf (Elt Ideal) ((c : Thread nD τ).loc b))

theorem hz : (![0, 0] : Fin 2 → Nat) = fun _ => 0 := funext fun a => by fin_cases a <;> rfl

/-- The hidden layer of the head on a block of rows, index by index. -/
theorem hidden_eq (x0 : Vec Ideal S5000x128 .f32) (x1 : Vec Ideal S128x128 .f32) (x2 : Vec Ideal S1x128 .f32) (i : S5000x128.Idx) :
    maximumf (addf (matmul dot_S5000x128_S128x128_S5000x128_1_0_0_1_n_n none (truncf .bf16 x0 bitsLt_bf16_f32) (truncf .bf16 x1 bitsLt_bf16_f32) (constant S5000x128 .f32 0x00000000#32))
        (broadcastTo S5000x128 x2 broadcasts_S1x128_S5000x128)) (broadcast S5000x128 (Scalar.ofBits (F := Ideal) .f32 0x00000000#32)) i
      = relu (lin x0 x1 x2) i := by
  obtain ⟨p, q, rfl⟩ : ∃ (p : Fin 5000) (q : Fin 128), i = ix2 p q := ⟨i 0, i 1, eq_ix2 i⟩
  have hm := matmul_zero_apply (φ₁ := .bf16) (φ₂ := .bf16) dot_S5000x128_S128x128_S5000x128_1_0_0_1_n_n rfl none
    (truncf .bf16 x0 bitsLt_bf16_f32) (truncf .bf16 x1 bitsLt_bf16_f32) (ix2 p q)
  have hb := broadcastTo_1b_ab_apply x2 broadcasts_S1x128_S5000x128 p q
  show max (_ + broadcastTo S5000x128 x2 broadcasts_S1x128_S5000x128 (ix2 p q)) _ = max (mm x0 x1 (ix2 p q) + x2 (ix2 (0 : Fin 1) q)) z32
  rw [hb]
  exact congrArg (fun z => max (z + x2 (ix2 (0 : Fin 1) q)) z32) hm

/-- The body's one stored value: the two-layer head of the block of rows. -/
theorem pay_eq (x0 : Vec Ideal S5000x128 .f32) (x1 : Vec Ideal S128x128 .f32) (x2 : Vec Ideal S1x128 .f32) (x3 : Vec Ideal S128x128 .f32) (x4 : Vec Ideal S1x128 .f32) :
    k13_pay1 x0 x1 x2 x3 x4 = head x0 x1 x2 x3 x4 := by
  funext j
  obtain ⟨p, q, rfl⟩ : ∃ (p : Fin 5000) (q : Fin 128), j = ix2 p q := ⟨j 0, j 1, eq_ix2 j⟩
  unfold k13_pay1
  simp only [shapeCast_self]
  have hb := broadcastTo_1b_ab_apply x4 broadcasts_S1x128_S5000x128 p q
  have hm := matmul_zero_apply (φ₁ := .bf16) (φ₂ := .bf16) dot_S5000x128_S128x128_S5000x128_1_0_0_1_n_n rfl none
    (truncf .bf16 (maximumf (addf (matmul dot_S5000x128_S128x128_S5000x128_1_0_0_1_n_n none (truncf .bf16 x0 bitsLt_bf16_f32) (truncf .bf16 x1 bitsLt_bf16_f32) (constant S5000x128 .f32 0x00000000#32))
        (broadcastTo S5000x128 x2 broadcasts_S1x128_S5000x128)) (broadcast S5000x128 (Scalar.ofBits (F := Ideal) .f32 0x00000000#32))) bitsLt_bf16_f32)
    (truncf .bf16 x3 bitsLt_bf16_f32) (ix2 p q)
  show _ + broadcastTo S5000x128 x4 broadcasts_S1x128_S5000x128 (ix2 p q) = mm (relu (lin x0 x1 x2)) x3 (ix2 p q) + x4 (ix2 (0 : Fin 1) q)
  rw [hb]
  refine (congrArg (· + x4 (ix2 (0 : Fin 1) q)) hm).trans ?_
  refine congrArg (· + x4 (ix2 (0 : Fin 1) q)) ?_
  unfold mm
  refine Finset.sum_congr rfl fun k _ => congrArg (· * x3 (colIdx (ix2 p q) k)) ?_
  exact hidden_eq x0 x1 x2 _

theorem idx_w0 : ∀ t : Fin cfg13.N, win13_0.index t (0 : Fin 2) = t.val ∧ win13_0.index t (1 : Fin 2) = 0 :=
  (by decide +kernel : ∀ t : Fin grid13.N, _)

theorem idx_w1 : ∀ t : Fin cfg13.N, win13_1.index t (0 : Fin 2) = 0 ∧ win13_1.index t (1 : Fin 2) = 0 :=
  (by decide +kernel : ∀ t : Fin grid13.N, _)

theorem idx_w2 : ∀ t : Fin cfg13.N, win13_2.index t (0 : Fin 2) = 0 ∧ win13_2.index t (1 : Fin 2) = 0 :=
  (by decide +kernel : ∀ t : Fin grid13.N, _)

theorem idx_w3 : ∀ t : Fin cfg13.N, win13_3.index t (0 : Fin 2) = 0 ∧ win13_3.index t (1 : Fin 2) = 0 :=
  (by decide +kernel : ∀ t : Fin grid13.N, _)

theorem idx_w4 : ∀ t : Fin cfg13.N, win13_4.index t (0 : Fin 2) = 0 ∧ win13_4.index t (1 : Fin 2) = 0 :=
  (by decide +kernel : ∀ t : Fin grid13.N, _)

theorem idx_w5 : ∀ t : Fin cfg13.N, win13_5.index t (0 : Fin 2) = t.val ∧ win13_5.index t (1 : Fin 2) = 0 :=
  (by decide +kernel : ∀ t : Fin grid13.N, _)

/-- The column of an index inside the block is its column in the array. -/
theorem col_emb (t : Fin cfg13.N) (j : S5000x128.Idx) : (j 1).val = ((((cfg13.win 5).blk t).view.emb j) 1).val := by
  obtain ⟨o0, o1⟩ := idx_w5 t
  show (j 1).val = win13_5.index t (1 : Fin 2) * 128 + 1 * (j 1).val
  omega

/-- Row (j 0) of window 0's block is row (j 0) of the block's place in the array. -/
theorem blk0_row (c : Dev nD) (t : Fin cfg13.N) (j : S5000x128.Idx) (k : Fin 128) :
    iblk13 V c 0 t (rowIdx j k) = V c main_v154 (rowIdx (((cfg13.win 5).blk t).view.emb j) k) := by
  obtain ⟨a0, a1⟩ := idx_w0 t
  obtain ⟨o0, o1⟩ := idx_w5 t
  show V c main_v154 (((cfg13.win 0).blk t).view.emb (rowIdx j k)) = _
  refine congrArg (V c main_v154) (funext fun a => Fin.ext ?_)
  match a with
  | ⟨0, _⟩ => show win13_0.index t (0 : Fin 2) * 5000 + 1 * (j 0).val = win13_5.index t (0 : Fin 2) * 5000 + 1 * (j 0).val; omega
  | ⟨1, _⟩ => show win13_0.index t (1 : Fin 2) * 128 + 1 * k.val = k.val; omega

/-- Window 1 is the whole array at every point. -/
theorem blkF1 (c : Dev nD) (t : Fin cfg13.N) : iblk13 V c 1 t = V c main_arg10 := by
  obtain ⟨a0, a1⟩ := idx_w1 t
  funext y
  show V c main_arg10 (((cfg13.win 1).blk t).view.emb y) = _
  refine congrArg (V c main_arg10) (funext fun a => Fin.ext ?_)
  match a with
  | ⟨0, _⟩ => show win13_1.index t (0 : Fin 2) * 128 + 1 * (y 0).val = (y 0).val; omega
  | ⟨1, _⟩ => show win13_1.index t (1 : Fin 2) * 128 + 1 * (y 1).val = (y 1).val; omega

/-- Window 2 is the whole array at every point. -/
theorem blkF2 (c : Dev nD) (t : Fin cfg13.N) : iblk13 V c 2 t = V c main_v155 := by
  obtain ⟨a0, a1⟩ := idx_w2 t
  funext y
  show V c main_v155 (((cfg13.win 2).blk t).view.emb y) = _
  refine congrArg (V c main_v155) (funext fun a => Fin.ext ?_)
  match a with
  | ⟨0, _⟩ => show win13_2.index t (0 : Fin 2) * 1 + 1 * (y 0).val = (y 0).val; omega
  | ⟨1, _⟩ => show win13_2.index t (1 : Fin 2) * 128 + 1 * (y 1).val = (y 1).val; omega

/-- Window 3 is the whole array at every point. -/
theorem blkF3 (c : Dev nD) (t : Fin cfg13.N) : iblk13 V c 3 t = V c main_arg12 := by
  obtain ⟨a0, a1⟩ := idx_w3 t
  funext y
  show V c main_arg12 (((cfg13.win 3).blk t).view.emb y) = _
  refine congrArg (V c main_arg12) (funext fun a => Fin.ext ?_)
  match a with
  | ⟨0, _⟩ => show win13_3.index t (0 : Fin 2) * 128 + 1 * (y 0).val = (y 0).val; omega
  | ⟨1, _⟩ => show win13_3.index t (1 : Fin 2) * 128 + 1 * (y 1).val = (y 1).val; omega

/-- Window 4 is the whole array at every point. -/
theorem blkF4 (c : Dev nD) (t : Fin cfg13.N) : iblk13 V c 4 t = V c main_v156 := by
  obtain ⟨a0, a1⟩ := idx_w4 t
  funext y
  show V c main_v156 (((cfg13.win 4).blk t).view.emb y) = _
  refine congrArg (V c main_v156) (funext fun a => Fin.ext ?_)
  match a with
  | ⟨0, _⟩ => show win13_4.index t (0 : Fin 2) * 1 + 1 * (y 0).val = (y 0).val; omega
  | ⟨1, _⟩ => show win13_4.index t (1 : Fin 2) * 128 + 1 * (y 1).val = (y 1).val; omega

/-- What point t writes back is block t of the spec function of the arrays the region finds. -/
theorem flushed_eq (c : Dev nD) (t : Fin cfg13.N) :
    (dat13 V c).flushed 5 t = ((cfg13.win 5).blk t).view.read (Elt Ideal) (head (V c main_v154) (V c main_arg10) (V c main_v155) (V c main_arg12) (V c main_v156)) := by
  show (cfg13.win 5).cut (grid13.coords t) ((dat13 V c).after 5 t) = _
  rw [after13_5]
  unfold out13_5
  rw [View.canon_unit_zero hz]
  simp only [View.ld_unit_zero (S := S5000x128) hz, View.ld_unit_zero (S := S128x128) hz, View.ld_unit_zero (S := S1x128) hz]
  rw [pay_eq]
  funext j
  show head (iblk13 V c 0 t) (iblk13 V c 1 t) (iblk13 V c 2 t) (iblk13 V c 3 t) (iblk13 V c 4 t) j = head (V c main_v154) (V c main_arg10) (V c main_v155) (V c main_arg12) (V c main_v156) (((cfg13.win 5).blk t).view.emb j)
  rw [blkF1 V c t, blkF2 V c t, blkF3 V c t, blkF4 V c t]
  exact head_rows _ _ _ _ _ _ j _ (col_emb t j) (fun k => blk0_row V c t j k)

/-- An index of the array is in point t's block iff each coordinate is in the block's range on its axis. -/
theorem mem_blk (t : Fin cfg13.N) (i : S50000x128.Idx) :
    i ∈ ((cfg13.win 5).blk t).view.set ↔ ∀ a : Fin 2, win13_5.index t a * S5000x128.size a ≤ (i a).val ∧ (i a).val < win13_5.index t a * S5000x128.size a + S5000x128.size a := by
  show i ∈ ((View.whole main_v157).slice (win13_5.rect t)).set ↔ _
  rw [View.set_slice_whole, Rect.mem_set_unit]
  exact Iff.rfl

/-- Row r lies in the block of point r / 5000, and every point writes its block back. -/
theorem cover (i : S50000x128.Idx) :
    ∃ t : Fin cfg13.N, (cfg13.win 5).flush t = true ∧ i ∈ ((cfg13.win 5).blk t).view.set := by
  have hi0 : (i 0).val < 50000 := (i 0).isLt
  have hi1 : (i 1).val < 128 := (i 1).isLt
  obtain ⟨t, ht⟩ : ∃ t : Fin cfg13.N, t.val = (i 0).val / 5000 := ⟨⟨(i 0).val / 5000, by rw [show cfg13.N = 10 from N_13]; omega⟩, rfl⟩
  obtain ⟨o0, o1⟩ := idx_w5 t
  refine ⟨t, flush13_5 t, ?_⟩
  rw [mem_blk]
  intro a
  match a with
  | ⟨0, _⟩ => show win13_5.index t (0 : Fin 2) * 5000 ≤ (i 0).val ∧ (i 0).val < win13_5.index t (0 : Fin 2) * 5000 + 5000; omega
  | ⟨1, _⟩ => show win13_5.index t (1 : Fin 2) * 128 ≤ (i 1).val ∧ (i 1).val < win13_5.index t (1 : Fin 2) * 128 + 128; omega

/-- The region's output array after the region: the spec function of the arrays it found. -/
theorem final (c : Dev nD) : (dat13 V c).arrAt 5 cfg13.N = head (V c main_v154) (V c main_arg10) (V c main_v155) (V c main_arg12) (V c main_v156) :=
  (dat13 V c).arrAt_eq_of_cover 5 _ (fun t _ => flushed_eq V c t) cover

end Cert.KernelIdeal.Region13

end
-- ==== Proof.Chain2.lean ====
/-
  The second graph (the augmented features and edges) through the kernel's program, segment by segment, exactly as the first:
  every buffer a segment writes and a later one reads holds the reference's value at the boundary where it is written.
-/
import proofs.«179127_j38130719654217_1_alg».proof.Proof.Gen.KernelIdeal.Frame
import proofs.«179127_j38130719654217_1_alg».proof.Proof.ReadP
import proofs.«179127_j38130719654217_1_alg».proof.Proof.Bridge
import proofs.«179127_j38130719654217_1_alg».proof.Proof.Walk
import proofs.«179127_j38130719654217_1_alg».proof.Proof.ArgsB
import proofs.«179127_j38130719654217_1_alg».proof.Proof.Region7
import proofs.«179127_j38130719654217_1_alg».proof.Proof.Region8
import proofs.«179127_j38130719654217_1_alg».proof.Proof.Region9
import proofs.«179127_j38130719654217_1_alg».proof.Proof.Region10
import proofs.«179127_j38130719654217_1_alg».proof.Proof.Region11
import proofs.«179127_j38130719654217_1_alg».proof.Proof.Region12
import proofs.«179127_j38130719654217_1_alg».proof.Proof.Region13
import Idealize.ShloMosaic.Lib.StableHlo.Run

set_option maxRecDepth 16384

noncomputable section

namespace Cert.KernelIdeal.Chain2

open Cert.KernelIdeal Cert.KernelIdeal.Gen
open Idealize.ShloMosaic Idealize.ShloMosaic.TcCoe Idealize.SL.Sem Idealize.ShloMosaic.StableHlo
open Cert.Gcn

variable (m : (ℓ : Loc nD τ sig) → Buf (Elt Ideal) ℓ) (ρ : Dev nD → PrngReg)

open Cert.Lib.PlainDot
open Cert.KernelIdeal.Walk Cert.KernelIdeal.ArgsB

set_option maxHeartbeats 4000000 in
/-- v80, written by the host stretch that ends at boundary 13, is the reference's value there. -/
theorem val_v80 (c : Dev nD) : W13 m ρ c (Proc.devRef .tc main_v80) = Cert.ReferenceIdeal.ReadP.val_main_v149 (F := Ideal) (a3 m c) := by
  show StableHlo.after hostOps7 (W12 m ρ c) (Proc.devRef .tc main_v80) = _
  after_results_simp
  rw [at_arg3_12 m ρ c]
  rfl

theorem at_v80_14 (c : Dev nD) : W14 m ρ c (Proc.devRef .tc main_v80) = Cert.ReferenceIdeal.ReadP.val_main_v149 (F := Ideal) (a3 m c) :=
  (calc W14 m ρ c (Proc.devRef .tc main_v80)
    _ = W13 m ρ c (Proc.devRef .tc main_v80) := W14_of_ne m ρ c main_v80 (by decide)
  ).trans (val_v80 m ρ c)

theorem at_v80_17 (c : Dev nD) : W17 m ρ c (Proc.devRef .tc main_v80) = Cert.ReferenceIdeal.ReadP.val_main_v149 (F := Ideal) (a3 m c) :=
  (calc W17 m ρ c (Proc.devRef .tc main_v80)
    _ = W16 m ρ c (Proc.devRef .tc main_v80) := W17_of_ne m ρ c main_v80 (by decide)
    _ = W15 m ρ c (Proc.devRef .tc main_v80) := W16_of_ne m ρ c main_v80 (by decide)
    _ = W14 m ρ c (Proc.devRef .tc main_v80) := by host_skip
  ).trans (at_v80_14 m ρ c)

theorem at_v80_20 (c : Dev nD) : W20 m ρ c (Proc.devRef .tc main_v80) = Cert.ReferenceIdeal.ReadP.val_main_v149 (F := Ideal) (a3 m c) :=
  (calc W20 m ρ c (Proc.devRef .tc main_v80)
    _ = W19 m ρ c (Proc.devRef .tc main_v80) := W20_of_ne m ρ c main_v80 (by decide)
    _ = W18 m ρ c (Proc.devRef .tc main_v80) := W19_of_ne m ρ c main_v80 (by decide)
    _ = W17 m ρ c (Proc.devRef .tc main_v80) := by host_skip
  ).trans (at_v80_17 m ρ c)

set_option maxHeartbeats 4000000 in
/-- v82, written by the host stretch that ends at boundary 13, is the reference's value there. -/
theorem val_v82 (c : Dev nD) : W13 m ρ c (Proc.devRef .tc main_v82) = Cert.ReferenceIdeal.ReadP.val_main_v151 (F := Ideal) (a3 m c) := by
  show StableHlo.after hostOps7 (W12 m ρ c) (Proc.devRef .tc main_v82) = _
  after_results_simp
  rw [at_arg3_12 m ρ c]
  rfl

theorem at_v82_14 (c : Dev nD) : W14 m ρ c (Proc.devRef .tc main_v82) = Cert.ReferenceIdeal.ReadP.val_main_v151 (F := Ideal) (a3 m c) :=
  (calc W14 m ρ c (Proc.devRef .tc main_v82)
    _ = W13 m ρ c (Proc.devRef .tc main_v82) := W14_of_ne m ρ c main_v82 (by decide)
  ).trans (val_v82 m ρ c)

theorem at_v82_17 (c : Dev nD) : W17 m ρ c (Proc.devRef .tc main_v82) = Cert.ReferenceIdeal.ReadP.val_main_v151 (F := Ideal) (a3 m c) :=
  (calc W17 m ρ c (Proc.devRef .tc main_v82)
    _ = W16 m ρ c (Proc.devRef .tc main_v82) := W17_of_ne m ρ c main_v82 (by decide)
    _ = W15 m ρ c (Proc.devRef .tc main_v82) := W16_of_ne m ρ c main_v82 (by decide)
    _ = W14 m ρ c (Proc.devRef .tc main_v82) := by host_skip
  ).trans (at_v82_14 m ρ c)

theorem at_v82_20 (c : Dev nD) : W20 m ρ c (Proc.devRef .tc main_v82) = Cert.ReferenceIdeal.ReadP.val_main_v151 (F := Ideal) (a3 m c) :=
  (calc W20 m ρ c (Proc.devRef .tc main_v82)
    _ = W19 m ρ c (Proc.devRef .tc main_v82) := W20_of_ne m ρ c main_v82 (by decide)
    _ = W18 m ρ c (Proc.devRef .tc main_v82) := W19_of_ne m ρ c main_v82 (by decide)
    _ = W17 m ρ c (Proc.devRef .tc main_v82) := by host_skip
  ).trans (at_v82_17 m ρ c)

set_option maxHeartbeats 4000000 in
/-- v104, written by the host stretch that ends at boundary 13, is the reference's value there. -/
theorem val_v104 (c : Dev nD) : W13 m ρ c (Proc.devRef .tc main_v104) = Cert.ReferenceIdeal.ReadP.val_main_v174 (F := Ideal) (a3 m c) := by
  show StableHlo.after hostOps7 (W12 m ρ c) (Proc.devRef .tc main_v104) = _
  after_results_simp
  rw [at_arg3_12 m ρ c]
  rfl

theorem at_v104_14 (c : Dev nD) : W14 m ρ c (Proc.devRef .tc main_v104) = Cert.ReferenceIdeal.ReadP.val_main_v174 (F := Ideal) (a3 m c) :=
  (calc W14 m ρ c (Proc.devRef .tc main_v104)
    _ = W13 m ρ c (Proc.devRef .tc main_v104) := W14_of_ne m ρ c main_v104 (by decide)
  ).trans (val_v104 m ρ c)

theorem at_v104_17 (c : Dev nD) : W17 m ρ c (Proc.devRef .tc main_v104) = Cert.ReferenceIdeal.ReadP.val_main_v174 (F := Ideal) (a3 m c) :=
  (calc W17 m ρ c (Proc.devRef .tc main_v104)
    _ = W16 m ρ c (Proc.devRef .tc main_v104) := W17_of_ne m ρ c main_v104 (by decide)
    _ = W15 m ρ c (Proc.devRef .tc main_v104) := W16_of_ne m ρ c main_v104 (by decide)
    _ = W14 m ρ c (Proc.devRef .tc main_v104) := by host_skip
  ).trans (at_v104_14 m ρ c)

theorem at_v104_20 (c : Dev nD) : W20 m ρ c (Proc.devRef .tc main_v104) = Cert.ReferenceIdeal.ReadP.val_main_v174 (F := Ideal) (a3 m c) :=
  (calc W20 m ρ c (Proc.devRef .tc main_v104)
    _ = W19 m ρ c (Proc.devRef .tc main_v104) := W20_of_ne m ρ c main_v104 (by decide)
    _ = W18 m ρ c (Proc.devRef .tc main_v104) := W19_of_ne m ρ c main_v104 (by decide)
    _ = W17 m ρ c (Proc.devRef .tc main_v104) := by host_skip
  ).trans (at_v104_17 m ρ c)

set_option maxHeartbeats 4000000 in
/-- v106, written by the host stretch that ends at boundary 13, is the reference's value there. -/
theorem val_v106 (c : Dev nD) : W13 m ρ c (Proc.devRef .tc main_v106) = shapeCast S50000x1 (Cert.ReferenceIdeal.ReadP.val_main_v188 (F := Ideal) (a3 m c)) shapeCasts_S50000_S50000x1 := by
  show StableHlo.after hostOps7 (W12 m ρ c) (Proc.devRef .tc main_v106) = _
  after_results_simp
  rw [at_arg3_12 m ρ c]
  rfl

theorem at_v106_15 (c : Dev nD) : W15 m ρ c (Proc.devRef .tc main_v106) = shapeCast S50000x1 (Cert.ReferenceIdeal.ReadP.val_main_v188 (F := Ideal) (a3 m c)) shapeCasts_S50000_S50000x1 :=
  (calc W15 m ρ c (Proc.devRef .tc main_v106)
    _ = W14 m ρ c (Proc.devRef .tc main_v106) := by host_skip
    _ = W13 m ρ c (Proc.devRef .tc main_v106) := W14_of_ne m ρ c main_v106 (by decide)
  ).trans (val_v106 m ρ c)

theorem at_v106_18 (c : Dev nD) : W18 m ρ c (Proc.devRef .tc main_v106) = shapeCast S50000x1 (Cert.ReferenceIdeal.ReadP.val_main_v188 (F := Ideal) (a3 m c)) shapeCasts_S50000_S50000x1 :=
  (calc W18 m ρ c (Proc.devRef .tc main_v106)
    _ = W17 m ρ c (Proc.devRef .tc main_v106) := by host_skip
    _ = W16 m ρ c (Proc.devRef .tc main_v106) := W17_of_ne m ρ c main_v106 (by decide)
    _ = W15 m ρ c (Proc.devRef .tc main_v106) := (W16_arr m ρ c 2).trans (((dat8 (V15 m ρ) c).arrAt_in 2 rfl _).trans (A_eq8 (V15 m ρ) c 2))
  ).trans (at_v106_15 m ρ c)

theorem at_v106_21 (c : Dev nD) : W21 m ρ c (Proc.devRef .tc main_v106) = shapeCast S50000x1 (Cert.ReferenceIdeal.ReadP.val_main_v188 (F := Ideal) (a3 m c)) shapeCasts_S50000_S50000x1 :=
  (calc W21 m ρ c (Proc.devRef .tc main_v106)
    _ = W20 m ρ c (Proc.devRef .tc main_v106) := by host_skip
    _ = W19 m ρ c (Proc.devRef .tc main_v106) := W20_of_ne m ρ c main_v106 (by decide)
    _ = W18 m ρ c (Proc.devRef .tc main_v106) := (W19_arr m ρ c 2).trans (((dat10 (V18 m ρ) c).arrAt_in 2 rfl _).trans (A_eq10 (V18 m ρ) c 2))
  ).trans (at_v106_18 m ρ c)

set_option maxHeartbeats 4000000 in
/-- v107, written by region 7 that ends at boundary 14, is the reference's value there. -/
theorem val_v107 (c : Dev nD) : W14 m ρ c (Proc.devRef .tc main_v107) = Cert.ReferenceIdeal.ReadP.val_main_v152 (F := Ideal) (a2 m c) (a4 m c) := by
  refine (W14_arr m ρ c 2).trans ((Region7.final (V13 m ρ) c).trans ?_)
  show mm (W13 m ρ c (Proc.devRef .tc main_arg2)) (W13 m ρ c (Proc.devRef .tc main_arg4)) = _
  rw [at_arg2_13 m ρ c, at_arg4_13 m ρ c]
  exact (Cert.ReferenceIdeal.Bridge.dot_eq _ _).symm

theorem at_v107_15 (c : Dev nD) : W15 m ρ c (Proc.devRef .tc main_v107) = Cert.ReferenceIdeal.ReadP.val_main_v152 (F := Ideal) (a2 m c) (a4 m c) :=
  (calc W15 m ρ c (Proc.devRef .tc main_v107)
    _ = W14 m ρ c (Proc.devRef .tc main_v107) := by host_skip
  ).trans (val_v107 m ρ c)

set_option maxHeartbeats 4000000 in
/-- v120, written by the host stretch that ends at boundary 15, is the reference's value there. -/
theorem val_v120 (c : Dev nD) : W15 m ρ c (Proc.devRef .tc main_v120) = Cert.ReferenceIdeal.ReadP.val_main_v187 (F := Ideal) (a2 m c) (a3 m c) (a4 m c) := by
  show StableHlo.after hostOps8 (W14 m ρ c) (Proc.devRef .tc main_v120) = _
  after_results_simp
  rw [at_v80_14 m ρ c, val_v107 m ρ c, at_v104_14 m ρ c, at_v82_14 m ρ c]
  rfl

set_option maxHeartbeats 4000000 in
/-- v121, written by the host stretch that ends at boundary 15, is the reference's value there. -/
theorem val_v121 (c : Dev nD) : W15 m ρ c (Proc.devRef .tc main_v121) = shapeCast S1x128 (a5 m c) shapeCasts_S128_S1x128 := by
  show StableHlo.after hostOps8 (W14 m ρ c) (Proc.devRef .tc main_v121) = _
  after_results_simp
  rw [at_arg5_14 m ρ c]
  rfl

set_option maxHeartbeats 4000000 in
/-- v122, written by region 8 that ends at boundary 16, is the reference's value there. -/
theorem val_v122 (c : Dev nD) : W16 m ρ c (Proc.devRef .tc main_v122) = Cert.ReferenceIdeal.ReadP.val_main_v196 (F := Ideal) (a2 m c) (a3 m c) (a4 m c) (a5 m c) := by
  refine (W16_arr m ρ c 4).trans ((Region8.final (V15 m ρ) c).trans ?_)
  show convOut (W15 m ρ c (Proc.devRef .tc main_v120)) (W15 m ρ c (Proc.devRef .tc main_v107)) (W15 m ρ c (Proc.devRef .tc main_v106)) (W15 m ρ c (Proc.devRef .tc main_v121)) = _
  rw [val_v120 m ρ c, at_v107_15 m ρ c, at_v106_15 m ρ c, val_v121 m ρ c]
  exact Cert.ReferenceIdeal.Bridge.post_eq _ _ _ _ _ _

set_option maxHeartbeats 4000000 in
/-- v123, written by region 9 that ends at boundary 17, is the reference's value there. -/
theorem val_v123 (c : Dev nD) : W17 m ρ c (Proc.devRef .tc main_v123) = Cert.ReferenceIdeal.ReadP.val_main_v197 (F := Ideal) (a2 m c) (a3 m c) (a4 m c) (a5 m c) (a6 m c) := by
  refine (W17_arr m ρ c 2).trans ((Region9.final (V16 m ρ) c).trans ?_)
  show mm (W16 m ρ c (Proc.devRef .tc main_v122)) (W16 m ρ c (Proc.devRef .tc main_arg6)) = _
  rw [val_v122 m ρ c, at_arg6_16 m ρ c]
  exact (Cert.ReferenceIdeal.Bridge.dot_eq _ _).symm

theorem at_v123_18 (c : Dev nD) : W18 m ρ c (Proc.devRef .tc main_v123) = Cert.ReferenceIdeal.ReadP.val_main_v197 (F := Ideal) (a2 m c) (a3 m c) (a4 m c) (a5 m c) (a6 m c) :=
  (calc W18 m ρ c (Proc.devRef .tc main_v123)
    _ = W17 m ρ c (Proc.devRef .tc main_v123) := by host_skip
  ).trans (val_v123 m ρ c)

set_option maxHeartbeats 4000000 in
/-- v136, written by the host stretch that ends at boundary 18, is the reference's value there. -/
theorem val_v136 (c : Dev nD) : W18 m ρ c (Proc.devRef .tc main_v136) = Cert.ReferenceIdeal.ReadP.val_main_v232 (F := Ideal) (a2 m c) (a3 m c) (a4 m c) (a5 m c) (a6 m c) := by
  show StableHlo.after hostOps10 (W17 m ρ c) (Proc.devRef .tc main_v136) = _
  after_results_simp
  rw [at_v80_17 m ρ c, val_v123 m ρ c, at_v104_17 m ρ c, at_v82_17 m ρ c]
  rfl

set_option maxHeartbeats 4000000 in
/-- v137, written by the host stretch that ends at boundary 18, is the reference's value there. -/
theorem val_v137 (c : Dev nD) : W18 m ρ c (Proc.devRef .tc main_v137) = shapeCast S1x128 (a7 m c) shapeCasts_S128_S1x128 := by
  show StableHlo.after hostOps10 (W17 m ρ c) (Proc.devRef .tc main_v137) = _
  after_results_simp
  rw [at_arg7_17 m ρ c]
  rfl

set_option maxHeartbeats 4000000 in
/-- v138, written by region 10 that ends at boundary 19, is the reference's value there. -/
theorem val_v138 (c : Dev nD) : W19 m ρ c (Proc.devRef .tc main_v138) = Cert.ReferenceIdeal.ReadP.val_main_v241 (F := Ideal) (a2 m c) (a3 m c) (a4 m c) (a5 m c) (a6 m c) (a7 m c) := by
  refine (W19_arr m ρ c 4).trans ((Region10.final (V18 m ρ) c).trans ?_)
  show convOut (W18 m ρ c (Proc.devRef .tc main_v136)) (W18 m ρ c (Proc.devRef .tc main_v123)) (W18 m ρ c (Proc.devRef .tc main_v106)) (W18 m ρ c (Proc.devRef .tc main_v137)) = _
  rw [val_v136 m ρ c, at_v123_18 m ρ c, at_v106_18 m ρ c, val_v137 m ρ c]
  exact Cert.ReferenceIdeal.Bridge.post_eq _ _ _ _ _ _

set_option maxHeartbeats 4000000 in
/-- v139, written by region 11 that ends at boundary 20, is the reference's value there. -/
theorem val_v139 (c : Dev nD) : W20 m ρ c (Proc.devRef .tc main_v139) = Cert.ReferenceIdeal.ReadP.val_main_v242 (F := Ideal) (a2 m c) (a3 m c) (a4 m c) (a5 m c) (a6 m c) (a7 m c) (a8 m c) := by
  refine (W20_arr m ρ c 2).trans ((Region11.final (V19 m ρ) c).trans ?_)
  show mm (W19 m ρ c (Proc.devRef .tc main_v138)) (W19 m ρ c (Proc.devRef .tc main_arg8)) = _
  rw [val_v138 m ρ c, at_arg8_19 m ρ c]
  exact (Cert.ReferenceIdeal.Bridge.dot_eq _ _).symm

theorem at_v139_21 (c : Dev nD) : W21 m ρ c (Proc.devRef .tc main_v139) = Cert.ReferenceIdeal.ReadP.val_main_v242 (F := Ideal) (a2 m c) (a3 m c) (a4 m c) (a5 m c) (a6 m c) (a7 m c) (a8 m c) :=
  (calc W21 m ρ c (Proc.devRef .tc main_v139)
    _ = W20 m ρ c (Proc.devRef .tc main_v139) := by host_skip
  ).trans (val_v139 m ρ c)

set_option maxHeartbeats 4000000 in
/-- v152, written by the host stretch that ends at boundary 21, is the reference's value there. -/
theorem val_v152 (c : Dev nD) : W21 m ρ c (Proc.devRef .tc main_v152) = Cert.ReferenceIdeal.ReadP.val_main_v277 (F := Ideal) (a2 m c) (a3 m c) (a4 m c) (a5 m c) (a6 m c) (a7 m c) (a8 m c) := by
  show StableHlo.after hostOps12 (W20 m ρ c) (Proc.devRef .tc main_v152) = _
  after_results_simp
  rw [at_v80_20 m ρ c, val_v139 m ρ c, at_v104_20 m ρ c, at_v82_20 m ρ c]
  rfl

set_option maxHeartbeats 4000000 in
/-- v153, written by the host stretch that ends at boundary 21, is the reference's value there. -/
theorem val_v153 (c : Dev nD) : W21 m ρ c (Proc.devRef .tc main_v153) = shapeCast S1x128 (a9 m c) shapeCasts_S128_S1x128 := by
  show StableHlo.after hostOps12 (W20 m ρ c) (Proc.devRef .tc main_v153) = _
  after_results_simp
  rw [at_arg9_20 m ρ c]
  rfl

set_option maxHeartbeats 4000000 in
/-- v154, written by region 12 that ends at boundary 22, is the reference's value there. -/
theorem val_v154 (c : Dev nD) : W22 m ρ c (Proc.devRef .tc main_v154) = Cert.ReferenceIdeal.ReadP.val_main_v286 (F := Ideal) (a2 m c) (a3 m c) (a4 m c) (a5 m c) (a6 m c) (a7 m c) (a8 m c) (a9 m c) := by
  refine (W22_arr m ρ c 4).trans ((Region12.final (V21 m ρ) c).trans ?_)
  show convOut (W21 m ρ c (Proc.devRef .tc main_v152)) (W21 m ρ c (Proc.devRef .tc main_v139)) (W21 m ρ c (Proc.devRef .tc main_v106)) (W21 m ρ c (Proc.devRef .tc main_v153)) = _
  rw [val_v152 m ρ c, at_v139_21 m ρ c, at_v106_21 m ρ c, val_v153 m ρ c]
  exact Cert.ReferenceIdeal.Bridge.post_eq _ _ _ _ _ _

theorem at_v154_23 (c : Dev nD) : W23 m ρ c (Proc.devRef .tc main_v154) = Cert.ReferenceIdeal.ReadP.val_main_v286 (F := Ideal) (a2 m c) (a3 m c) (a4 m c) (a5 m c) (a6 m c) (a7 m c) (a8 m c) (a9 m c) :=
  (calc W23 m ρ c (Proc.devRef .tc main_v154)
    _ = W22 m ρ c (Proc.devRef .tc main_v154) := by host_skip
  ).trans (val_v154 m ρ c)

set_option maxHeartbeats 4000000 in
/-- v155, written by the host stretch that ends at boundary 23, is the reference's value there. -/
theorem val_v155 (c : Dev nD) : W23 m ρ c (Proc.devRef .tc main_v155) = shapeCast S1x128 (a11 m c) shapeCasts_S128_S1x128 := by
  show StableHlo.after hostOps13 (W22 m ρ c) (Proc.devRef .tc main_v155) = _
  after_results_simp
  rw [at_arg11_22 m ρ c]
  rfl

set_option maxHeartbeats 4000000 in
/-- v156, written by the host stretch that ends at boundary 23, is the reference's value there. -/
theorem val_v156 (c : Dev nD) : W23 m ρ c (Proc.devRef .tc main_v156) = shapeCast S1x128 (a13 m c) shapeCasts_S128_S1x128 := by
  show StableHlo.after hostOps13 (W22 m ρ c) (Proc.devRef .tc main_v156) = _
  after_results_simp
  rw [at_arg13_22 m ρ c]
  rfl

set_option maxHeartbeats 4000000 in
/-- v157, written by region 13 that ends at boundary 24, is the reference's value there. -/
theorem val_v157 (c : Dev nD) : W24 m ρ c (Proc.devRef .tc main_v157) = Cert.ReferenceIdeal.ReadP.val_main_v295 (F := Ideal) (a2 m c) (a3 m c) (a4 m c) (a5 m c) (a6 m c) (a7 m c) (a8 m c) (a9 m c) (a10 m c) (a11 m c) (a12 m c) (a13 m c) := by
  refine (W24_arr m ρ c 5).trans ((Region13.final (V23 m ρ) c).trans ?_)
  show head (W23 m ρ c (Proc.devRef .tc main_v154)) (W23 m ρ c (Proc.devRef .tc main_arg10)) (W23 m ρ c (Proc.devRef .tc main_v155)) (W23 m ρ c (Proc.devRef .tc main_arg12)) (W23 m ρ c (Proc.devRef .tc main_v156)) = _
  rw [at_v154_23 m ρ c, at_arg10_23 m ρ c, val_v155 m ρ c, at_arg12_23 m ρ c, val_v156 m ρ c]
  exact Cert.ReferenceIdeal.Bridge.head_eq _ _ _ _ _ _

end Cert.KernelIdeal.Chain2

end
-- ==== Proof.Final.lean ====
/-
  The claims.  The kernel's program is fourteen row-blocked regions (per graph: three matrix products, three post-processing
  steps, one two-layer head) among host stretches that gather along the edges, scale and scatter-add — the same host
  operations, on the same operands, that the reference applies.  Each region computes, block of rows by block of rows, the
  layer function that the reference computes on the whole array: the product x·W (an exact sum on the extended reals, however
  the rows are blocked and whatever the float format of the factors), max (agg + h·d + b) 0, and the two dense layers of the
  head.  The degree-based coefficients are computed once per graph by the kernel and once per layer by the reference, from the
  same edge list by the same operations.  No law of arithmetic is needed beyond reading both sides index by index, so the
  finiteness of the inputs is not used.
-/
import proofs.«179127_j38130719654217_1_alg».proof.Defs
import proofs.«179127_j38130719654217_1_alg».proof.Proof.Gen.Pre_finite_inputs
import proofs.«179127_j38130719654217_1_alg».proof.Proof.Gen.Kernel.Frame
import proofs.«179127_j38130719654217_1_alg».proof.Proof.Gen.KernelIdeal.Frame
import proofs.«179127_j38130719654217_1_alg».proof.Proof.KRun
import proofs.«179127_j38130719654217_1_alg».proof.Proof.RunP
import proofs.«179127_j38130719654217_1_alg».proof.Proof.ReadP
import proofs.«179127_j38130719654217_1_alg».proof.Proof.Chain1
import proofs.«179127_j38130719654217_1_alg».proof.Proof.Chain2

set_option maxRecDepth 16384

noncomputable section

namespace Cert.Proof.Final

open Idealize.ShloMosaic Idealize.ShloMosaic.TcCoe Idealize.SL.Sem

/-- The idealized kernel's run: the two results end at the reference's two result functions of the launch arguments. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v78) = Cert.ReferenceIdeal.ReadP.val_main_v147 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      ∧ r.2.mem ((c.tc : Thread Cert.KernelIdeal.nD Cert.KernelIdeal.τ).loc Cert.KernelIdeal.main_v157) = Cert.ReferenceIdeal.ReadP.val_main_v295 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) :=
  (θ_run (Cert.KernelIdeal.defs (F := Ideal)) _ _).mono
    (fun r h c => ⟨(h c).1.trans (Cert.KernelIdeal.Chain1.at_v78_24 m ρ c), (h c).2.1.trans (Cert.KernelIdeal.Chain2.val_v157 m ρ c), (h c).2.2⟩)
    (Cert.KernelIdeal.KRun.run_values (F := Ideal) m ρ)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- Both programs end with each result at the reference's stage of the arguments, and the arguments agree. -/
theorem algebraic : Cert.algebraic_KernelIdeal_ReferenceIdeal := by
  intro m ρ m' ρ' _ hagree
  refine ⟨_, _, kernel_run m ρ, ?_⟩
  refine (θ_run Cert.ReferenceIdeal.defs _ _).mono (fun r h c => ?_) (Cert.ReferenceIdeal.ValueP.run (F := Ideal) m' ρ')
  obtain ⟨h0, h1, h2, h3, h4, h5, h6, h7, h8, h9, h10, h11, h12, h13⟩ := hagree c
  refine ⟨?_, ?_, (h c).2.2⟩
  · refine ((h c).1.trans (Cert.ReferenceIdeal.ReadP.val_main_v147_eq m' c)).trans ?_
    rw [h0, h1, h4, h5, h6, h7, h8, h9, h10, h11, h12, h13]
  · refine ((h c).2.1.trans (Cert.ReferenceIdeal.ReadP.val_main_v295_eq m' c)).trans ?_
    rw [h2, h3, h4, h5, h6, h7, h8, h9, h10, h11, h12, h13]

end Cert.Proof.Final

end
-- ==== Proof.lean ====
/-
  A two-graph graph-convolution network (three convolution layers and a two-layer head per graph) as a kernel of fourteen
  row-blocked regions among host gather / scatter-add stretches, against the plain reference: the five claims.  The
  mathematics is in Proof/Final.lean and the modules it imports: Spec.lean (the layer functions), Region<K>.lean (each region
  computes its layer function of the arrays it finds), Bridge.lean (the reference spells the same functions), Chain1.lean and
  Chain2.lean (buffer by buffer through the program, each graph), KRun.lean (the kernel's run with its results named).
-/
import proofs.«179127_j38130719654217_1_alg».proof.Defs
import proofs.«179127_j38130719654217_1_alg».proof.Proof.Gen.Kernel
import proofs.«179127_j38130719654217_1_alg».proof.Proof.Gen.KernelIdeal
import proofs.«179127_j38130719654217_1_alg».proof.Proof.Gen.ReferenceIdeal
import proofs.«179127_j38130719654217_1_alg».proof.Proof.Gen.Pre_finite_inputs
import proofs.«179127_j38130719654217_1_alg».proof.Proof.Final
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Final.frame_k, Cert.Proof.Final.frame_ki, Cert.Proof.Final.frame_ri, Cert.Proof.Final.preserves, Cert.Proof.Final.algebraic⟩

end Cert.Proof

end
